-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S4x128 .f32) (main_arg7 : FVec F S4x128 .f32) (main_arg8 : FVec F S4x128 .f32) (main_arg9 : FVec F S128x128 .f32) (main_arg10 : FVec F S128 .f32) (main_arg11 : FVec F S128x1 .f32) (main_arg12 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128 .f32) (main_arg6 : FVec F S4x128 .f32) (main_arg7 : FVec F S4x128 .f32) (main_arg8 : FVec F S4x128 .f32) (main_arg9 : FVec F S128x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S5000x128 : Shape := ⟨2, ![5000, 128]⟩
abbrev S1600000x128 : Shape := ⟨2, ![1600000, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1x1 : Shape := ⟨2, ![1, 1]⟩

abbrev nBuf : Space → Nat
  | .hbm => 215
  | .vmem => 50
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S_, .f32⟩
  | 48 => ⟨S100000, .f32⟩
  | 49 => ⟨S100000, .f32⟩
  | 50 => ⟨S100000x1, .f32⟩
  | 51 => ⟨S1x128x128, .f32⟩
  | 52 => ⟨S128x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x128x128, .f32⟩
  | 27 => ⟨S128x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S100000x128, .f32⟩
  | 68 => ⟨S_, .f32⟩
  | 69 => ⟨S100000, .f32⟩
  | 70 => ⟨S_, .f32⟩
  | 71 => ⟨S4096x128, .f32⟩
  | 72 => ⟨S100000x1, .i32⟩
  | 73 => ⟨S4096x128, .f32⟩
  | 74 => ⟨S_, .f32⟩
  | 75 => ⟨S4096, .f32⟩
  | 76 => ⟨S100000x1, .i32⟩
  | 77 => ⟨S4096, .f32⟩
  | 78 => ⟨S_, .f32⟩
  | 79 => ⟨S4096, .f32⟩
  | 80 => ⟨S4096, .f32⟩
  | 81 => ⟨S4096x1, .f32⟩
  | 82 => ⟨S4096x128, .f32⟩
  | 83 => ⟨S4096x128, .f32⟩
  | 84 => ⟨S1x128, .f32⟩
  | 85 => ⟨S1x1, .f32⟩
  | 86 => ⟨S4096x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S4096x128, .f32⟩
  | .local _ .vmem, ⟨45, _⟩ => ⟨S128x128, .f32⟩
  | .local _ .vmem, ⟨46, _⟩ => ⟨S1x128, .f32⟩
  | .local _ .vmem, ⟨47, _⟩ => ⟨S128x1, .f32⟩
  | .local _ .vmem, ⟨48, _⟩ => ⟨S1x1, .f32⟩
  | .local _ .vmem, ⟨49, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_9 : Ref sig .tc := ⟨.hbm, 90, rfl⟩
abbrev main_v66 : Ref sig .tc := ⟨.hbm, 91, rfl⟩
abbrev main_v67 : Ref sig .tc := ⟨.hbm, 92, rfl⟩
abbrev main_c_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_c_12 : Ref sig .tc := ⟨.hbm, 126, rfl⟩
abbrev main_v99 : Ref sig .tc := ⟨.hbm, 127, rfl⟩
abbrev main_v100 : Ref sig .tc := ⟨.hbm, 128, rfl⟩
abbrev main_c_13 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_14 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_c_15 : Ref sig .tc := ⟨.hbm, 162, rfl⟩
abbrev main_v132 : Ref sig .tc := ⟨.hbm, 163, rfl⟩
abbrev main_v133 : Ref sig .tc := ⟨.hbm, 164, rfl⟩
abbrev main_c_16 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_17 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_18 : Ref sig .tc := ⟨.hbm, 196, rfl⟩
abbrev main_v163 : Ref sig .tc := ⟨.hbm, 197, rfl⟩
abbrev main_cst_19 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_20 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_21 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4096x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S4096x128.size a
  hwx5_0 : ∀ i : grid5.Coords, EltTy.bits .f32 = 32 ∨ (Rect.block (s := S4096x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S4096x1.size a ≤ S4096x1.size a
  hwx5_5 : ∀ i : grid5.Coords, EltTy.bits .f32 = 32 ∨ (Rect.block (s := S4096x1) S4096x1.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v80) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v95) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v98) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v113) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v126) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v127) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v128) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v129) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v130) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v125) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v131) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v146) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v157) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v158) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v159) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v160) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v161) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v162) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v174) S4096x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v175) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v176) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v177) S4096x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S1600000x128 : Shape := ⟨2, ![1600000, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1x1 : Shape := ⟨2, ![1, 1]⟩

abbrev nBuf : Space → Nat
  | .hbm => 290
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S_, .f32⟩
  | 48 => ⟨S100000, .f32⟩
  | 49 => ⟨S100000, .f32⟩
  | 50 => ⟨S100000x1, .f32⟩
  | 51 => ⟨S1x128x128, .f32⟩
  | 52 => ⟨S128x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S1600000x128, .f32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x128, .f32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S_, .f32⟩
  | 124 => ⟨S128, .f32⟩
  | 125 => ⟨S128, .f32⟩
  | 126 => ⟨S128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S100000, .f32⟩
  | 9 => ⟨S_, .f32⟩
  | 10 => ⟨S4096x128, .f32⟩
  | 11 => ⟨S100000x1, .i32⟩
  | 12 => ⟨S4096x128, .f32⟩
  | 13 => ⟨S_, .f32⟩
  | 14 => ⟨S4096, .f32⟩
  | 15 => ⟨S100000x1, .i32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x128, .f32⟩
  | 22 => ⟨S4096x128, .f32⟩
  | 23 => ⟨S4096x128, .f32⟩
  | 24 => ⟨S1x128, .f32⟩
  | 25 => ⟨S4096x128, .f32⟩
  | 26 => ⟨S4096x128, .f32⟩
  | 27 => ⟨S_, .f32⟩
  | 28 => ⟨S4096x128, .f32⟩
  | 29 => ⟨S4096x128, .f32⟩
  | 30 => ⟨S4096x1, .f32⟩
  | 31 => ⟨S1x1, .f32⟩
  | 32 => ⟨S4096x1, .f32⟩
  | 33 => ⟨S4096x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call0_cst : Ref sig .tc := ⟨.hbm, 77, rfl⟩
abbrev main_call0_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_10 : Ref sig .tc := ⟨.hbm, 107, rfl⟩
abbrev main_v80 : Ref sig .tc := ⟨.hbm, 108, rfl⟩
abbrev main_v81 : Ref sig .tc := ⟨.hbm, 109, rfl⟩
abbrev main_c_11 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call1_cst : Ref sig .tc := ⟨.hbm, 130, rfl⟩
abbrev main_call1_v0 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_13 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_14 : Ref sig .tc := ⟨.hbm, 160, rfl⟩
abbrev main_v127 : Ref sig .tc := ⟨.hbm, 161, rfl⟩
abbrev main_v128 : Ref sig .tc := ⟨.hbm, 162, rfl⟩
abbrev main_c_15 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_16 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_call2_cst : Ref sig .tc := ⟨.hbm, 183, rfl⟩
abbrev main_call2_v0 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_17 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_c_18 : Ref sig .tc := ⟨.hbm, 213, rfl⟩
abbrev main_v174 : Ref sig .tc := ⟨.hbm, 214, rfl⟩
abbrev main_v175 : Ref sig .tc := ⟨.hbm, 215, rfl⟩
abbrev main_c_19 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_20 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_call3_cst : Ref sig .tc := ⟨.hbm, 236, rfl⟩
abbrev main_call3_v0 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_cst_21 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_cst_22 : Ref sig .tc := ⟨.hbm, 263, rfl⟩
abbrev main_v218 : Ref sig .tc := ⟨.hbm, 264, rfl⟩
abbrev main_cst_23 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_cst_24 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_cst_25 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_call4_cst : Ref sig .tc := ⟨.hbm, 283, rfl⟩
abbrev main_call4_v0 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.KRun.lean ====
/-
  The idealized kernel program's run with its result named.  The program is six kernel regions among stretches of host
  operations; the contents of every buffer at each boundary are a fold through the program from the launch memory, and the
  run ends with every buffer at the last boundary's contents.  So the result buffer ends at the last boundary's value of
  it, and every argument as launched: the same run as the frame's, with one more buffer read off the final state.
-/
import proofs.«100997_j79285096284187_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v177) = W12 m ρ c (Proc.devRef .tc main_v177)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v177 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.Spec.lean ====
/-
  The mathematics of the certificate, stated once over coordinates and extended reals (the ideal reading of a float).

  A graph-convolution layer is: a dense map of the node features (`lin`: row r, column c of h·W is Σ_k h r k · W k c), a
  neighbourhood aggregation shared verbatim by the two programs (gather along the edges, scale, scatter-add, plus the
  self-loop term; never opened here), then bias, ReLU and batch normalisation entry by entry (`bn`).  The head is a
  two-layer perceptron on the pooled features (`head`).  The kernel computes lin ∘ bn of one layer in ONE call where
  the reference computes bn, then lin, as separate array operations; at the ideal reading both are the same sums of
  the same products, so no law of arithmetic beyond reading each array at an index is used.
-/
import Idealize.ShloMosaic.PureOps.Ideal
import Idealize.ShloMosaic.Lib.ValueIdx

noncomputable section

namespace Cert.Spec

open Idealize.ShloMosaic Idealize.ShloMosaic.ValueIdx
open scoped BigOperators

/-- The two float literals of a layer, as the extended reals their words denote: +0.0 (the ReLU's floor) and
    float32(1e-5) (the normalisation's epsilon).  Both programs carry the same two words, so neither is ever evaluated. -/
abbrev z0 : EReal := Ideal.ofBits .f32 0x00000000#32
abbrev eps : EReal := Ideal.ofBits .f32 0x3727C5AC#32

/-- Bias, ReLU and batch normalisation of one entry: γ · (max (a + b) 0 − μ) · rsqrt (σ² + ε) + β, associated as both programs
    associate it. -/
def bn (a b g mu var be : EReal) : EReal := g * (max (a + b) z0 - mu) * Ideal.rsqrt (var + eps) + be

/-- The same over a whole feature matrix, the five parameters indexed by the column. -/
def bnRows {n : ℕ} (a : Fin n → Fin 128 → EReal) (b g mu var be : Fin 128 → EReal) : Fin n → Fin 128 → EReal :=
  fun r k => bn (a r k) (b k) (g k) (mu k) (var k) (be k)

/-- The dense map of a layer: entry (r, c) of h · W. -/
def lin {n : ℕ} (h : Fin n → Fin 128 → EReal) (w : Fin 128 → Fin 128 → EReal) : Fin n → Fin 128 → EReal :=
  fun r c => ∑ k : Fin 128, h r k * w k c

/-- The head: relu (p · W₁ + b₁) · w₂ + b₂, one number per graph. -/
def head (p : Fin 4096 → Fin 128 → EReal) (w1 : Fin 128 → Fin 128 → EReal) (b1 : Fin 128 → EReal) (w2 : Fin 128 → EReal)
    (b2 : EReal) : Fin 4096 → EReal :=
  fun g => (∑ k : Fin 128, max ((∑ l : Fin 128, p g l * w1 l k) + b1 k) z0 * w2 k) + b2

/-! ## Arrays and coordinates -/

/-- A rank-2 array from its entries by coordinates. -/
def arr2 {a b : ℕ} (f : Fin a → Fin b → EReal) : (⟨2, ![a, b]⟩ : Shape).Idx → EReal := fun i => f (i 0) (i 1)

theorem arr2_ix2 {a b : ℕ} (f : Fin a → Fin b → EReal) (p : Fin a) (q : Fin b) : arr2 f (ix2 p q) = f p q := rfl

/-- The entries of a rank-2 array by coordinates. -/
def cur2 {a b : ℕ} (A : (⟨2, ![a, b]⟩ : Shape).Idx → EReal) : Fin a → Fin b → EReal := fun p q => A (ix2 p q)

theorem arr2_cur2 {a b : ℕ} (A : (⟨2, ![a, b]⟩ : Shape).Idx → EReal) : arr2 (cur2 A) = A :=
  funext fun i => congrArg A (eq_ix2 i).symm

/-- The one row of a [1, n] array. -/
def row {n : ℕ} (P : (⟨2, ![1, n]⟩ : Shape).Idx → EReal) : Fin n → EReal := fun k => P (ix2 (0 : Fin 1) k)

/-- The one column of an [n, 1] array. -/
def col {n : ℕ} (P : (⟨2, ![n, 1]⟩ : Shape).Idx → EReal) : Fin n → EReal := fun k => P (ix2 k (0 : Fin 1))

/-- An [n, 1] array from its column. -/
def arrCol {n : ℕ} (f : Fin n → EReal) : (⟨2, ![n, 1]⟩ : Shape).Idx → EReal := fun i => f (i 0)

/-- Row l of a [4, 128] parameter table, and slab l of the [4, 128, 128] weights. -/
def prow (A : (⟨2, ![4, 128]⟩ : Shape).Idx → EReal) (l : Fin 4) : Fin 128 → EReal := fun k => A (ix2 l k)
def wslab (A : (⟨3, ![4, 128, 128]⟩ : Shape).Idx → EReal) (l : Fin 4) : Fin 128 → Fin 128 → EReal := fun k c => A (ix3 l k c)

end Cert.Spec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.RefLayers.lean ====
/-
  The reference's four graph-convolution layers and its head, read entry by entry.

  Each dense map of the reference is a dot_general of the previous layer's normalised features with one slab of the
  weights; each normalisation is a chain of entrywise operations on broadcasts of one row of the five parameter tables.
  Read at an entry (p, q), the dot is the sum over k of the left operand at (p, k) times the slab at (k, q), and every
  broadcast, slice and reshape of a parameter row reads the table at (l, k).  The aggregation of each layer and the
  pooled features are left as opaque arrays.
-/
import proofs.«100997_j79285096284187_1_alg».proof.Proof.RefRead
import proofs.«100997_j79285096284187_1_alg».proof.Proof.Spec
import proofs.«100997_j79285096284187_1_alg».proof.Proof.LibDot

noncomputable section

namespace Cert.ReferenceIdeal.RefVal

open Cert.ReferenceIdeal Cert.ReferenceIdeal.ReadP Idealize.ShloMosaic Idealize.ShloMosaic.ValueIdx
open scoped BigOperators

/-! ## The first dense map -/

/-- Slab 0 of the weights, through its slice and reshape, at (k, q). -/
theorem w0_idx (k q : Fin 128) : idx_main_v30 (idx_main_v31 (ix2 k q)) = ix3 (0 : Fin 4) k q := by
  funext a; apply Fin.ext
  match a with
  | ⟨0, _⟩ => rfl
  | ⟨1, _⟩ => show (k.val * 128 + q.val) / 128 % 128 = k.val; omega
  | ⟨2, _⟩ => show (k.val * 128 + q.val) % 128 = q.val; omega

theorem lin0 (x0 : (⟨S100000x128, .f32⟩ : BufTy).Contents (Elt Ideal)) (x3 : (⟨S4x128x128, .f32⟩ : BufTy).Contents (Elt Ideal)) :
    val_main_v32 (F := Ideal) x0 x3 = Spec.arr2 (Spec.lin (Spec.cur2 x0) (Spec.wslab x3 0)) := by
  funext i
  obtain ⟨p, q, rfl⟩ : ∃ (p : Fin 100000) (q : Fin 128), i = ix2 p q := ⟨i 0, i 1, eq_ix2 i⟩
  rw [val_main_v32_apply]
  show _ = ∑ k : Fin 128, x0 (ix2 p k) * x3 (ix3 (0 : Fin 4) k q)
  refine Finset.sum_congr rfl fun k _ => ?_
  rw [val_main_v31_apply, val_main_v30_apply]
  have hl : lidx_main_v32 (ix2 p q) k = ix2 p k := by
    funext a; apply Fin.ext
    match a with
    | ⟨0, _⟩ => rfl
    | ⟨1, _⟩ => rfl
  have hr : ridx_main_v32 (ix2 p q) k = ix2 k q := by
    funext a; apply Fin.ext
    match a with
    | ⟨0, _⟩ => rfl
    | ⟨1, _⟩ => rfl
  rw [hl, hr, w0_idx]

/-! ## Layer 0 -/

/-- The bias of layer 0, broadcast over the rows, at (p, k). -/
theorem bias0_at (x4 : (⟨S4x128, .f32⟩ : BufTy).Contents (Elt Ideal)) (p : Fin 100000) (k : Fin 128) :
    val_main_v51 (F := Ideal) x4 (ix2 p k) = x4 (ix2 (0 : Fin 4) k) := by
  rw [val_main_v51_apply, val_main_v50_apply, val_main_v49_apply, val_main_v48_apply]
  refine congrArg x4 (funext fun a => Fin.ext ?_)
  match a with
  | ⟨0, _⟩ => rfl
  | ⟨1, _⟩ => show k.val % 128 = k.val; omega

/-- The running mean of layer 0, broadcast over the rows, at (p, k). -/
theorem mean0_at (x7 : (⟨S4x128, .f32⟩ : BufTy).Contents (Elt Ideal)) (p : Fin 100000) (k : Fin 128) :
    val_main_v59 (F := Ideal) x7 (ix2 p k) = x7 (ix2 (0 : Fin 4) k) := by
  rw [val_main_v59_apply, val_main_v58_apply, val_main_v57_apply, val_main_v56_apply]
  refine congrArg x7 (funext fun a => Fin.ext ?_)
  match a with
  | ⟨0, _⟩ => rfl
  | ⟨1, _⟩ => show k.val % 128 = k.val; omega

/-- The scale γ of layer 0, broadcast over the rows, at (p, k). -/
theorem gamma0_at (x5 : (⟨S4x128, .f32⟩ : BufTy).Contents (Elt Ideal)) (p : Fin 100000) (k : Fin 128) :
    val_main_v62 (F := Ideal) x5 (ix2 p k) = x5 (ix2 (0 : Fin 4) k) := by
  rw [val_main_v62_apply, val_main_v61_apply, val_main_v55_apply, val_main_v54_apply]
  refine congrArg x5 (funext fun a => Fin.ext ?_)
  match a with
  | ⟨0, _⟩ => rfl
  | ⟨1, _⟩ => show k.val % 128 = k.val; omega

/-- The shift β of layer 0, broadcast over the rows, at (p, k). -/
theorem beta0_at (x6 : (⟨S4x128, .f32⟩ : BufTy).Contents (Elt Ideal)) (p : Fin 100000) (k : Fin 128) :
    val_main_v75 (F := Ideal) x6 (ix2 p k) = x6 (ix2 (0 : Fin 4) k) := by
  rw [val_main_v75_apply, val_main_v74_apply, val_main_v73_apply, val_main_v72_apply]
  refine congrArg x6 (funext fun a => Fin.ext ?_)
  match a with
  | ⟨0, _⟩ => rfl
  | ⟨1, _⟩ => show k.val % 128 = k.val; omega

/-- The reciprocal root of the running variance plus ε of layer 0, broadcast over the rows, at (p, k). -/
theorem rstd0_at (x8 : (⟨S4x128, .f32⟩ : BufTy).Contents (Elt Ideal)) (p : Fin 100000) (k : Fin 128) :
    val_main_v70 (F := Ideal) x8 (ix2 p k) = Ideal.rsqrt (x8 (ix2 (0 : Fin 4) k) + Spec.eps) := by
  rw [val_main_v70_apply, val_main_v69_apply, val_main_v68_apply, val_main_v67_apply, val_main_v66_apply,
    val_main_cst_9_apply, val_main_v65_apply, val_main_v64_apply]
  have e : idx_main_v64 (idx_main_v65 (idx_main_v69 (idx_main_v70 (ix2 p k)))) = ix2 (0 : Fin 4) k := by
    funext a; apply Fin.ext
    match a with
    | ⟨0, _⟩ => rfl
    | ⟨1, _⟩ => show k.val % 128 = k.val; omega
  rw [e]
  rfl

/-- Bias, ReLU and batch normalisation of layer 0 at (p, k), over the layer's aggregation. -/
theorem norm0_at (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 100000) (k : Fin 128) :
    val_main_v76 (F := Ideal) x0 x1 x3 x4 x5 x6 x7 x8 (ix2 p k)
      = Spec.bn (val_main_v47 (F := Ideal) x0 x1 x3 (ix2 p k)) (x4 (ix2 (0 : Fin 4) k)) (x5 (ix2 (0 : Fin 4) k)) (x7 (ix2 (0 : Fin 4) k))
          (x8 (ix2 (0 : Fin 4) k)) (x6 (ix2 (0 : Fin 4) k)) := by
  rw [val_main_v76_apply, val_main_v71_apply, val_main_v63_apply, val_main_v60_apply, val_main_v53_apply, val_main_v52_apply,
    val_main_call0_v0_apply, val_main_call0_cst_apply, bias0_at, mean0_at, gamma0_at, beta0_at, rstd0_at]
  rfl

/-- Slab 1 of the weights, through its slice and reshape, at (k, q). -/
theorem w1_at (x3 : (⟨S4x128x128, .f32⟩ : BufTy).Contents (Elt Ideal)) (k q : Fin 128) :
    val_main_v78 (F := Ideal) x3 (ix2 k q) = x3 (ix3 (1 : Fin 4) k q) := by
  rw [val_main_v78_apply, val_main_v77_apply]
  refine congrArg x3 (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem layer0 (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v79 (F := Ideal) x0 x1 x3 x4 x5 x6 x7 x8
      = Spec.arr2 (Spec.lin (Spec.bnRows (Spec.cur2 (val_main_v47 (F := Ideal) x0 x1 x3)) (Spec.prow x4 0) (Spec.prow x5 0) (Spec.prow x7 0)
          (Spec.prow x8 0) (Spec.prow x6 0)) (Spec.wslab x3 1)) := by
  funext i
  obtain ⟨p, q, rfl⟩ : ∃ (p : Fin 100000) (q : Fin 128), i = ix2 p q := ⟨i 0, i 1, eq_ix2 i⟩
  rw [val_main_v79_apply]
  show _ = ∑ k : Fin 128, Spec.bn (val_main_v47 (F := Ideal) x0 x1 x3 (ix2 p k)) (x4 (ix2 (0 : Fin 4) k)) (x5 (ix2 (0 : Fin 4) k))
    (x7 (ix2 (0 : Fin 4) k)) (x8 (ix2 (0 : Fin 4) k)) (x6 (ix2 (0 : Fin 4) k)) * x3 (ix3 (1 : Fin 4) k q)
  refine Finset.sum_congr rfl fun k _ => ?_
  have hl : lidx_main_v79 (ix2 p q) k = ix2 p k := by
    funext a; apply Fin.ext
    match a with
    | ⟨0, _⟩ => rfl
    | ⟨1, _⟩ => rfl
  have hr : ridx_main_v79 (ix2 p q) k = ix2 k q := by
    funext a; apply Fin.ext
    match a with
    | ⟨0, _⟩ => rfl
    | ⟨1, _⟩ => rfl
  rw [hl, hr, norm0_at, w1_at]

/-! ## Layer 1 -/

/-- The bias of layer 1, broadcast over the rows, at (p, k). -/
theorem bias1_at (x4 : (⟨S4x128, .f32⟩ : BufTy).Contents (Elt Ideal)) (p : Fin 100000) (k : Fin 128) :
    val_main_v98 (F := Ideal) x4 (ix2 p k) = x4 (ix2 (1 : Fin 4) k) := by
  rw [val_main_v98_apply, val_main_v97_apply, val_main_v96_apply, val_main_v95_apply]
  refine congrArg x4 (funext fun a => Fin.ext ?_)
  match a with
  | ⟨0, _⟩ => rfl
  | ⟨1, _⟩ => show k.val % 128 = k.val; omega

/-- The running mean of layer 1, broadcast over the rows, at (p, k). -/
theorem mean1_at (x7 : (⟨S4x128, .f32⟩ : BufTy).Contents (Elt Ideal)) (p : Fin 100000) (k : Fin 128) :
    val_main_v106 (F := Ideal) x7 (ix2 p k) = x7 (ix2 (1 : Fin 4) k) := by
  rw [val_main_v106_apply, val_main_v105_apply, val_main_v104_apply, val_main_v103_apply]
  refine congrArg x7 (funext fun a => Fin.ext ?_)
  match a with
  | ⟨0, _⟩ => rfl
  | ⟨1, _⟩ => show k.val % 128 = k.val; omega

/-- The scale γ of layer 1, broadcast over the rows, at (p, k). -/
theorem gamma1_at (x5 : (⟨S4x128, .f32⟩ : BufTy).Contents (Elt Ideal)) (p : Fin 100000) (k : Fin 128) :
    val_main_v109 (F := Ideal) x5 (ix2 p k) = x5 (ix2 (1 : Fin 4) k) := by
  rw [val_main_v109_apply, val_main_v108_apply, val_main_v102_apply, val_main_v101_apply]
  refine congrArg x5 (funext fun a => Fin.ext ?_)
  match a with
  | ⟨0, _⟩ => rfl
  | ⟨1, _⟩ => show k.val % 128 = k.val; omega

/-- The shift β of layer 1, broadcast over the rows, at (p, k). -/
theorem beta1_at (x6 : (⟨S4x128, .f32⟩ : BufTy).Contents (Elt Ideal)) (p : Fin 100000) (k : Fin 128) :
    val_main_v122 (F := Ideal) x6 (ix2 p k) = x6 (ix2 (1 : Fin 4) k) := by
  rw [val_main_v122_apply, val_main_v121_apply, val_main_v120_apply, val_main_v119_apply]
  refine congrArg x6 (funext fun a => Fin.ext ?_)
  match a with
  | ⟨0, _⟩ => rfl
  | ⟨1, _⟩ => show k.val % 128 = k.val; omega

/-- The reciprocal root of the running variance plus ε of layer 1, broadcast over the rows, at (p, k). -/
theorem rstd1_at (x8 : (⟨S4x128, .f32⟩ : BufTy).Contents (Elt Ideal)) (p : Fin 100000) (k : Fin 128) :
    val_main_v117 (F := Ideal) x8 (ix2 p k) = Ideal.rsqrt (x8 (ix2 (1 : Fin 4) k) + Spec.eps) := by
  rw [val_main_v117_apply, val_main_v116_apply, val_main_v115_apply, val_main_v114_apply, val_main_v113_apply,
    val_main_cst_13_apply, val_main_v112_apply, val_main_v111_apply]
  have e : idx_main_v111 (idx_main_v112 (idx_main_v116 (idx_main_v117 (ix2 p k)))) = ix2 (1 : Fin 4) k := by
    funext a; apply Fin.ext
    match a with
    | ⟨0, _⟩ => rfl
    | ⟨1, _⟩ => show k.val % 128 = k.val; omega
  rw [e]
  rfl

/-- Bias, ReLU and batch normalisation of layer 1 at (p, k), over the layer's aggregation. -/
theorem norm1_at (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 100000) (k : Fin 128) :
    val_main_v123 (F := Ideal) x0 x1 x3 x4 x5 x6 x7 x8 (ix2 p k)
      = Spec.bn (val_main_v94 (F := Ideal) x0 x1 x3 x4 x5 x6 x7 x8 (ix2 p k)) (x4 (ix2 (1 : Fin 4) k)) (x5 (ix2 (1 : Fin 4) k)) (x7 (ix2 (1 : Fin 4) k))
          (x8 (ix2 (1 : Fin 4) k)) (x6 (ix2 (1 : Fin 4) k)) := by
  rw [val_main_v123_apply, val_main_v118_apply, val_main_v110_apply, val_main_v107_apply, val_main_v100_apply, val_main_v99_apply,
    val_main_call1_v0_apply, val_main_call1_cst_apply, bias1_at, mean1_at, gamma1_at, beta1_at, rstd1_at]
  rfl

/-- Slab 2 of the weights, through its slice and reshape, at (k, q). -/
theorem w2_at (x3 : (⟨S4x128x128, .f32⟩ : BufTy).Contents (Elt Ideal)) (k q : Fin 128) :
    val_main_v125 (F := Ideal) x3 (ix2 k q) = x3 (ix3 (2 : Fin 4) k q) := by
  rw [val_main_v125_apply, val_main_v124_apply]
  refine congrArg x3 (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem layer1 (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v126 (F := Ideal) x0 x1 x3 x4 x5 x6 x7 x8
      = Spec.arr2 (Spec.lin (Spec.bnRows (Spec.cur2 (val_main_v94 (F := Ideal) x0 x1 x3 x4 x5 x6 x7 x8)) (Spec.prow x4 1) (Spec.prow x5 1) (Spec.prow x7 1)
          (Spec.prow x8 1) (Spec.prow x6 1)) (Spec.wslab x3 2)) := by
  funext i
  obtain ⟨p, q, rfl⟩ : ∃ (p : Fin 100000) (q : Fin 128), i = ix2 p q := ⟨i 0, i 1, eq_ix2 i⟩
  rw [val_main_v126_apply]
  show _ = ∑ k : Fin 128, Spec.bn (val_main_v94 (F := Ideal) x0 x1 x3 x4 x5 x6 x7 x8 (ix2 p k)) (x4 (ix2 (1 : Fin 4) k)) (x5 (ix2 (1 : Fin 4) k))
    (x7 (ix2 (1 : Fin 4) k)) (x8 (ix2 (1 : Fin 4) k)) (x6 (ix2 (1 : Fin 4) k)) * x3 (ix3 (2 : Fin 4) k q)
  refine Finset.sum_congr rfl fun k _ => ?_
  have hl : lidx_main_v126 (ix2 p q) k = ix2 p k := by
    funext a; apply Fin.ext
    match a with
    | ⟨0, _⟩ => rfl
    | ⟨1, _⟩ => rfl
  have hr : ridx_main_v126 (ix2 p q) k = ix2 k q := by
    funext a; apply Fin.ext
    match a with
    | ⟨0, _⟩ => rfl
    | ⟨1, _⟩ => rfl
  rw [hl, hr, norm1_at, w2_at]

/-! ## Layer 2 -/

/-- The bias of layer 2, broadcast over the rows, at (p, k). -/
theorem bias2_at (x4 : (⟨S4x128, .f32⟩ : BufTy).Contents (Elt Ideal)) (p : Fin 100000) (k : Fin 128) :
    val_main_v145 (F := Ideal) x4 (ix2 p k) = x4 (ix2 (2 : Fin 4) k) := by
  rw [val_main_v145_apply, val_main_v144_apply, val_main_v143_apply, val_main_v142_apply]
  refine congrArg x4 (funext fun a => Fin.ext ?_)
  match a with
  | ⟨0, _⟩ => rfl
  | ⟨1, _⟩ => show k.val % 128 = k.val; omega

/-- The running mean of layer 2, broadcast over the rows, at (p, k). -/
theorem mean2_at (x7 : (⟨S4x128, .f32⟩ : BufTy).Contents (Elt Ideal)) (p : Fin 100000) (k : Fin 128) :
    val_main_v153 (F := Ideal) x7 (ix2 p k) = x7 (ix2 (2 : Fin 4) k) := by
  rw [val_main_v153_apply, val_main_v152_apply, val_main_v151_apply, val_main_v150_apply]
  refine congrArg x7 (funext fun a => Fin.ext ?_)
  match a with
  | ⟨0, _⟩ => rfl
  | ⟨1, _⟩ => show k.val % 128 = k.val; omega

/-- The scale γ of layer 2, broadcast over the rows, at (p, k). -/
theorem gamma2_at (x5 : (⟨S4x128, .f32⟩ : BufTy).Contents (Elt Ideal)) (p : Fin 100000) (k : Fin 128) :
    val_main_v156 (F := Ideal) x5 (ix2 p k) = x5 (ix2 (2 : Fin 4) k) := by
  rw [val_main_v156_apply, val_main_v155_apply, val_main_v149_apply, val_main_v148_apply]
  refine congrArg x5 (funext fun a => Fin.ext ?_)
  match a with
  | ⟨0, _⟩ => rfl
  | ⟨1, _⟩ => show k.val % 128 = k.val; omega

/-- The shift β of layer 2, broadcast over the rows, at (p, k). -/
theorem beta2_at (x6 : (⟨S4x128, .f32⟩ : BufTy).Contents (Elt Ideal)) (p : Fin 100000) (k : Fin 128) :
    val_main_v169 (F := Ideal) x6 (ix2 p k) = x6 (ix2 (2 : Fin 4) k) := by
  rw [val_main_v169_apply, val_main_v168_apply, val_main_v167_apply, val_main_v166_apply]
  refine congrArg x6 (funext fun a => Fin.ext ?_)
  match a with
  | ⟨0, _⟩ => rfl
  | ⟨1, _⟩ => show k.val % 128 = k.val; omega

/-- The reciprocal root of the running variance plus ε of layer 2, broadcast over the rows, at (p, k). -/
theorem rstd2_at (x8 : (⟨S4x128, .f32⟩ : BufTy).Contents (Elt Ideal)) (p : Fin 100000) (k : Fin 128) :
    val_main_v164 (F := Ideal) x8 (ix2 p k) = Ideal.rsqrt (x8 (ix2 (2 : Fin 4) k) + Spec.eps) := by
  rw [val_main_v164_apply, val_main_v163_apply, val_main_v162_apply, val_main_v161_apply, val_main_v160_apply,
    val_main_cst_17_apply, val_main_v159_apply, val_main_v158_apply]
  have e : idx_main_v158 (idx_main_v159 (idx_main_v163 (idx_main_v164 (ix2 p k)))) = ix2 (2 : Fin 4) k := by
    funext a; apply Fin.ext
    match a with
    | ⟨0, _⟩ => rfl
    | ⟨1, _⟩ => show k.val % 128 = k.val; omega
  rw [e]
  rfl

/-- Bias, ReLU and batch normalisation of layer 2 at (p, k), over the layer's aggregation. -/
theorem norm2_at (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 100000) (k : Fin 128) :
    val_main_v170 (F := Ideal) x0 x1 x3 x4 x5 x6 x7 x8 (ix2 p k)
      = Spec.bn (val_main_v141 (F := Ideal) x0 x1 x3 x4 x5 x6 x7 x8 (ix2 p k)) (x4 (ix2 (2 : Fin 4) k)) (x5 (ix2 (2 : Fin 4) k)) (x7 (ix2 (2 : Fin 4) k))
          (x8 (ix2 (2 : Fin 4) k)) (x6 (ix2 (2 : Fin 4) k)) := by
  rw [val_main_v170_apply, val_main_v165_apply, val_main_v157_apply, val_main_v154_apply, val_main_v147_apply, val_main_v146_apply,
    val_main_call2_v0_apply, val_main_call2_cst_apply, bias2_at, mean2_at, gamma2_at, beta2_at, rstd2_at]
  rfl

/-- Slab 3 of the weights, through its slice and reshape, at (k, q). -/
theorem w3_at (x3 : (⟨S4x128x128, .f32⟩ : BufTy).Contents (Elt Ideal)) (k q : Fin 128) :
    val_main_v172 (F := Ideal) x3 (ix2 k q) = x3 (ix3 (3 : Fin 4) k q) := by
  rw [val_main_v172_apply, val_main_v171_apply]
  refine congrArg x3 (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem layer2 (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v173 (F := Ideal) x0 x1 x3 x4 x5 x6 x7 x8
      = Spec.arr2 (Spec.lin (Spec.bnRows (Spec.cur2 (val_main_v141 (F := Ideal) x0 x1 x3 x4 x5 x6 x7 x8)) (Spec.prow x4 2) (Spec.prow x5 2) (Spec.prow x7 2)
          (Spec.prow x8 2) (Spec.prow x6 2)) (Spec.wslab x3 3)) := by
  funext i
  obtain ⟨p, q, rfl⟩ : ∃ (p : Fin 100000) (q : Fin 128), i = ix2 p q := ⟨i 0, i 1, eq_ix2 i⟩
  rw [val_main_v173_apply]
  show _ = ∑ k : Fin 128, Spec.bn (val_main_v141 (F := Ideal) x0 x1 x3 x4 x5 x6 x7 x8 (ix2 p k)) (x4 (ix2 (2 : Fin 4) k)) (x5 (ix2 (2 : Fin 4) k))
    (x7 (ix2 (2 : Fin 4) k)) (x8 (ix2 (2 : Fin 4) k)) (x6 (ix2 (2 : Fin 4) k)) * x3 (ix3 (3 : Fin 4) k q)
  refine Finset.sum_congr rfl fun k _ => ?_
  have hl : lidx_main_v173 (ix2 p q) k = ix2 p k := by
    funext a; apply Fin.ext
    match a with
    | ⟨0, _⟩ => rfl
    | ⟨1, _⟩ => rfl
  have hr : ridx_main_v173 (ix2 p q) k = ix2 k q := by
    funext a; apply Fin.ext
    match a with
    | ⟨0, _⟩ => rfl
    | ⟨1, _⟩ => rfl
  rw [hl, hr, norm2_at, w3_at]

/-! ## Layer 3 -/

/-- The bias of layer 3, broadcast over the rows, at (p, k). -/
theorem bias3_at (x4 : (⟨S4x128, .f32⟩ : BufTy).Contents (Elt Ideal)) (p : Fin 100000) (k : Fin 128) :
    val_main_v192 (F := Ideal) x4 (ix2 p k) = x4 (ix2 (3 : Fin 4) k) := by
  rw [val_main_v192_apply, val_main_v191_apply, val_main_v190_apply, val_main_v189_apply]
  refine congrArg x4 (funext fun a => Fin.ext ?_)
  match a with
  | ⟨0, _⟩ => rfl
  | ⟨1, _⟩ => show k.val % 128 = k.val; omega

/-- The running mean of layer 3, broadcast over the rows, at (p, k). -/
theorem mean3_at (x7 : (⟨S4x128, .f32⟩ : BufTy).Contents (Elt Ideal)) (p : Fin 100000) (k : Fin 128) :
    val_main_v200 (F := Ideal) x7 (ix2 p k) = x7 (ix2 (3 : Fin 4) k) := by
  rw [val_main_v200_apply, val_main_v199_apply, val_main_v198_apply, val_main_v197_apply]
  refine congrArg x7 (funext fun a => Fin.ext ?_)
  match a with
  | ⟨0, _⟩ => rfl
  | ⟨1, _⟩ => show k.val % 128 = k.val; omega

/-- The scale γ of layer 3, broadcast over the rows, at (p, k). -/
theorem gamma3_at (x5 : (⟨S4x128, .f32⟩ : BufTy).Contents (Elt Ideal)) (p : Fin 100000) (k : Fin 128) :
    val_main_v203 (F := Ideal) x5 (ix2 p k) = x5 (ix2 (3 : Fin 4) k) := by
  rw [val_main_v203_apply, val_main_v202_apply, val_main_v196_apply, val_main_v195_apply]
  refine congrArg x5 (funext fun a => Fin.ext ?_)
  match a with
  | ⟨0, _⟩ => rfl
  | ⟨1, _⟩ => show k.val % 128 = k.val; omega

/-- The shift β of layer 3, broadcast over the rows, at (p, k). -/
theorem beta3_at (x6 : (⟨S4x128, .f32⟩ : BufTy).Contents (Elt Ideal)) (p : Fin 100000) (k : Fin 128) :
    val_main_v216 (F := Ideal) x6 (ix2 p k) = x6 (ix2 (3 : Fin 4) k) := by
  rw [val_main_v216_apply, val_main_v215_apply, val_main_v214_apply, val_main_v213_apply]
  refine congrArg x6 (funext fun a => Fin.ext ?_)
  match a with
  | ⟨0, _⟩ => rfl
  | ⟨1, _⟩ => show k.val % 128 = k.val; omega

/-- The reciprocal root of the running variance plus ε of layer 3, broadcast over the rows, at (p, k). -/
theorem rstd3_at (x8 : (⟨S4x128, .f32⟩ : BufTy).Contents (Elt Ideal)) (p : Fin 100000) (k : Fin 128) :
    val_main_v211 (F := Ideal) x8 (ix2 p k) = Ideal.rsqrt (x8 (ix2 (3 : Fin 4) k) + Spec.eps) := by
  rw [val_main_v211_apply, val_main_v210_apply, val_main_v209_apply, val_main_v208_apply, val_main_v207_apply,
    val_main_cst_21_apply, val_main_v206_apply, val_main_v205_apply]
  have e : idx_main_v205 (idx_main_v206 (idx_main_v210 (idx_main_v211 (ix2 p k)))) = ix2 (3 : Fin 4) k := by
    funext a; apply Fin.ext
    match a with
    | ⟨0, _⟩ => rfl
    | ⟨1, _⟩ => show k.val % 128 = k.val; omega
  rw [e]
  rfl

/-- Bias, ReLU and batch normalisation of layer 3 at (p, k), over the layer's aggregation. -/
theorem norm3_at (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 100000) (k : Fin 128) :
    val_main_v217 (F := Ideal) x0 x1 x3 x4 x5 x6 x7 x8 (ix2 p k)
      = Spec.bn (val_main_v188 (F := Ideal) x0 x1 x3 x4 x5 x6 x7 x8 (ix2 p k)) (x4 (ix2 (3 : Fin 4) k)) (x5 (ix2 (3 : Fin 4) k)) (x7 (ix2 (3 : Fin 4) k))
          (x8 (ix2 (3 : Fin 4) k)) (x6 (ix2 (3 : Fin 4) k)) := by
  rw [val_main_v217_apply, val_main_v212_apply, val_main_v204_apply, val_main_v201_apply, val_main_v194_apply, val_main_v193_apply,
    val_main_call3_v0_apply, val_main_call3_cst_apply, bias3_at, mean3_at, gamma3_at, beta3_at, rstd3_at]
  rfl

theorem layer3 (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v217 (F := Ideal) x0 x1 x3 x4 x5 x6 x7 x8
      = Spec.arr2 (Spec.bnRows (Spec.cur2 (val_main_v188 (F := Ideal) x0 x1 x3 x4 x5 x6 x7 x8)) (Spec.prow x4 3) (Spec.prow x5 3) (Spec.prow x7 3)
          (Spec.prow x8 3) (Spec.prow x6 3)) := by
  funext i
  obtain ⟨p, q, rfl⟩ : ∃ (p : Fin 100000) (q : Fin 128), i = ix2 p q := ⟨i 0, i 1, eq_ix2 i⟩
  rw [norm3_at]
  rfl

/-! ## The head -/

/-- The hidden bias, broadcast over the graphs, at (g, k). -/
theorem hbias_at (x10 : (⟨S128, .f32⟩ : BufTy).Contents (Elt Ideal)) (g : Fin 4096) (k : Fin 128) :
    val_main_v232 (F := Ideal) x10 (ix2 g k) = x10 (ix1 k) := by
  rw [val_main_v232_apply, val_main_v231_apply]
  refine congrArg x10 (funext fun a => Fin.ext ?_)
  match a with
  | ⟨0, _⟩ => rfl

/-- The output bias, broadcast over the graphs, at (g, 0). -/
theorem obias_at (x12 : (⟨S1, .f32⟩ : BufTy).Contents (Elt Ideal)) (g : Fin 4096) :
    val_main_v237 (F := Ideal) x12 (ix2 g (0 : Fin 1)) = x12 (ix1 (0 : Fin 1)) := by
  rw [val_main_v237_apply, val_main_v236_apply]
  refine congrArg x12 (funext fun a => Fin.ext ?_)
  match a with
  | ⟨0, _⟩ => rfl

/-- The hidden layer of the head at (g, k): the ReLU of the pooled row g times column k of W₁ plus the bias. -/
theorem hidden_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S128x128, .f32⟩ : BufTy).Contents (Elt Ideal)) (x10 : (⟨S128, .f32⟩ : BufTy).Contents (Elt Ideal)) (g : Fin 4096) (k : Fin 128) :
    val_main_v234 (F := Ideal) x0 x1 x2 x3 x4 x5 x6 x7 x8 x9 x10 (ix2 g k)
      = max ((∑ l : Fin 128, val_main_v229 (F := Ideal) x0 x1 x2 x3 x4 x5 x6 x7 x8 (ix2 g l) * x9 (ix2 l k)) + x10 (ix1 k)) Spec.z0 := by
  rw [val_main_v234_apply, val_main_v233_apply, val_main_call4_v0_apply, val_main_call4_cst_apply, hbias_at, val_main_v230_apply]
  have hl : ∀ l : Fin 128, lidx_main_v230 (ix2 g k) l = ix2 g l := fun l => by
    funext a; apply Fin.ext
    match a with
    | ⟨0, _⟩ => rfl
    | ⟨1, _⟩ => rfl
  have hr : ∀ l : Fin 128, ridx_main_v230 (ix2 g k) l = ix2 l k := fun l => by
    funext a; apply Fin.ext
    match a with
    | ⟨0, _⟩ => rfl
    | ⟨1, _⟩ => rfl
  have hs : (∑ l : Fin 128, val_main_v229 (F := Ideal) x0 x1 x2 x3 x4 x5 x6 x7 x8 (lidx_main_v230 (ix2 g k) l) * x9 (ridx_main_v230 (ix2 g k) l))
      = ∑ l : Fin 128, val_main_v229 (F := Ideal) x0 x1 x2 x3 x4 x5 x6 x7 x8 (ix2 g l) * x9 (ix2 l k) :=
    Finset.sum_congr rfl fun l _ => by rw [hl, hr]
  rw [hs]
  rfl

theorem head (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S4x128x128, .f32⟩ : BufTy).Contents (Elt Ideal)) (x4 : (⟨S4x128, .f32⟩ : BufTy).Contents (Elt Ideal)) (x5 : (⟨S4x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal)) :
    val_main_v238 (F := Ideal) x0 x1 x2 x3 x4 x5 x6 x7 x8 x9 x10 x11 x12
      = Spec.arrCol (Spec.head (Spec.cur2 (val_main_v229 (F := Ideal) x0 x1 x2 x3 x4 x5 x6 x7 x8)) (Spec.cur2 x9) (fun k => x10 (ix1 k))
          (fun k => x11 (ix2 k (0 : Fin 1))) (x12 (ix1 (0 : Fin 1)))) := by
  funext i
  obtain ⟨g, z, rfl⟩ : ∃ (g : Fin 4096) (z : Fin 1), i = ix2 g z := ⟨i 0, i 1, eq_ix2 i⟩
  obtain rfl : z = 0 := Subsingleton.elim _ _
  rw [val_main_v238_apply, obias_at, val_main_v235_apply]
  show (∑ k : Fin 128, val_main_v234 (F := Ideal) x0 x1 x2 x3 x4 x5 x6 x7 x8 x9 x10 (lidx_main_v235 (ix2 g (0 : Fin 1)) k) * x11 (ridx_main_v235 (ix2 g (0 : Fin 1)) k))
      + x12 (ix1 (0 : Fin 1))
    = (∑ k : Fin 128, max ((∑ l : Fin 128, val_main_v229 (F := Ideal) x0 x1 x2 x3 x4 x5 x6 x7 x8 (ix2 g l) * x9 (ix2 l k)) + x10 (ix1 k)) Spec.z0
        * x11 (ix2 k (0 : Fin 1))) + x12 (ix1 (0 : Fin 1))
  refine congrArg (fun s : EReal => s + x12 (ix1 (0 : Fin 1))) (Finset.sum_congr rfl fun k _ => ?_)
  have hl : lidx_main_v235 (ix2 g (0 : Fin 1)) k = ix2 g k := by
    funext a; apply Fin.ext
    match a with
    | ⟨0, _⟩ => rfl
    | ⟨1, _⟩ => rfl
  have hr : ridx_main_v235 (ix2 g (0 : Fin 1)) k = ix2 k (0 : Fin 1) := by
    funext a; apply Fin.ext
    match a with
    | ⟨0, _⟩ => rfl
    | ⟨1, _⟩ => rfl
  rw [hl, hr, hidden_at]

end Cert.ReferenceIdeal.RefVal

end
-- ==== Proof.KParamsA.lean ====
/-
  The kernel program's parameter arrays, read entry by entry (stretches 0 and 1).

  Before each call the kernel's host operations cut one row out of each of the five `[4, 128]` parameter tables and one
  slab out of the `[4, 128, 128]` weights, and pass them through casts of shape (`[1, 128]` to `[128]` and back, or
  `[1, 128, 128]` to `[128, 128]`).  Read at an entry, each result is the table at `(l, k)` or the weights at `(l, k, c)`.
  A stretch of host operations leaves every array it does not write as it found it.
-/
import proofs.«100997_j79285096284187_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«100997_j79285096284187_1_alg».proof.Proof.Spec

noncomputable section

namespace Cert.KernelIdeal.KParams

open Cert.KernelIdeal Cert.KernelIdeal.Gen Idealize.ShloMosaic Idealize.ShloMosaic.TcCoe Idealize.ShloMosaic.StableHlo Idealize.ShloMosaic.ValueIdx

/-! ## A parameter row and a weight slab through the slice and the casts -/

/-- Row `l` of a `[4, n]` table, cut out as `[1, n]`, cast to `[n]` and back to `[1, n]`, read at `(0, k)`. -/
private theorem row_read {n : ℕ} (l : Fin 4) (X : (⟨2, ![4, n]⟩ : Shape).Idx → EReal)
    (hs : (⟨2, ![4, n]⟩ : Shape).Slices ![l.val, 0] ⟨2, ![1, n]⟩)
    (h1 : (⟨2, ![1, n]⟩ : Shape).ShapeCasts ⟨1, ![n]⟩) (h2 : (⟨1, ![n]⟩ : Shape).ShapeCasts ⟨2, ![1, n]⟩) (k : Fin n) :
    shapeCast ⟨2, ![1, n]⟩ (shapeCast ⟨1, ![n]⟩ (extractStridedSlice ⟨2, ![1, n]⟩ ![l.val, 0] X hs) h1) h2 (ix2 (0 : Fin 1) k)
      = X (ix2 l k) := by
  rw [shapeCast_a_1a_apply, shapeCast_1a_a_apply]
  exact slice2_axis0_apply l.val X hs (0 : Fin 1) k l (Nat.add_zero _).symm

/-- Slab `l` of a `[4, a, b]` array, cut out as `[1, a, b]` and cast to `[a, b]`, read at `(k, c)`. -/
private theorem slab_read {a b : ℕ} (l : Fin 4) (X : (⟨3, ![4, a, b]⟩ : Shape).Idx → EReal)
    (hs : (⟨3, ![4, a, b]⟩ : Shape).Slices ![l.val, 0, 0] ⟨3, ![1, a, b]⟩)
    (h1 : (⟨3, ![1, a, b]⟩ : Shape).ShapeCasts ⟨2, ![a, b]⟩) (k : Fin a) (c : Fin b) :
    shapeCast ⟨2, ![a, b]⟩ (extractStridedSlice ⟨3, ![1, a, b]⟩ ![l.val, 0, 0] X hs) h1 (ix2 k c) = X (ix3 l k c) := by
  rw [shapeCast_1ab_ab_apply]
  exact extractStridedSlice_apply _ X hs _ _ (fun ax => by
    match ax with
    | ⟨0, _⟩ => exact (Nat.add_zero _).symm
    | ⟨1, _⟩ => exact (Nat.zero_add _).symm
    | ⟨2, _⟩ => exact (Nat.zero_add _).symm)

/-- A single reference of a list, as a set of device references, lies in the list's. -/
private theorem single_sub {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-! ## Stretch 0: the parameters -/

/-- The weights of layer 0 as call 0 receives them: slab 0 of the weight array. -/
theorem w0 (W : Valuation τ sig (Elt Ideal)) :
    Spec.cur2 (StableHlo.after hostOps0 W (Proc.devRef .tc main_v31)) = Spec.wslab (W (Proc.devRef .tc main_arg3)) 0 := by
  funext k c
  show StableHlo.after hostOps0 W (Proc.devRef .tc main_v31) (ix2 k c) = W (Proc.devRef .tc main_arg3) (ix3 (0 : Fin 4) k c)
  after_results_simp
  exact slab_read (a := 128) (b := 128) 0 _ _ _ k c

/-! ## What stretch 0 leaves alone -/

/-- The references stretch 0 writes, in order. -/
def writes0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_cst_5, main_v27, main_v28, main_v29, main_v30, main_v31]

/-- Each operation of stretch 0 writes one of them. -/
theorem writes0_sub : (hostOps0 : List (HloOp τ sig (Elt Ideal))).Forall fun op =>
    op.writes ⊆ (writes0.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep0_arg0 (W : Valuation τ sig (Elt Ideal)) :
    StableHlo.after hostOps0 W (Proc.devRef .tc main_arg0) = W (Proc.devRef .tc main_arg0) :=
  StableHlo.after_of_writes_sub hostOps0 W writes0_sub (by decide)
theorem keep0_arg2 (W : Valuation τ sig (Elt Ideal)) :
    StableHlo.after hostOps0 W (Proc.devRef .tc main_arg2) = W (Proc.devRef .tc main_arg2) :=
  StableHlo.after_of_writes_sub hostOps0 W writes0_sub (by decide)
theorem keep0_arg3 (W : Valuation τ sig (Elt Ideal)) :
    StableHlo.after hostOps0 W (Proc.devRef .tc main_arg3) = W (Proc.devRef .tc main_arg3) :=
  StableHlo.after_of_writes_sub hostOps0 W writes0_sub (by decide)
theorem keep0_arg4 (W : Valuation τ sig (Elt Ideal)) :
    StableHlo.after hostOps0 W (Proc.devRef .tc main_arg4) = W (Proc.devRef .tc main_arg4) :=
  StableHlo.after_of_writes_sub hostOps0 W writes0_sub (by decide)
theorem keep0_arg5 (W : Valuation τ sig (Elt Ideal)) :
    StableHlo.after hostOps0 W (Proc.devRef .tc main_arg5) = W (Proc.devRef .tc main_arg5) :=
  StableHlo.after_of_writes_sub hostOps0 W writes0_sub (by decide)
theorem keep0_arg6 (W : Valuation τ sig (Elt Ideal)) :
    StableHlo.after hostOps0 W (Proc.devRef .tc main_arg6) = W (Proc.devRef .tc main_arg6) :=
  StableHlo.after_of_writes_sub hostOps0 W writes0_sub (by decide)
theorem keep0_arg7 (W : Valuation τ sig (Elt Ideal)) :
    StableHlo.after hostOps0 W (Proc.devRef .tc main_arg7) = W (Proc.devRef .tc main_arg7) :=
  StableHlo.after_of_writes_sub hostOps0 W writes0_sub (by decide)
theorem keep0_arg8 (W : Valuation τ sig (Elt Ideal)) :
    StableHlo.after hostOps0 W (Proc.devRef .tc main_arg8) = W (Proc.devRef .tc main_arg8) :=
  StableHlo.after_of_writes_sub hostOps0 W writes0_sub (by decide)
theorem keep0_arg9 (W : Valuation τ sig (Elt Ideal)) :
    StableHlo.after hostOps0 W (Proc.devRef .tc main_arg9) = W (Proc.devRef .tc main_arg9) :=
  StableHlo.after_of_writes_sub hostOps0 W writes0_sub (by decide)
theorem keep0_arg10 (W : Valuation τ sig (Elt Ideal)) :
    StableHlo.after hostOps0 W (Proc.devRef .tc main_arg10) = W (Proc.devRef .tc main_arg10) :=
  StableHlo.after_of_writes_sub hostOps0 W writes0_sub (by decide)
theorem keep0_arg11 (W : Valuation τ sig (Elt Ideal)) :
    StableHlo.after hostOps0 W (Proc.devRef .tc main_arg11) = W (Proc.devRef .tc main_arg11) :=
  StableHlo.after_of_writes_sub hostOps0 W writes0_sub (by decide)
theorem keep0_arg12 (W : Valuation τ sig (Elt Ideal)) :
    StableHlo.after hostOps0 W (Proc.devRef .tc main_arg12) = W (Proc.devRef .tc main_arg12) :=
  StableHlo.after_of_writes_sub hostOps0 W writes0_sub (by decide)

/-! ## Stretch 1: the parameters -/

/-- The weights of layer 1 as call 1 receives them: slab 1 of the weight array. -/
theorem w1 (W : Valuation τ sig (Elt Ideal)) :
    Spec.cur2 (StableHlo.after hostOps1 W (Proc.devRef .tc main_v59)) = Spec.wslab (W (Proc.devRef .tc main_arg3)) 1 := by
  funext k c
  show StableHlo.after hostOps1 W (Proc.devRef .tc main_v59) (ix2 k c) = W (Proc.devRef .tc main_arg3) (ix3 (1 : Fin 4) k c)
  after_results_simp
  exact slab_read (a := 128) (b := 128) 1 _ _ _ k c

/-- The bias of layer 0 as call 1 receives it: row 0 of its table. -/
theorem b0 (W : Valuation τ sig (Elt Ideal)) :
    Spec.row (StableHlo.after hostOps1 W (Proc.devRef .tc main_v60)) = Spec.prow (W (Proc.devRef .tc main_arg4)) 0 := by
  funext k
  show StableHlo.after hostOps1 W (Proc.devRef .tc main_v60) (ix2 (0 : Fin 1) k) = W (Proc.devRef .tc main_arg4) (ix2 (0 : Fin 4) k)
  after_results_simp
  exact row_read (n := 128) 0 _ _ _ _ k

/-- The scale γ of layer 0 as call 1 receives it: row 0 of its table. -/
theorem g0 (W : Valuation τ sig (Elt Ideal)) :
    Spec.row (StableHlo.after hostOps1 W (Proc.devRef .tc main_v61)) = Spec.prow (W (Proc.devRef .tc main_arg5)) 0 := by
  funext k
  show StableHlo.after hostOps1 W (Proc.devRef .tc main_v61) (ix2 (0 : Fin 1) k) = W (Proc.devRef .tc main_arg5) (ix2 (0 : Fin 4) k)
  after_results_simp
  exact row_read (n := 128) 0 _ _ _ _ k

/-- The shift β of layer 0 as call 1 receives it: row 0 of its table. -/
theorem be0 (W : Valuation τ sig (Elt Ideal)) :
    Spec.row (StableHlo.after hostOps1 W (Proc.devRef .tc main_v62)) = Spec.prow (W (Proc.devRef .tc main_arg6)) 0 := by
  funext k
  show StableHlo.after hostOps1 W (Proc.devRef .tc main_v62) (ix2 (0 : Fin 1) k) = W (Proc.devRef .tc main_arg6) (ix2 (0 : Fin 4) k)
  after_results_simp
  exact row_read (n := 128) 0 _ _ _ _ k

/-- The running mean of layer 0 as call 1 receives it: row 0 of its table. -/
theorem mu0 (W : Valuation τ sig (Elt Ideal)) :
    Spec.row (StableHlo.after hostOps1 W (Proc.devRef .tc main_v63)) = Spec.prow (W (Proc.devRef .tc main_arg7)) 0 := by
  funext k
  show StableHlo.after hostOps1 W (Proc.devRef .tc main_v63) (ix2 (0 : Fin 1) k) = W (Proc.devRef .tc main_arg7) (ix2 (0 : Fin 4) k)
  after_results_simp
  exact row_read (n := 128) 0 _ _ _ _ k

/-- The running variance of layer 0 as call 1 receives it: row 0 of its table. -/
theorem var0 (W : Valuation τ sig (Elt Ideal)) :
    Spec.row (StableHlo.after hostOps1 W (Proc.devRef .tc main_v64)) = Spec.prow (W (Proc.devRef .tc main_arg8)) 0 := by
  funext k
  show StableHlo.after hostOps1 W (Proc.devRef .tc main_v64) (ix2 (0 : Fin 1) k) = W (Proc.devRef .tc main_arg8) (ix2 (0 : Fin 4) k)
  after_results_simp
  exact row_read (n := 128) 0 _ _ _ _ k

/-! ## What stretch 1 leaves alone -/

/-- The references stretch 1 writes, in order. -/
def writes1 : List (Ref sig .tc) :=
  [main_c_6, main_v33, main_v34, main_c_7, main_v35, main_v36, main_v37, main_v38, main_v39, main_v40, main_v41, main_cst_8, main_v42, main_v43, main_v44, main_v45, main_v46, main_v47, main_v48, main_v49, main_v50, main_v51, main_v52, main_v53, main_v54, main_v55, main_v56, main_v57, main_v58, main_v59, main_v60, main_v61, main_v62, main_v63, main_v64]

/-- Each operation of stretch 1 writes one of them. -/
theorem writes1_sub : (hostOps1 : List (HloOp τ sig (Elt Ideal))).Forall fun op =>
    op.writes ⊆ (writes1.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep1_v1 (W : Valuation τ sig (Elt Ideal)) :
    StableHlo.after hostOps1 W (Proc.devRef .tc main_v1) = W (Proc.devRef .tc main_v1) :=
  StableHlo.after_of_writes_sub hostOps1 W writes1_sub (by decide)
theorem keep1_v3 (W : Valuation τ sig (Elt Ideal)) :
    StableHlo.after hostOps1 W (Proc.devRef .tc main_v3) = W (Proc.devRef .tc main_v3) :=
  StableHlo.after_of_writes_sub hostOps1 W writes1_sub (by decide)
theorem keep1_v26 (W : Valuation τ sig (Elt Ideal)) :
    StableHlo.after hostOps1 W (Proc.devRef .tc main_v26) = W (Proc.devRef .tc main_v26) :=
  StableHlo.after_of_writes_sub hostOps1 W writes1_sub (by decide)
theorem keep1_v29 (W : Valuation τ sig (Elt Ideal)) :
    StableHlo.after hostOps1 W (Proc.devRef .tc main_v29) = W (Proc.devRef .tc main_v29) :=
  StableHlo.after_of_writes_sub hostOps1 W writes1_sub (by decide)
theorem keep1_arg2 (W : Valuation τ sig (Elt Ideal)) :
    StableHlo.after hostOps1 W (Proc.devRef .tc main_arg2) = W (Proc.devRef .tc main_arg2) :=
  StableHlo.after_of_writes_sub hostOps1 W writes1_sub (by decide)
theorem keep1_arg3 (W : Valuation τ sig (Elt Ideal)) :
    StableHlo.after hostOps1 W (Proc.devRef .tc main_arg3) = W (Proc.devRef .tc main_arg3) :=
  StableHlo.after_of_writes_sub hostOps1 W writes1_sub (by decide)
theorem keep1_arg4 (W : Valuation τ sig (Elt Ideal)) :
    StableHlo.after hostOps1 W (Proc.devRef .tc main_arg4) = W (Proc.devRef .tc main_arg4) :=
  StableHlo.after_of_writes_sub hostOps1 W writes1_sub (by decide)
theorem keep1_arg5 (W : Valuation τ sig (Elt Ideal)) :
    StableHlo.after hostOps1 W (Proc.devRef .tc main_arg5) = W (Proc.devRef .tc main_arg5) :=
  StableHlo.after_of_writes_sub hostOps1 W writes1_sub (by decide)
theorem keep1_arg6 (W : Valuation τ sig (Elt Ideal)) :
    StableHlo.after hostOps1 W (Proc.devRef .tc main_arg6) = W (Proc.devRef .tc main_arg6) :=
  StableHlo.after_of_writes_sub hostOps1 W writes1_sub (by decide)
theorem keep1_arg7 (W : Valuation τ sig (Elt Ideal)) :
    StableHlo.after hostOps1 W (Proc.devRef .tc main_arg7) = W (Proc.devRef .tc main_arg7) :=
  StableHlo.after_of_writes_sub hostOps1 W writes1_sub (by decide)
theorem keep1_arg8 (W : Valuation τ sig (Elt Ideal)) :
    StableHlo.after hostOps1 W (Proc.devRef .tc main_arg8) = W (Proc.devRef .tc main_arg8) :=
  StableHlo.after_of_writes_sub hostOps1 W writes1_sub (by decide)
theorem keep1_arg9 (W : Valuation τ sig (Elt Ideal)) :
    StableHlo.after hostOps1 W (Proc.devRef .tc main_arg9) = W (Proc.devRef .tc main_arg9) :=
  StableHlo.after_of_writes_sub hostOps1 W writes1_sub (by decide)
theorem keep1_arg10 (W : Valuation τ sig (Elt Ideal)) :
    StableHlo.after hostOps1 W (Proc.devRef .tc main_arg10) = W (Proc.devRef .tc main_arg10) :=
  StableHlo.after_of_writes_sub hostOps1 W writes1_sub (by decide)
theorem keep1_arg11 (W : Valuation τ sig (Elt Ideal)) :
    StableHlo.after hostOps1 W (Proc.devRef .tc main_arg11) = W (Proc.devRef .tc main_arg11) :=
  StableHlo.after_of_writes_sub hostOps1 W writes1_sub (by decide)
theorem keep1_arg12 (W : Valuation τ sig (Elt Ideal)) :
    StableHlo.after hostOps1 W (Proc.devRef .tc main_arg12) = W (Proc.devRef .tc main_arg12) :=
  StableHlo.after_of_writes_sub hostOps1 W writes1_sub (by decide)

end Cert.KernelIdeal.KParams

end
-- ==== Proof.KParamsB.lean ====
/-
  The kernel program's parameter arrays, read entry by entry (stretches 2 and 3).

  Before each call the kernel's host operations cut one row out of each of the five `[4, 128]` parameter tables and one
  slab out of the `[4, 128, 128]` weights, and pass them through casts of shape (`[1, 128]` to `[128]` and back, or
  `[1, 128, 128]` to `[128, 128]`).  Read at an entry, each result is the table at `(l, k)` or the weights at `(l, k, c)`.
  A stretch of host operations leaves every array it does not write as it found it.
-/
import proofs.«100997_j79285096284187_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«100997_j79285096284187_1_alg».proof.Proof.Spec

noncomputable section

namespace Cert.KernelIdeal.KParams

open Cert.KernelIdeal Cert.KernelIdeal.Gen Idealize.ShloMosaic Idealize.ShloMosaic.TcCoe Idealize.ShloMosaic.StableHlo Idealize.ShloMosaic.ValueIdx

/-! ## A parameter row and a weight slab through the slice and the casts -/

/-- Row `l` of a `[4, n]` table, cut out as `[1, n]`, cast to `[n]` and back to `[1, n]`, read at `(0, k)`. -/
private theorem row_read {n : ℕ} (l : Fin 4) (X : (⟨2, ![4, n]⟩ : Shape).Idx → EReal)
    (hs : (⟨2, ![4, n]⟩ : Shape).Slices ![l.val, 0] ⟨2, ![1, n]⟩)
    (h1 : (⟨2, ![1, n]⟩ : Shape).ShapeCasts ⟨1, ![n]⟩) (h2 : (⟨1, ![n]⟩ : Shape).ShapeCasts ⟨2, ![1, n]⟩) (k : Fin n) :
    shapeCast ⟨2, ![1, n]⟩ (shapeCast ⟨1, ![n]⟩ (extractStridedSlice ⟨2, ![1, n]⟩ ![l.val, 0] X hs) h1) h2 (ix2 (0 : Fin 1) k)
      = X (ix2 l k) := by
  rw [shapeCast_a_1a_apply, shapeCast_1a_a_apply]
  exact slice2_axis0_apply l.val X hs (0 : Fin 1) k l (Nat.add_zero _).symm

/-- Slab `l` of a `[4, a, b]` array, cut out as `[1, a, b]` and cast to `[a, b]`, read at `(k, c)`. -/
private theorem slab_read {a b : ℕ} (l : Fin 4) (X : (⟨3, ![4, a, b]⟩ : Shape).Idx → EReal)
    (hs : (⟨3, ![4, a, b]⟩ : Shape).Slices ![l.val, 0, 0] ⟨3, ![1, a, b]⟩)
    (h1 : (⟨3, ![1, a, b]⟩ : Shape).ShapeCasts ⟨2, ![a, b]⟩) (k : Fin a) (c : Fin b) :
    shapeCast ⟨2, ![a, b]⟩ (extractStridedSlice ⟨3, ![1, a, b]⟩ ![l.val, 0, 0] X hs) h1 (ix2 k c) = X (ix3 l k c) := by
  rw [shapeCast_1ab_ab_apply]
  exact extractStridedSlice_apply _ X hs _ _ (fun ax => by
    match ax with
    | ⟨0, _⟩ => exact (Nat.add_zero _).symm
    | ⟨1, _⟩ => exact (Nat.zero_add _).symm
    | ⟨2, _⟩ => exact (Nat.zero_add _).symm)

/-- A single reference of a list, as a set of device references, lies in the list's. -/
private theorem single_sub {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-! ## Stretch 2: the parameters -/

/-- The weights of layer 2 as call 2 receives them: slab 2 of the weight array. -/
theorem w2 (W : Valuation τ sig (Elt Ideal)) :
    Spec.cur2 (StableHlo.after hostOps2 W (Proc.devRef .tc main_v92)) = Spec.wslab (W (Proc.devRef .tc main_arg3)) 2 := by
  funext k c
  show StableHlo.after hostOps2 W (Proc.devRef .tc main_v92) (ix2 k c) = W (Proc.devRef .tc main_arg3) (ix3 (2 : Fin 4) k c)
  after_results_simp
  exact slab_read (a := 128) (b := 128) 2 _ _ _ k c

/-- The bias of layer 1 as call 2 receives it: row 1 of its table. -/
theorem b1 (W : Valuation τ sig (Elt Ideal)) :
    Spec.row (StableHlo.after hostOps2 W (Proc.devRef .tc main_v93)) = Spec.prow (W (Proc.devRef .tc main_arg4)) 1 := by
  funext k
  show StableHlo.after hostOps2 W (Proc.devRef .tc main_v93) (ix2 (0 : Fin 1) k) = W (Proc.devRef .tc main_arg4) (ix2 (1 : Fin 4) k)
  after_results_simp
  exact row_read (n := 128) 1 _ _ _ _ k

/-- The scale γ of layer 1 as call 2 receives it: row 1 of its table. -/
theorem g1 (W : Valuation τ sig (Elt Ideal)) :
    Spec.row (StableHlo.after hostOps2 W (Proc.devRef .tc main_v94)) = Spec.prow (W (Proc.devRef .tc main_arg5)) 1 := by
  funext k
  show StableHlo.after hostOps2 W (Proc.devRef .tc main_v94) (ix2 (0 : Fin 1) k) = W (Proc.devRef .tc main_arg5) (ix2 (1 : Fin 4) k)
  after_results_simp
  exact row_read (n := 128) 1 _ _ _ _ k

/-- The shift β of layer 1 as call 2 receives it: row 1 of its table. -/
theorem be1 (W : Valuation τ sig (Elt Ideal)) :
    Spec.row (StableHlo.after hostOps2 W (Proc.devRef .tc main_v95)) = Spec.prow (W (Proc.devRef .tc main_arg6)) 1 := by
  funext k
  show StableHlo.after hostOps2 W (Proc.devRef .tc main_v95) (ix2 (0 : Fin 1) k) = W (Proc.devRef .tc main_arg6) (ix2 (1 : Fin 4) k)
  after_results_simp
  exact row_read (n := 128) 1 _ _ _ _ k

/-- The running mean of layer 1 as call 2 receives it: row 1 of its table. -/
theorem mu1 (W : Valuation τ sig (Elt Ideal)) :
    Spec.row (StableHlo.after hostOps2 W (Proc.devRef .tc main_v96)) = Spec.prow (W (Proc.devRef .tc main_arg7)) 1 := by
  funext k
  show StableHlo.after hostOps2 W (Proc.devRef .tc main_v96) (ix2 (0 : Fin 1) k) = W (Proc.devRef .tc main_arg7) (ix2 (1 : Fin 4) k)
  after_results_simp
  exact row_read (n := 128) 1 _ _ _ _ k

/-- The running variance of layer 1 as call 2 receives it: row 1 of its table. -/
theorem var1 (W : Valuation τ sig (Elt Ideal)) :
    Spec.row (StableHlo.after hostOps2 W (Proc.devRef .tc main_v97)) = Spec.prow (W (Proc.devRef .tc main_arg8)) 1 := by
  funext k
  show StableHlo.after hostOps2 W (Proc.devRef .tc main_v97) (ix2 (0 : Fin 1) k) = W (Proc.devRef .tc main_arg8) (ix2 (1 : Fin 4) k)
  after_results_simp
  exact row_read (n := 128) 1 _ _ _ _ k

/-! ## What stretch 2 leaves alone -/

/-- The references stretch 2 writes, in order. -/
def writes2 : List (Ref sig .tc) :=
  [main_c_9, main_v66, main_v67, main_c_10, main_v68, main_v69, main_v70, main_v71, main_v72, main_v73, main_v74, main_cst_11, main_v75, main_v76, main_v77, main_v78, main_v79, main_v80, main_v81, main_v82, main_v83, main_v84, main_v85, main_v86, main_v87, main_v88, main_v89, main_v90, main_v91, main_v92, main_v93, main_v94, main_v95, main_v96, main_v97]

/-- Each operation of stretch 2 writes one of them. -/
theorem writes2_sub : (hostOps2 : List (HloOp τ sig (Elt Ideal))).Forall fun op =>
    op.writes ⊆ (writes2.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep2_v1 (W : Valuation τ sig (Elt Ideal)) :
    StableHlo.after hostOps2 W (Proc.devRef .tc main_v1) = W (Proc.devRef .tc main_v1) :=
  StableHlo.after_of_writes_sub hostOps2 W writes2_sub (by decide)
theorem keep2_v3 (W : Valuation τ sig (Elt Ideal)) :
    StableHlo.after hostOps2 W (Proc.devRef .tc main_v3) = W (Proc.devRef .tc main_v3) :=
  StableHlo.after_of_writes_sub hostOps2 W writes2_sub (by decide)
theorem keep2_v26 (W : Valuation τ sig (Elt Ideal)) :
    StableHlo.after hostOps2 W (Proc.devRef .tc main_v26) = W (Proc.devRef .tc main_v26) :=
  StableHlo.after_of_writes_sub hostOps2 W writes2_sub (by decide)
theorem keep2_v29 (W : Valuation τ sig (Elt Ideal)) :
    StableHlo.after hostOps2 W (Proc.devRef .tc main_v29) = W (Proc.devRef .tc main_v29) :=
  StableHlo.after_of_writes_sub hostOps2 W writes2_sub (by decide)
theorem keep2_arg2 (W : Valuation τ sig (Elt Ideal)) :
    StableHlo.after hostOps2 W (Proc.devRef .tc main_arg2) = W (Proc.devRef .tc main_arg2) :=
  StableHlo.after_of_writes_sub hostOps2 W writes2_sub (by decide)
theorem keep2_arg3 (W : Valuation τ sig (Elt Ideal)) :
    StableHlo.after hostOps2 W (Proc.devRef .tc main_arg3) = W (Proc.devRef .tc main_arg3) :=
  StableHlo.after_of_writes_sub hostOps2 W writes2_sub (by decide)
theorem keep2_arg4 (W : Valuation τ sig (Elt Ideal)) :
    StableHlo.after hostOps2 W (Proc.devRef .tc main_arg4) = W (Proc.devRef .tc main_arg4) :=
  StableHlo.after_of_writes_sub hostOps2 W writes2_sub (by decide)
theorem keep2_arg5 (W : Valuation τ sig (Elt Ideal)) :
    StableHlo.after hostOps2 W (Proc.devRef .tc main_arg5) = W (Proc.devRef .tc main_arg5) :=
  StableHlo.after_of_writes_sub hostOps2 W writes2_sub (by decide)
theorem keep2_arg6 (W : Valuation τ sig (Elt Ideal)) :
    StableHlo.after hostOps2 W (Proc.devRef .tc main_arg6) = W (Proc.devRef .tc main_arg6) :=
  StableHlo.after_of_writes_sub hostOps2 W writes2_sub (by decide)
theorem keep2_arg7 (W : Valuation τ sig (Elt Ideal)) :
    StableHlo.after hostOps2 W (Proc.devRef .tc main_arg7) = W (Proc.devRef .tc main_arg7) :=
  StableHlo.after_of_writes_sub hostOps2 W writes2_sub (by decide)
theorem keep2_arg8 (W : Valuation τ sig (Elt Ideal)) :
    StableHlo.after hostOps2 W (Proc.devRef .tc main_arg8) = W (Proc.devRef .tc main_arg8) :=
  StableHlo.after_of_writes_sub hostOps2 W writes2_sub (by decide)
theorem keep2_arg9 (W : Valuation τ sig (Elt Ideal)) :
    StableHlo.after hostOps2 W (Proc.devRef .tc main_arg9) = W (Proc.devRef .tc main_arg9) :=
  StableHlo.after_of_writes_sub hostOps2 W writes2_sub (by decide)
theorem keep2_arg10 (W : Valuation τ sig (Elt Ideal)) :
    StableHlo.after hostOps2 W (Proc.devRef .tc main_arg10) = W (Proc.devRef .tc main_arg10) :=
  StableHlo.after_of_writes_sub hostOps2 W writes2_sub (by decide)
theorem keep2_arg11 (W : Valuation τ sig (Elt Ideal)) :
    StableHlo.after hostOps2 W (Proc.devRef .tc main_arg11) = W (Proc.devRef .tc main_arg11) :=
  StableHlo.after_of_writes_sub hostOps2 W writes2_sub (by decide)
theorem keep2_arg12 (W : Valuation τ sig (Elt Ideal)) :
    StableHlo.after hostOps2 W (Proc.devRef .tc main_arg12) = W (Proc.devRef .tc main_arg12) :=
  StableHlo.after_of_writes_sub hostOps2 W writes2_sub (by decide)

/-! ## Stretch 3: the parameters -/

/-- The weights of layer 3 as call 3 receives them: slab 3 of the weight array. -/
theorem w3 (W : Valuation τ sig (Elt Ideal)) :
    Spec.cur2 (StableHlo.after hostOps3 W (Proc.devRef .tc main_v125)) = Spec.wslab (W (Proc.devRef .tc main_arg3)) 3 := by
  funext k c
  show StableHlo.after hostOps3 W (Proc.devRef .tc main_v125) (ix2 k c) = W (Proc.devRef .tc main_arg3) (ix3 (3 : Fin 4) k c)
  after_results_simp
  exact slab_read (a := 128) (b := 128) 3 _ _ _ k c

/-- The bias of layer 2 as call 3 receives it: row 2 of its table. -/
theorem b2 (W : Valuation τ sig (Elt Ideal)) :
    Spec.row (StableHlo.after hostOps3 W (Proc.devRef .tc main_v126)) = Spec.prow (W (Proc.devRef .tc main_arg4)) 2 := by
  funext k
  show StableHlo.after hostOps3 W (Proc.devRef .tc main_v126) (ix2 (0 : Fin 1) k) = W (Proc.devRef .tc main_arg4) (ix2 (2 : Fin 4) k)
  after_results_simp
  exact row_read (n := 128) 2 _ _ _ _ k

/-- The scale γ of layer 2 as call 3 receives it: row 2 of its table. -/
theorem g2 (W : Valuation τ sig (Elt Ideal)) :
    Spec.row (StableHlo.after hostOps3 W (Proc.devRef .tc main_v127)) = Spec.prow (W (Proc.devRef .tc main_arg5)) 2 := by
  funext k
  show StableHlo.after hostOps3 W (Proc.devRef .tc main_v127) (ix2 (0 : Fin 1) k) = W (Proc.devRef .tc main_arg5) (ix2 (2 : Fin 4) k)
  after_results_simp
  exact row_read (n := 128) 2 _ _ _ _ k

/-- The shift β of layer 2 as call 3 receives it: row 2 of its table. -/
theorem be2 (W : Valuation τ sig (Elt Ideal)) :
    Spec.row (StableHlo.after hostOps3 W (Proc.devRef .tc main_v128)) = Spec.prow (W (Proc.devRef .tc main_arg6)) 2 := by
  funext k
  show StableHlo.after hostOps3 W (Proc.devRef .tc main_v128) (ix2 (0 : Fin 1) k) = W (Proc.devRef .tc main_arg6) (ix2 (2 : Fin 4) k)
  after_results_simp
  exact row_read (n := 128) 2 _ _ _ _ k

/-- The running mean of layer 2 as call 3 receives it: row 2 of its table. -/
theorem mu2 (W : Valuation τ sig (Elt Ideal)) :
    Spec.row (StableHlo.after hostOps3 W (Proc.devRef .tc main_v129)) = Spec.prow (W (Proc.devRef .tc main_arg7)) 2 := by
  funext k
  show StableHlo.after hostOps3 W (Proc.devRef .tc main_v129) (ix2 (0 : Fin 1) k) = W (Proc.devRef .tc main_arg7) (ix2 (2 : Fin 4) k)
  after_results_simp
  exact row_read (n := 128) 2 _ _ _ _ k

/-- The running variance of layer 2 as call 3 receives it: row 2 of its table. -/
theorem var2 (W : Valuation τ sig (Elt Ideal)) :
    Spec.row (StableHlo.after hostOps3 W (Proc.devRef .tc main_v130)) = Spec.prow (W (Proc.devRef .tc main_arg8)) 2 := by
  funext k
  show StableHlo.after hostOps3 W (Proc.devRef .tc main_v130) (ix2 (0 : Fin 1) k) = W (Proc.devRef .tc main_arg8) (ix2 (2 : Fin 4) k)
  after_results_simp
  exact row_read (n := 128) 2 _ _ _ _ k

/-! ## What stretch 3 leaves alone -/

/-- The references stretch 3 writes, in order. -/
def writes3 : List (Ref sig .tc) :=
  [main_c_12, main_v99, main_v100, main_c_13, main_v101, main_v102, main_v103, main_v104, main_v105, main_v106, main_v107, main_cst_14, main_v108, main_v109, main_v110, main_v111, main_v112, main_v113, main_v114, main_v115, main_v116, main_v117, main_v118, main_v119, main_v120, main_v121, main_v122, main_v123, main_v124, main_v125, main_v126, main_v127, main_v128, main_v129, main_v130]

/-- Each operation of stretch 3 writes one of them. -/
theorem writes3_sub : (hostOps3 : List (HloOp τ sig (Elt Ideal))).Forall fun op =>
    op.writes ⊆ (writes3.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep3_v1 (W : Valuation τ sig (Elt Ideal)) :
    StableHlo.after hostOps3 W (Proc.devRef .tc main_v1) = W (Proc.devRef .tc main_v1) :=
  StableHlo.after_of_writes_sub hostOps3 W writes3_sub (by decide)
theorem keep3_v3 (W : Valuation τ sig (Elt Ideal)) :
    StableHlo.after hostOps3 W (Proc.devRef .tc main_v3) = W (Proc.devRef .tc main_v3) :=
  StableHlo.after_of_writes_sub hostOps3 W writes3_sub (by decide)
theorem keep3_v26 (W : Valuation τ sig (Elt Ideal)) :
    StableHlo.after hostOps3 W (Proc.devRef .tc main_v26) = W (Proc.devRef .tc main_v26) :=
  StableHlo.after_of_writes_sub hostOps3 W writes3_sub (by decide)
theorem keep3_v29 (W : Valuation τ sig (Elt Ideal)) :
    StableHlo.after hostOps3 W (Proc.devRef .tc main_v29) = W (Proc.devRef .tc main_v29) :=
  StableHlo.after_of_writes_sub hostOps3 W writes3_sub (by decide)
theorem keep3_arg2 (W : Valuation τ sig (Elt Ideal)) :
    StableHlo.after hostOps3 W (Proc.devRef .tc main_arg2) = W (Proc.devRef .tc main_arg2) :=
  StableHlo.after_of_writes_sub hostOps3 W writes3_sub (by decide)
theorem keep3_arg3 (W : Valuation τ sig (Elt Ideal)) :
    StableHlo.after hostOps3 W (Proc.devRef .tc main_arg3) = W (Proc.devRef .tc main_arg3) :=
  StableHlo.after_of_writes_sub hostOps3 W writes3_sub (by decide)
theorem keep3_arg4 (W : Valuation τ sig (Elt Ideal)) :
    StableHlo.after hostOps3 W (Proc.devRef .tc main_arg4) = W (Proc.devRef .tc main_arg4) :=
  StableHlo.after_of_writes_sub hostOps3 W writes3_sub (by decide)
theorem keep3_arg5 (W : Valuation τ sig (Elt Ideal)) :
    StableHlo.after hostOps3 W (Proc.devRef .tc main_arg5) = W (Proc.devRef .tc main_arg5) :=
  StableHlo.after_of_writes_sub hostOps3 W writes3_sub (by decide)
theorem keep3_arg6 (W : Valuation τ sig (Elt Ideal)) :
    StableHlo.after hostOps3 W (Proc.devRef .tc main_arg6) = W (Proc.devRef .tc main_arg6) :=
  StableHlo.after_of_writes_sub hostOps3 W writes3_sub (by decide)
theorem keep3_arg7 (W : Valuation τ sig (Elt Ideal)) :
    StableHlo.after hostOps3 W (Proc.devRef .tc main_arg7) = W (Proc.devRef .tc main_arg7) :=
  StableHlo.after_of_writes_sub hostOps3 W writes3_sub (by decide)
theorem keep3_arg8 (W : Valuation τ sig (Elt Ideal)) :
    StableHlo.after hostOps3 W (Proc.devRef .tc main_arg8) = W (Proc.devRef .tc main_arg8) :=
  StableHlo.after_of_writes_sub hostOps3 W writes3_sub (by decide)
theorem keep3_arg9 (W : Valuation τ sig (Elt Ideal)) :
    StableHlo.after hostOps3 W (Proc.devRef .tc main_arg9) = W (Proc.devRef .tc main_arg9) :=
  StableHlo.after_of_writes_sub hostOps3 W writes3_sub (by decide)
theorem keep3_arg10 (W : Valuation τ sig (Elt Ideal)) :
    StableHlo.after hostOps3 W (Proc.devRef .tc main_arg10) = W (Proc.devRef .tc main_arg10) :=
  StableHlo.after_of_writes_sub hostOps3 W writes3_sub (by decide)
theorem keep3_arg11 (W : Valuation τ sig (Elt Ideal)) :
    StableHlo.after hostOps3 W (Proc.devRef .tc main_arg11) = W (Proc.devRef .tc main_arg11) :=
  StableHlo.after_of_writes_sub hostOps3 W writes3_sub (by decide)
theorem keep3_arg12 (W : Valuation τ sig (Elt Ideal)) :
    StableHlo.after hostOps3 W (Proc.devRef .tc main_arg12) = W (Proc.devRef .tc main_arg12) :=
  StableHlo.after_of_writes_sub hostOps3 W writes3_sub (by decide)

end Cert.KernelIdeal.KParams

end
-- ==== Proof.KParamsC.lean ====
/-
  The kernel program's parameter arrays, read entry by entry (stretches 4 and 5).

  Before each call the kernel's host operations cut one row out of each of the five `[4, 128]` parameter tables and one
  slab out of the `[4, 128, 128]` weights, and pass them through casts of shape (`[1, 128]` to `[128]` and back, or
  `[1, 128, 128]` to `[128, 128]`).  Read at an entry, each result is the table at `(l, k)` or the weights at `(l, k, c)`.
  A stretch of host operations leaves every array it does not write as it found it.
-/
import proofs.«100997_j79285096284187_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«100997_j79285096284187_1_alg».proof.Proof.Spec

noncomputable section

namespace Cert.KernelIdeal.KParams

open Cert.KernelIdeal Cert.KernelIdeal.Gen Idealize.ShloMosaic Idealize.ShloMosaic.TcCoe Idealize.ShloMosaic.StableHlo Idealize.ShloMosaic.ValueIdx

/-! ## A parameter row and a weight slab through the slice and the casts -/

/-- Row `l` of a `[4, n]` table, cut out as `[1, n]`, cast to `[n]` and back to `[1, n]`, read at `(0, k)`. -/
private theorem row_read {n : ℕ} (l : Fin 4) (X : (⟨2, ![4, n]⟩ : Shape).Idx → EReal)
    (hs : (⟨2, ![4, n]⟩ : Shape).Slices ![l.val, 0] ⟨2, ![1, n]⟩)
    (h1 : (⟨2, ![1, n]⟩ : Shape).ShapeCasts ⟨1, ![n]⟩) (h2 : (⟨1, ![n]⟩ : Shape).ShapeCasts ⟨2, ![1, n]⟩) (k : Fin n) :
    shapeCast ⟨2, ![1, n]⟩ (shapeCast ⟨1, ![n]⟩ (extractStridedSlice ⟨2, ![1, n]⟩ ![l.val, 0] X hs) h1) h2 (ix2 (0 : Fin 1) k)
      = X (ix2 l k) := by
  rw [shapeCast_a_1a_apply, shapeCast_1a_a_apply]
  exact slice2_axis0_apply l.val X hs (0 : Fin 1) k l (Nat.add_zero _).symm

/-- Slab `l` of a `[4, a, b]` array, cut out as `[1, a, b]` and cast to `[a, b]`, read at `(k, c)`. -/
private theorem slab_read {a b : ℕ} (l : Fin 4) (X : (⟨3, ![4, a, b]⟩ : Shape).Idx → EReal)
    (hs : (⟨3, ![4, a, b]⟩ : Shape).Slices ![l.val, 0, 0] ⟨3, ![1, a, b]⟩)
    (h1 : (⟨3, ![1, a, b]⟩ : Shape).ShapeCasts ⟨2, ![a, b]⟩) (k : Fin a) (c : Fin b) :
    shapeCast ⟨2, ![a, b]⟩ (extractStridedSlice ⟨3, ![1, a, b]⟩ ![l.val, 0, 0] X hs) h1 (ix2 k c) = X (ix3 l k c) := by
  rw [shapeCast_1ab_ab_apply]
  exact extractStridedSlice_apply _ X hs _ _ (fun ax => by
    match ax with
    | ⟨0, _⟩ => exact (Nat.add_zero _).symm
    | ⟨1, _⟩ => exact (Nat.zero_add _).symm
    | ⟨2, _⟩ => exact (Nat.zero_add _).symm)

/-- A single reference of a list, as a set of device references, lies in the list's. -/
private theorem single_sub {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-! ## Stretch 4: the parameters -/

/-- The bias of layer 3 as call 4 receives it: row 3 of its table. -/
theorem b3 (W : Valuation τ sig (Elt Ideal)) :
    Spec.row (StableHlo.after hostOps4 W (Proc.devRef .tc main_v157)) = Spec.prow (W (Proc.devRef .tc main_arg4)) 3 := by
  funext k
  show StableHlo.after hostOps4 W (Proc.devRef .tc main_v157) (ix2 (0 : Fin 1) k) = W (Proc.devRef .tc main_arg4) (ix2 (3 : Fin 4) k)
  after_results_simp
  exact row_read (n := 128) 3 _ _ _ _ k

/-- The scale γ of layer 3 as call 4 receives it: row 3 of its table. -/
theorem g3 (W : Valuation τ sig (Elt Ideal)) :
    Spec.row (StableHlo.after hostOps4 W (Proc.devRef .tc main_v158)) = Spec.prow (W (Proc.devRef .tc main_arg5)) 3 := by
  funext k
  show StableHlo.after hostOps4 W (Proc.devRef .tc main_v158) (ix2 (0 : Fin 1) k) = W (Proc.devRef .tc main_arg5) (ix2 (3 : Fin 4) k)
  after_results_simp
  exact row_read (n := 128) 3 _ _ _ _ k

/-- The shift β of layer 3 as call 4 receives it: row 3 of its table. -/
theorem be3 (W : Valuation τ sig (Elt Ideal)) :
    Spec.row (StableHlo.after hostOps4 W (Proc.devRef .tc main_v159)) = Spec.prow (W (Proc.devRef .tc main_arg6)) 3 := by
  funext k
  show StableHlo.after hostOps4 W (Proc.devRef .tc main_v159) (ix2 (0 : Fin 1) k) = W (Proc.devRef .tc main_arg6) (ix2 (3 : Fin 4) k)
  after_results_simp
  exact row_read (n := 128) 3 _ _ _ _ k

/-- The running mean of layer 3 as call 4 receives it: row 3 of its table. -/
theorem mu3 (W : Valuation τ sig (Elt Ideal)) :
    Spec.row (StableHlo.after hostOps4 W (Proc.devRef .tc main_v160)) = Spec.prow (W (Proc.devRef .tc main_arg7)) 3 := by
  funext k
  show StableHlo.after hostOps4 W (Proc.devRef .tc main_v160) (ix2 (0 : Fin 1) k) = W (Proc.devRef .tc main_arg7) (ix2 (3 : Fin 4) k)
  after_results_simp
  exact row_read (n := 128) 3 _ _ _ _ k

/-- The running variance of layer 3 as call 4 receives it: row 3 of its table. -/
theorem var3 (W : Valuation τ sig (Elt Ideal)) :
    Spec.row (StableHlo.after hostOps4 W (Proc.devRef .tc main_v161)) = Spec.prow (W (Proc.devRef .tc main_arg8)) 3 := by
  funext k
  show StableHlo.after hostOps4 W (Proc.devRef .tc main_v161) (ix2 (0 : Fin 1) k) = W (Proc.devRef .tc main_arg8) (ix2 (3 : Fin 4) k)
  after_results_simp
  exact row_read (n := 128) 3 _ _ _ _ k

/-! ## What stretch 4 leaves alone -/

/-- The references stretch 4 writes, in order. -/
def writes4 : List (Ref sig .tc) :=
  [main_c_15, main_v132, main_v133, main_c_16, main_v134, main_v135, main_v136, main_v137, main_v138, main_v139, main_v140, main_cst_17, main_v141, main_v142, main_v143, main_v144, main_v145, main_v146, main_v147, main_v148, main_v149, main_v150, main_v151, main_v152, main_v153, main_v154, main_v155, main_v156, main_v157, main_v158, main_v159, main_v160, main_v161]

/-- Each operation of stretch 4 writes one of them. -/
theorem writes4_sub : (hostOps4 : List (HloOp τ sig (Elt Ideal))).Forall fun op =>
    op.writes ⊆ (writes4.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep4_arg2 (W : Valuation τ sig (Elt Ideal)) :
    StableHlo.after hostOps4 W (Proc.devRef .tc main_arg2) = W (Proc.devRef .tc main_arg2) :=
  StableHlo.after_of_writes_sub hostOps4 W writes4_sub (by decide)
theorem keep4_arg9 (W : Valuation τ sig (Elt Ideal)) :
    StableHlo.after hostOps4 W (Proc.devRef .tc main_arg9) = W (Proc.devRef .tc main_arg9) :=
  StableHlo.after_of_writes_sub hostOps4 W writes4_sub (by decide)
theorem keep4_arg10 (W : Valuation τ sig (Elt Ideal)) :
    StableHlo.after hostOps4 W (Proc.devRef .tc main_arg10) = W (Proc.devRef .tc main_arg10) :=
  StableHlo.after_of_writes_sub hostOps4 W writes4_sub (by decide)
theorem keep4_arg11 (W : Valuation τ sig (Elt Ideal)) :
    StableHlo.after hostOps4 W (Proc.devRef .tc main_arg11) = W (Proc.devRef .tc main_arg11) :=
  StableHlo.after_of_writes_sub hostOps4 W writes4_sub (by decide)
theorem keep4_arg12 (W : Valuation τ sig (Elt Ideal)) :
    StableHlo.after hostOps4 W (Proc.devRef .tc main_arg12) = W (Proc.devRef .tc main_arg12) :=
  StableHlo.after_of_writes_sub hostOps4 W writes4_sub (by decide)

/-! ## Stretch 5: the parameters -/

/-- The head's hidden bias as the last call receives it: the `[128]` vector as one row. -/
theorem hb1 (W : Valuation τ sig (Elt Ideal)) :
    Spec.row (StableHlo.after hostOps5 W (Proc.devRef .tc main_v175)) = fun k => W (Proc.devRef .tc main_arg10) (ix1 k) := by
  funext k
  show StableHlo.after hostOps5 W (Proc.devRef .tc main_v175) (ix2 (0 : Fin 1) k) = W (Proc.devRef .tc main_arg10) (ix1 k)
  after_results_simp
  exact shapeCast_a_1a_apply _ _ (0 : Fin 1) k

/-- The head's output bias as the last call receives it: the one number as a `[1, 1]` array. -/
theorem hb2 (W : Valuation τ sig (Elt Ideal)) :
    StableHlo.after hostOps5 W (Proc.devRef .tc main_v176) (ix2 (0 : Fin 1) (0 : Fin 1)) = W (Proc.devRef .tc main_arg12) (ix1 (0 : Fin 1)) := by
  after_results_simp
  exact shapeCast_a_1a_apply _ _ (0 : Fin 1) (0 : Fin 1)

/-! ## What stretch 5 leaves alone -/

/-- The references stretch 5 writes, in order. -/
def writes5 : List (Ref sig .tc) :=
  [main_cst_18, main_v163, main_cst_19, main_v164, main_v165, main_v166, main_cst_20, main_v167, main_v168, main_v169, main_cst_21, main_v170, main_v171, main_v172, main_v173, main_v174, main_v175, main_v176]

/-- Each operation of stretch 5 writes one of them. -/
theorem writes5_sub : (hostOps5 : List (HloOp τ sig (Elt Ideal))).Forall fun op =>
    op.writes ⊆ (writes5.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem keep5_arg9 (W : Valuation τ sig (Elt Ideal)) :
    StableHlo.after hostOps5 W (Proc.devRef .tc main_arg9) = W (Proc.devRef .tc main_arg9) :=
  StableHlo.after_of_writes_sub hostOps5 W writes5_sub (by decide)
theorem keep5_arg11 (W : Valuation τ sig (Elt Ideal)) :
    StableHlo.after hostOps5 W (Proc.devRef .tc main_arg11) = W (Proc.devRef .tc main_arg11) :=
  StableHlo.after_of_writes_sub hostOps5 W writes5_sub (by decide)

end Cert.KernelIdeal.KParams

end
-- ==== Proof.KAgg0.lean ====
/-
  The host operations before the first kernel region: the source and target index vectors of the edges, the symmetric edge
  normalisation rsqrt(deg src) · rsqrt(deg dst), the self-loop normalisation 1 / deg and the first layer's weight slab.  The
  kernel program spells them exactly as the reference does, so each buffer is the reference's stage of the same argument.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KAgg0

open Cert.KernelIdeal Cert.KernelIdeal.Gen Idealize.ShloMosaic Idealize.ShloMosaic.TcCoe Idealize.ShloMosaic.StableHlo
open Cert.ReferenceIdeal.ReadP

variable (W : Valuation τ sig (Elt Ideal))

theorem v1 (x1 : (⟨S2x1600000, .i32⟩ : BufTy).Contents (Elt Ideal)) (ha : W (Proc.devRef .tc main_arg1) = x1) :
    StableHlo.after hostOps0 W (Proc.devRef .tc main_v1) = val_main_v1 (F := Ideal) x1 := by
  after_results_simp
  rw [ha]
  unfold val_main_v1 val_main_v0
  rfl

theorem v3 (x1 : (⟨S2x1600000, .i32⟩ : BufTy).Contents (Elt Ideal)) (ha : W (Proc.devRef .tc main_arg1) = x1) :
    StableHlo.after hostOps0 W (Proc.devRef .tc main_v3) = val_main_v3 (F := Ideal) x1 := by
  after_results_simp
  rw [ha]
  unfold val_main_v3 val_main_v2
  rfl

theorem v26 (x1 : (⟨S2x1600000, .i32⟩ : BufTy).Contents (Elt Ideal)) (ha : W (Proc.devRef .tc main_arg1) = x1) :
    StableHlo.after hostOps0 W (Proc.devRef .tc main_v26) = val_main_v26 (F := Ideal) x1 := by
  after_results_simp
  rw [ha]
  unfold val_main_v26 val_main_v25 val_main_v17 val_main_v10 val_main_v9 val_main_v7 val_main_v5 val_main_cst_0 val_main_v6 val_main_v3 val_main_v2 val_main_v4 val_main_cst val_main_v8 val_main_cst_1 val_main_v16 val_main_v15 val_main_v12 val_main_v1 val_main_v0 val_main_v11 val_main_c val_main_v14 val_main_v13 val_main_c_2 val_main_v24 val_main_v23 val_main_v22 val_main_v19 val_main_v18 val_main_c_3 val_main_v21 val_main_v20 val_main_c_4
  rfl

theorem v29 (x1 : (⟨S2x1600000, .i32⟩ : BufTy).Contents (Elt Ideal)) (ha : W (Proc.devRef .tc main_arg1) = x1) :
    StableHlo.after hostOps0 W (Proc.devRef .tc main_v29) = val_main_v29 (F := Ideal) x1 := by
  after_results_simp
  rw [ha]
  unfold val_main_v29 val_main_v28 val_main_v27 val_main_cst_5 val_main_v9 val_main_v7 val_main_v5 val_main_cst_0 val_main_v6 val_main_v3 val_main_v2 val_main_v4 val_main_cst val_main_v8 val_main_cst_1
  rfl

theorem v31 (x3 : (⟨S4x128x128, .f32⟩ : BufTy).Contents (Elt Ideal)) (ha : W (Proc.devRef .tc main_arg3) = x3) :
    StableHlo.after hostOps0 W (Proc.devRef .tc main_v31) = val_main_v31 (F := Ideal) x3 := by
  after_results_simp
  rw [ha]
  unfold val_main_v31 val_main_v30
  rfl

end Cert.KernelIdeal.KAgg0

end
-- ==== Proof.KAgg1.lean ====
/-
  Layer 0's neighbourhood aggregation in the kernel program (the host operations between two kernel regions), against the
  reference's.  The two programs spell the aggregation identically — recompute the wrapped source index, gather the rows of
  the layer's dense output along the edges, scale by the edge normalisation, scatter-add at the target index, add the
  self-loop term —, so once the operands agree the two terms are one, operation for operation; nothing is opened.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KAgg1

open Cert.KernelIdeal Cert.KernelIdeal.Gen Idealize.ShloMosaic Idealize.ShloMosaic.TcCoe Idealize.ShloMosaic.StableHlo
open Cert.ReferenceIdeal.ReadP

variable (W : Valuation τ sig (Elt Ideal))

/-- If the dense output, the two index vectors and the two normalisations the stretch reads are the reference's stages, so is
    the aggregated array it leaves. -/
theorem agg (x0 : (⟨S100000x128, .f32⟩ : BufTy).Contents (Elt Ideal)) (x1 : (⟨S2x1600000, .i32⟩ : BufTy).Contents (Elt Ideal)) (x3 : (⟨S4x128x128, .f32⟩ : BufTy).Contents (Elt Ideal))
    (ht : W (Proc.devRef .tc main_v32) = val_main_v32 (F := Ideal) x0 x3)
    (h1 : W (Proc.devRef .tc main_v1) = val_main_v1 (F := Ideal) x1) (h3 : W (Proc.devRef .tc main_v3) = val_main_v3 (F := Ideal) x1)
    (h26 : W (Proc.devRef .tc main_v26) = val_main_v26 (F := Ideal) x1) (h29 : W (Proc.devRef .tc main_v29) = val_main_v29 (F := Ideal) x1) :
    StableHlo.after hostOps1 W (Proc.devRef .tc main_v47) = val_main_v47 (F := Ideal) x0 x1 x3 := by
  after_results_simp
  rw [ht, h1, h3, h26, h29]
  unfold val_main_v47 val_main_v44 val_main_v42 val_main_cst_8 val_main_v43 val_main_v41 val_main_v39 val_main_v38 val_main_v37 val_main_v34 val_main_v33 val_main_c_6 val_main_v36 val_main_v35 val_main_c_7 val_main_v40 val_main_v46 val_main_v45
  rfl

end Cert.KernelIdeal.KAgg1

end
-- ==== Proof.KAgg2.lean ====
/-
  Layer 1's neighbourhood aggregation in the kernel program (the host operations between two kernel regions), against the
  reference's.  The two programs spell the aggregation identically — recompute the wrapped source index, gather the rows of
  the layer's dense output along the edges, scale by the edge normalisation, scatter-add at the target index, add the
  self-loop term —, so once the operands agree the two terms are one, operation for operation; nothing is opened.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KAgg2

open Cert.KernelIdeal Cert.KernelIdeal.Gen Idealize.ShloMosaic Idealize.ShloMosaic.TcCoe Idealize.ShloMosaic.StableHlo
open Cert.ReferenceIdeal.ReadP

variable (W : Valuation τ sig (Elt Ideal))

/-- If the dense output, the two index vectors and the two normalisations the stretch reads are the reference's stages, so is
    the aggregated array it leaves. -/
theorem agg (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 x5 x6 x7 x8 : (⟨S4x128, .f32⟩ : BufTy).Contents (Elt Ideal))
    (ht : W (Proc.devRef .tc main_v65) = val_main_v79 (F := Ideal) x0 x1 x3 x4 x5 x6 x7 x8)
    (h1 : W (Proc.devRef .tc main_v1) = val_main_v1 (F := Ideal) x1) (h3 : W (Proc.devRef .tc main_v3) = val_main_v3 (F := Ideal) x1)
    (h26 : W (Proc.devRef .tc main_v26) = val_main_v26 (F := Ideal) x1) (h29 : W (Proc.devRef .tc main_v29) = val_main_v29 (F := Ideal) x1) :
    StableHlo.after hostOps2 W (Proc.devRef .tc main_v80) = val_main_v94 (F := Ideal) x0 x1 x3 x4 x5 x6 x7 x8 := by
  after_results_simp
  rw [ht, h1, h3, h26, h29]
  unfold val_main_v94 val_main_v91 val_main_v89 val_main_cst_12 val_main_v90 val_main_v88 val_main_v86 val_main_v85 val_main_v84 val_main_v81 val_main_v80 val_main_c_10 val_main_v83 val_main_v82 val_main_c_11 val_main_v87 val_main_v93 val_main_v92
  rfl

end Cert.KernelIdeal.KAgg2

end
-- ==== Proof.KAgg3.lean ====
/-
  Layer 2's neighbourhood aggregation in the kernel program (the host operations between two kernel regions), against the
  reference's.  The two programs spell the aggregation identically — recompute the wrapped source index, gather the rows of
  the layer's dense output along the edges, scale by the edge normalisation, scatter-add at the target index, add the
  self-loop term —, so once the operands agree the two terms are one, operation for operation; nothing is opened.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KAgg3

open Cert.KernelIdeal Cert.KernelIdeal.Gen Idealize.ShloMosaic Idealize.ShloMosaic.TcCoe Idealize.ShloMosaic.StableHlo
open Cert.ReferenceIdeal.ReadP

variable (W : Valuation τ sig (Elt Ideal))

/-- If the dense output, the two index vectors and the two normalisations the stretch reads are the reference's stages, so is
    the aggregated array it leaves. -/
theorem agg (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 x5 x6 x7 x8 : (⟨S4x128, .f32⟩ : BufTy).Contents (Elt Ideal))
    (ht : W (Proc.devRef .tc main_v98) = val_main_v126 (F := Ideal) x0 x1 x3 x4 x5 x6 x7 x8)
    (h1 : W (Proc.devRef .tc main_v1) = val_main_v1 (F := Ideal) x1) (h3 : W (Proc.devRef .tc main_v3) = val_main_v3 (F := Ideal) x1)
    (h26 : W (Proc.devRef .tc main_v26) = val_main_v26 (F := Ideal) x1) (h29 : W (Proc.devRef .tc main_v29) = val_main_v29 (F := Ideal) x1) :
    StableHlo.after hostOps3 W (Proc.devRef .tc main_v113) = val_main_v141 (F := Ideal) x0 x1 x3 x4 x5 x6 x7 x8 := by
  after_results_simp
  rw [ht, h1, h3, h26, h29]
  unfold val_main_v141 val_main_v138 val_main_v136 val_main_cst_16 val_main_v137 val_main_v135 val_main_v133 val_main_v132 val_main_v131 val_main_v128 val_main_v127 val_main_c_14 val_main_v130 val_main_v129 val_main_c_15 val_main_v134 val_main_v140 val_main_v139
  rfl

end Cert.KernelIdeal.KAgg3

end
-- ==== Proof.KAgg4.lean ====
/-
  Layer 3's neighbourhood aggregation in the kernel program (the host operations between two kernel regions), against the
  reference's.  The two programs spell the aggregation identically — recompute the wrapped source index, gather the rows of
  the layer's dense output along the edges, scale by the edge normalisation, scatter-add at the target index, add the
  self-loop term —, so once the operands agree the two terms are one, operation for operation; nothing is opened.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KAgg4

open Cert.KernelIdeal Cert.KernelIdeal.Gen Idealize.ShloMosaic Idealize.ShloMosaic.TcCoe Idealize.ShloMosaic.StableHlo
open Cert.ReferenceIdeal.ReadP

variable (W : Valuation τ sig (Elt Ideal))

/-- If the dense output, the two index vectors and the two normalisations the stretch reads are the reference's stages, so is
    the aggregated array it leaves. -/
theorem agg (x0 : (⟨S100000x128, .f32⟩ : BufTy).Contents (Elt Ideal)) (x1 : (⟨S2x1600000, .i32⟩ : BufTy).Contents (Elt Ideal)) (x3 : (⟨S4x128x128, .f32⟩ : BufTy).Contents (Elt Ideal)) (x4 x5 x6 x7 x8 : (⟨S4x128, .f32⟩ : BufTy).Contents (Elt Ideal))
    (ht : W (Proc.devRef .tc main_v131) = val_main_v173 (F := Ideal) x0 x1 x3 x4 x5 x6 x7 x8)
    (h1 : W (Proc.devRef .tc main_v1) = val_main_v1 (F := Ideal) x1) (h3 : W (Proc.devRef .tc main_v3) = val_main_v3 (F := Ideal) x1)
    (h26 : W (Proc.devRef .tc main_v26) = val_main_v26 (F := Ideal) x1) (h29 : W (Proc.devRef .tc main_v29) = val_main_v29 (F := Ideal) x1) :
    StableHlo.after hostOps4 W (Proc.devRef .tc main_v146) = val_main_v188 (F := Ideal) x0 x1 x3 x4 x5 x6 x7 x8 := by
  after_results_simp
  rw [ht, h1, h3, h26, h29]
  unfold val_main_v188 val_main_v185 val_main_v183 val_main_cst_20 val_main_v184 val_main_v182 val_main_v180 val_main_v179 val_main_v178 val_main_v175 val_main_v174 val_main_c_18 val_main_v177 val_main_v176 val_main_c_19 val_main_v181 val_main_v187 val_main_v186
  rfl

end Cert.KernelIdeal.KAgg4

end
-- ==== Proof.KPool.lean ====
/-
  The global mean pool in the kernel program (the host operations before the last kernel region), against the reference's:
  scatter-add the node features and a vector of ones at the graph index, floor the counts at one, divide.  The two programs spell
  it identically, so once the node features and the graph index agree the pooled arrays are one term.
-/
import proofs.«100997_j79285096284187_1_alg».proof.Proof.Gen.KernelIdeal.Launch
import proofs.«100997_j79285096284187_1_alg».proof.Proof.RefRead
import Idealize.ShloMosaic.Lib.StableHlo.Run

set_option maxRecDepth 16384

noncomputable section

namespace Cert.KernelIdeal.KPool

open Cert.KernelIdeal Cert.KernelIdeal.Gen Idealize.ShloMosaic Idealize.ShloMosaic.TcCoe Idealize.ShloMosaic.StableHlo
open Cert.ReferenceIdeal.ReadP

variable (W : Valuation τ sig (Elt Ideal))

theorem pooled (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S4x128x128, .f32⟩ : BufTy).Contents (Elt Ideal)) (x4 x5 x6 x7 x8 : (⟨S4x128, .f32⟩ : BufTy).Contents (Elt Ideal))
    (hh : W (Proc.devRef .tc main_v162) = val_main_v217 (F := Ideal) x0 x1 x3 x4 x5 x6 x7 x8)
    (h2 : W (Proc.devRef .tc main_arg2) = x2) :
    StableHlo.after hostOps5 W (Proc.devRef .tc main_v174) = val_main_v229 (F := Ideal) x0 x1 x2 x3 x4 x5 x6 x7 x8 := by
  after_results_simp
  rw [hh, h2]
  unfold val_main_v229 val_main_v221 val_main_v219 val_main_cst_23 val_main_v220 val_main_v228 val_main_v227 val_main_v226 val_main_v224 val_main_v222 val_main_cst_24 val_main_v223 val_main_v218 val_main_cst_22 val_main_v225 val_main_cst_25
  rfl

end Cert.KernelIdeal.KPool

end
-- ==== Proof.Reg0.lean ====
/-
  Region 0 of the kernel program (the first layer's dense map), as one function of the arrays the region finds.

  Grid point t fetches rows 5000·t … 5000·t + 4999 of the feature matrix and the whole of every parameter array, and writes
  back rows 5000·t … of the result: entry (p, q) of the written block is Σ_k x (5000·t + p, k) · W (k, q).  The twenty blocks tile the
  100000 rows, so the result array after the region is that function of the entry arrays at EVERY index.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The block product's dimension numbers: rows × contraction, contraction × columns -/

abbrev DK := dot_S5000x128_S128x128_S5000x128_1_0_0_1_n_n

theorem DK_l0 (j : S5000x128.Idx) (q : DK.contr.Idx) : (DK.lhsIdx j q 0).val = (j 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (j : S5000x128.Idx) (q : DK.contr.Idx) : (DK.lhsIdx j q 1).val = (q ⟨0, by decide⟩).val :=
  DK.lhsIdx_val_of_single rfl j q
theorem DK_r0 (j : S5000x128.Idx) (q : DK.contr.Idx) : (DK.rhsIdx j q 0).val = (q ⟨0, by decide⟩).val :=
  DK.rhsIdx_val_of_single rfl j q
theorem DK_r1 (j : S5000x128.Idx) (q : DK.contr.Idx) : (DK.rhsIdx j q 1).val = (j 1).val := by
  unfold DotDims.rhsIdx
  rw [dif_neg (show ¬(1 : Fin S128x128.rank) ∈ DK.rhsBatch by decide), dif_pos (show (1 : Fin S128x128.rank) ∈ DK.rhsNonContracting by decide)]
  rfl

/-! ## The body's arithmetic at an entry -/

/-- Entry (p, q) of what the body stores: row p of the feature block against column q of the weights. -/
theorem pay_apply (x0 : Vec Ideal S5000x128 .f32) (w : Vec Ideal S128x128 .f32) (p : Fin 5000) (q : Fin 128) :
    k0_pay1 (F := Ideal) x0 w (ix2 p q) = ∑ i : Fin 128, x0 (ix2 p i) * w (ix2 i q) := by
  unfold k0_pay1
  simp only [shapeCast_self, matmul]
  refine (LibDot.matmul_zero_apply DK rfl rfl DK_l0 DK_l1 DK_r0 DK_r1 none _ _ p q).trans ?_
  rfl

/-! ## From the blocks to the array -/

theorem hz : (![0, 0] : Fin 2 → Nat) = fun _ => 0 := funext fun a => by fin_cases a <;> rfl

/-- The result array as one function of the entry arrays: the dense map. -/
def G (A : S100000x128.Idx → EReal) (w : S128x128.Idx → EReal) : S100000x128.Idx → EReal :=
  Spec.arr2 (Spec.lin (Spec.cur2 A) (Spec.cur2 w))

/-- One block against the whole: if the feature block x0 is rows R … R + 4999 of A (through an embedding e that keeps the
    column), the written block is the same rows of G. -/
theorem point (A : S100000x128.Idx → EReal) (w : S128x128.Idx → EReal)
    (x0 : Vec Ideal S5000x128 .f32) (e : S5000x128.Idx → S100000x128.Idx)
    (h0 : ∀ y, x0 y = A (e y)) (he0 : ∀ y y' : S5000x128.Idx, (y 0).val = (y' 0).val → ((e y) 0).val = ((e y') 0).val)
    (he1 : ∀ y : S5000x128.Idx, ((e y) 1).val = (y 1).val) (j : S5000x128.Idx) :
    k0_pay1 (F := Ideal) x0 w j = G A w (e j) := by
  obtain ⟨p, q, rfl⟩ : ∃ (p : Fin 5000) (q : Fin 128), j = ix2 p q := ⟨j 0, j 1, eq_ix2 j⟩
  rw [pay_apply]
  show _ = ∑ i : Fin 128, A (ix2 ((e (ix2 p q)) 0) i) * w (ix2 i ((e (ix2 p q)) 1))
  refine Finset.sum_congr rfl fun i _ => ?_
  have e1 : e (ix2 p i) = ix2 ((e (ix2 p q)) 0) i := funext fun a => Fin.ext (by
    match a with
    | ⟨0, _⟩ => exact he0 (ix2 p i) (ix2 p q) rfl
    | ⟨1, _⟩ => exact he1 (ix2 p i))
  have e2 : (e (ix2 p q)) 1 = q := Fin.ext (he1 (ix2 p q))
  rw [h0, e1, e2]
  rfl

/-- The printed index maps over the grid: the feature window moves with the result window, row block t; the parameter
    windows stay at the origin. -/
theorem idx_facts : ∀ t : Fin cfg0.N, win0_0.index t (0 : Fin 2) = t.val
    ∧ win0_0.index t (1 : Fin 2) = 0
    ∧ win0_2.index t (0 : Fin 2) = t.val
    ∧ win0_2.index t (1 : Fin 2) = 0
    ∧ win0_1.index t (0 : Fin 2) = 0
    ∧ win0_1.index t (1 : Fin 2) = 0 :=
  (by decide +kernel : ∀ t : Fin grid0.N, _)

variable (V : (c : Dev nD) → (b : Ref sig .tc) → Buf (Elt Ideal) ((c : Thread nD τ).loc b))

/-- A parameter window's block is its whole array. -/
theorem blk_w (c : Dev nD) (t : Fin cfg0.N) : iblk0 V c 1 t = V c main_v31 := by
  obtain ⟨-, -, -, -, e0, e1⟩ := idx_facts t
  funext y
  show V c main_v31 (((cfg0.win 1).blk t).view.emb y) = V c main_v31 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- WHAT POINT t WRITES BACK is block t of G of the entry arrays. -/
theorem flushed_eq (c : Dev nD) (t : Fin cfg0.N) :
    (dat0 V c).flushed 2 t = ((cfg0.win 2).blk t).view.read (Elt Ideal)
      (G (V c main_arg0) (V c main_v31)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [blk_w V c t]
  obtain ⟨a0, a1, o0, o1, -⟩ := idx_facts t
  funext j
  refine point (V c main_arg0) (V c main_v31) (iblk0 V c 0 t)
    (fun y => ((cfg0.win 2).blk t).view.emb y) (fun y => ?_) (fun y y' hy => ?_) (fun y => ?_) j
  · show V c main_arg0 (((cfg0.win 0).blk t).view.emb y) = V c main_arg0 (((cfg0.win 2).blk t).view.emb y)
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * (y 1).val = win0_2.index t (1 : Fin 2) * 128 + 1 * (y 1).val; omega
  · show win0_2.index t (0 : Fin 2) * 5000 + 1 * (y 0).val = win0_2.index t (0 : Fin 2) * 5000 + 1 * (y' 0).val
    omega
  · show win0_2.index t (1 : Fin 2) * 128 + 1 * (y 1).val = (y 1).val
    omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty row blocks cover the array: row r is in block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, o0, o1, -⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [o0]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [o1]; omega

/-- THE RESULT ARRAY after the region. -/
theorem value (c : Dev nD) : (dat0 V c).arrAt 2 cfg0.N
    = G (V c main_arg0) (V c main_v31) :=
  (dat0 V c).arrAt_eq_of_cover 2 _ (fun t _ => flushed_eq V c t) cover

end Cert.KernelIdeal.Reg0

end
-- ==== Proof.Reg1.lean ====
/-
  Region 1 of the kernel program (bias, ReLU and batch normalisation of layer 0 fused with layer 1's dense map), as one function of the arrays the region finds.

  Grid point t fetches rows 5000·t … 5000·t + 4999 of the feature matrix and the whole of every parameter array, and writes
  back rows 5000·t … of the result: entry (p, q) of the written block is Σ_k bn(agg (5000·t + p, k)) · W (k, q).  The twenty blocks tile the
  100000 rows, so the result array after the region is that function of the entry arrays at EVERY index.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The block product's dimension numbers: rows × contraction, contraction × columns -/

abbrev DK := dot_S5000x128_S128x128_S5000x128_1_0_0_1_n_n

theorem DK_l0 (j : S5000x128.Idx) (q : DK.contr.Idx) : (DK.lhsIdx j q 0).val = (j 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (j : S5000x128.Idx) (q : DK.contr.Idx) : (DK.lhsIdx j q 1).val = (q ⟨0, by decide⟩).val :=
  DK.lhsIdx_val_of_single rfl j q
theorem DK_r0 (j : S5000x128.Idx) (q : DK.contr.Idx) : (DK.rhsIdx j q 0).val = (q ⟨0, by decide⟩).val :=
  DK.rhsIdx_val_of_single rfl j q
theorem DK_r1 (j : S5000x128.Idx) (q : DK.contr.Idx) : (DK.rhsIdx j q 1).val = (j 1).val := by
  unfold DotDims.rhsIdx
  rw [dif_neg (show ¬(1 : Fin S128x128.rank) ∈ DK.rhsBatch by decide), dif_pos (show (1 : Fin S128x128.rank) ∈ DK.rhsNonContracting by decide)]
  rfl

/-! ## The body's arithmetic at an entry -/

/-- Entry (p, q) of what the body stores: the normalised row p of the feature block against column q of the weights. -/
theorem pay_apply (x0 : Vec Ideal S5000x128 .f32) (b g mu var be : Vec Ideal S1x128 .f32) (w : Vec Ideal S128x128 .f32)
    (p : Fin 5000) (q : Fin 128) :
    k1_pay1 (F := Ideal) x0 b g mu var be w (ix2 p q)
      = ∑ i : Fin 128, Spec.bn (x0 (ix2 p i)) (b (ix2 (0 : Fin 1) i)) (g (ix2 (0 : Fin 1) i)) (mu (ix2 (0 : Fin 1) i))
          (var (ix2 (0 : Fin 1) i)) (be (ix2 (0 : Fin 1) i)) * w (ix2 i q) := by
  unfold k1_pay1
  simp only [shapeCast_self, matmul]
  refine (LibDot.matmul_zero_apply DK rfl rfl DK_l0 DK_l1 DK_r0 DK_r1 none _ _ p q).trans ?_
  refine Finset.sum_congr rfl fun i _ => ?_
  simp only [truncf_apply, addf_apply, mulf_apply, subf_apply, maximumf_apply, broadcast_apply, broadcastTo_1b_ab_apply]
  rfl

/-! ## From the blocks to the array -/

theorem hz : (![0, 0] : Fin 2 → Nat) = fun _ => 0 := funext fun a => by fin_cases a <;> rfl

/-- The result array as one function of the entry arrays: layer normalisation of the aggregated features, then the dense map. -/
def G (A : S100000x128.Idx → EReal) (b g be mu var : S1x128.Idx → EReal) (w : S128x128.Idx → EReal) : S100000x128.Idx → EReal :=
  Spec.arr2 (Spec.lin (Spec.bnRows (Spec.cur2 A) (Spec.row b) (Spec.row g) (Spec.row mu) (Spec.row var) (Spec.row be)) (Spec.cur2 w))

/-- One block against the whole: if the feature block x0 is rows R … R + 4999 of A (through an embedding e that keeps the
    column), the written block is the same rows of G. -/
theorem point (A : S100000x128.Idx → EReal) (b g be mu var : S1x128.Idx → EReal) (w : S128x128.Idx → EReal)
    (x0 : Vec Ideal S5000x128 .f32) (e : S5000x128.Idx → S100000x128.Idx)
    (h0 : ∀ y, x0 y = A (e y)) (he0 : ∀ y y' : S5000x128.Idx, (y 0).val = (y' 0).val → ((e y) 0).val = ((e y') 0).val)
    (he1 : ∀ y : S5000x128.Idx, ((e y) 1).val = (y 1).val) (j : S5000x128.Idx) :
    k1_pay1 (F := Ideal) x0 b g mu var be w j = G A b g be mu var w (e j) := by
  obtain ⟨p, q, rfl⟩ : ∃ (p : Fin 5000) (q : Fin 128), j = ix2 p q := ⟨j 0, j 1, eq_ix2 j⟩
  rw [pay_apply]
  show _ = ∑ i : Fin 128, Spec.bn (A (ix2 ((e (ix2 p q)) 0) i)) (b (ix2 (0 : Fin 1) i)) (g (ix2 (0 : Fin 1) i)) (mu (ix2 (0 : Fin 1) i))
      (var (ix2 (0 : Fin 1) i)) (be (ix2 (0 : Fin 1) i)) * w (ix2 i ((e (ix2 p q)) 1))
  refine Finset.sum_congr rfl fun i _ => ?_
  have e1 : e (ix2 p i) = ix2 ((e (ix2 p q)) 0) i := funext fun a => Fin.ext (by
    match a with
    | ⟨0, _⟩ => exact he0 (ix2 p i) (ix2 p q) rfl
    | ⟨1, _⟩ => exact he1 (ix2 p i))
  have e2 : (e (ix2 p q)) 1 = q := Fin.ext (he1 (ix2 p q))
  rw [h0, e1, e2]
  rfl

/-- The printed index maps over the grid: the feature window moves with the result window, row block t; the parameter
    windows stay at the origin. -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

/-- A parameter window's block is its whole array. -/
theorem blk_b (c : Dev nD) (t : Fin cfg1.N) : iblk1 V c 1 t = V c main_v60 := by
  obtain ⟨-, -, -, -, e0, e1, -⟩ := idx_facts t
  funext y
  show V c main_v60 (((cfg1.win 1).blk t).view.emb y) = V c main_v60 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega
theorem blk_g (c : Dev nD) (t : Fin cfg1.N) : iblk1 V c 2 t = V c main_v61 := by
  obtain ⟨-, -, -, -, -, -, e0, e1, -⟩ := idx_facts t
  funext y
  show V c main_v61 (((cfg1.win 2).blk t).view.emb y) = V c main_v61 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blk_be (c : Dev nD) (t : Fin cfg1.N) : iblk1 V c 3 t = V c main_v62 := by
  obtain ⟨-, -, -, -, -, -, -, -, e0, e1, -⟩ := idx_facts t
  funext y
  show V c main_v62 (((cfg1.win 3).blk t).view.emb y) = V c main_v62 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem blk_mu (c : Dev nD) (t : Fin cfg1.N) : iblk1 V c 4 t = V c main_v63 := by
  obtain ⟨-, -, -, -, -, -, -, -, -, -, e0, e1, -⟩ := idx_facts t
  funext y
  show V c main_v63 (((cfg1.win 4).blk t).view.emb y) = V c main_v63 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem blk_var (c : Dev nD) (t : Fin cfg1.N) : iblk1 V c 5 t = V c main_v64 := by
  obtain ⟨-, -, -, -, -, -, -, -, -, -, -, -, e0, e1, -⟩ := idx_facts t
  funext y
  show V c main_v64 (((cfg1.win 5).blk t).view.emb y) = V c main_v64 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega
theorem blk_w (c : Dev nD) (t : Fin cfg1.N) : iblk1 V c 6 t = V c main_v59 := by
  obtain ⟨-, -, -, -, -, -, -, -, -, -, -, -, -, -, e0, e1⟩ := idx_facts t
  funext y
  show V c main_v59 (((cfg1.win 6).blk t).view.emb y) = V c main_v59 y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- WHAT POINT t WRITES BACK is block t of G of the entry arrays. -/
theorem flushed_eq (c : Dev nD) (t : Fin cfg1.N) :
    (dat1 V c).flushed 7 t = ((cfg1.win 7).blk t).view.read (Elt Ideal)
      (G (V c main_v47) (V c main_v60) (V c main_v61) (V c main_v62) (V c main_v63) (V c main_v64) (V c main_v59)) := by
  show (cfg1.win 7).cut (grid1.coords t) ((dat1 V c).after 7 t) = _
  rw [after1_7]
  unfold out1_7
  rw [View.canon_unit_zero hz]
  simp only [View.ld_unit_zero (S := S5000x128) hz, View.ld_unit_zero (S := S1x128) hz, View.ld_unit_zero (S := S128x128) hz]
  rw [blk_b V c t, blk_g V c t, blk_be V c t, blk_mu V c t, blk_var V c t, blk_w V c t]
  obtain ⟨a0, a1, o0, o1, -⟩ := idx_facts t
  funext j
  refine point (V c main_v47) (V c main_v60) (V c main_v61) (V c main_v62) (V c main_v63) (V c main_v64) (V c main_v59) (iblk1 V c 0 t)
    (fun y => ((cfg1.win 7).blk t).view.emb y) (fun y => ?_) (fun y y' hy => ?_) (fun y => ?_) j
  · show V c main_v47 (((cfg1.win 0).blk t).view.emb y) = V c main_v47 (((cfg1.win 7).blk t).view.emb y)
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 128 + 1 * (y 1).val = win1_7.index t (1 : Fin 2) * 128 + 1 * (y 1).val; omega
  · show win1_7.index t (0 : Fin 2) * 5000 + 1 * (y 0).val = win1_7.index t (0 : Fin 2) * 5000 + 1 * (y' 0).val
    omega
  · show win1_7.index t (1 : Fin 2) * 128 + 1 * (y 1).val = (y 1).val
    omega

/-- An index of the array is in point t's block iff each coordinate is in the block's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v65).slice (win1_7.rect t)).set ↔ _
  rw [View.set_slice_whole, Rect.mem_set_unit]
  exact Iff.rfl

/-- The twenty row blocks cover the array: row r is in block r / 5000. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_7 _, ?_⟩
  rw [mem_blk]
  obtain ⟨-, -, o0, o1, -⟩ := idx_facts ⟨(i 0).val / 5000, by rw [hN]; omega⟩
  intro a
  match a with
  | ⟨0, _⟩ => show win1_7.index _ (0 : Fin 2) * 5000 ≤ (i 0).val ∧ (i 0).val < win1_7.index _ (0 : Fin 2) * 5000 + 5000; rw [o0]; show (i 0).val / 5000 * 5000 ≤ (i 0).val ∧ (i 0).val < (i 0).val / 5000 * 5000 + 5000; omega
  | ⟨1, _⟩ => show win1_7.index _ (1 : Fin 2) * 128 ≤ (i 1).val ∧ (i 1).val < win1_7.index _ (1 : Fin 2) * 128 + 128; rw [o1]; omega

/-- THE RESULT ARRAY after the region. -/
theorem value (c : Dev nD) : (dat1 V c).arrAt 7 cfg1.N
    = G (V c main_v47) (V c main_v60) (V c main_v61) (V c main_v62) (V c main_v63) (V c main_v64) (V c main_v59) :=
  (dat1 V c).arrAt_eq_of_cover 7 _ (fun t _ => flushed_eq V c t) cover

end Cert.KernelIdeal.Reg1

end
-- ==== Proof.Reg2.lean ====
/-
  Region 2 of the kernel program (bias, ReLU and batch normalisation of layer 1 fused with layer 2's dense map), as one function of the arrays the region finds.

  Grid point t fetches rows 5000·t … 5000·t + 4999 of the feature matrix and the whole of every parameter array, and writes
  back rows 5000·t … of the result: entry (p, q) of the written block is Σ_k bn(agg (5000·t + p, k)) · W (k, q).  The twenty blocks tile the
  100000 rows, so the result array after the region is that function of the entry arrays at EVERY index.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The block product's dimension numbers: rows × contraction, contraction × columns -/

abbrev DK := dot_S5000x128_S128x128_S5000x128_1_0_0_1_n_n

theorem DK_l0 (j : S5000x128.Idx) (q : DK.contr.Idx) : (DK.lhsIdx j q 0).val = (j 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (j : S5000x128.Idx) (q : DK.contr.Idx) : (DK.lhsIdx j q 1).val = (q ⟨0, by decide⟩).val :=
  DK.lhsIdx_val_of_single rfl j q
theorem DK_r0 (j : S5000x128.Idx) (q : DK.contr.Idx) : (DK.rhsIdx j q 0).val = (q ⟨0, by decide⟩).val :=
  DK.rhsIdx_val_of_single rfl j q
theorem DK_r1 (j : S5000x128.Idx) (q : DK.contr.Idx) : (DK.rhsIdx j q 1).val = (j 1).val := by
  unfold DotDims.rhsIdx
  rw [dif_neg (show ¬(1 : Fin S128x128.rank) ∈ DK.rhsBatch by decide), dif_pos (show (1 : Fin S128x128.rank) ∈ DK.rhsNonContracting by decide)]
  rfl

/-! ## The body's arithmetic at an entry -/

/-- Entry (p, q) of what the body stores: the normalised row p of the feature block against column q of the weights. -/
theorem pay_apply (x0 : Vec Ideal S5000x128 .f32) (b g mu var be : Vec Ideal S1x128 .f32) (w : Vec Ideal S128x128 .f32)
    (p : Fin 5000) (q : Fin 128) :
    k2_pay1 (F := Ideal) x0 b g mu var be w (ix2 p q)
      = ∑ i : Fin 128, Spec.bn (x0 (ix2 p i)) (b (ix2 (0 : Fin 1) i)) (g (ix2 (0 : Fin 1) i)) (mu (ix2 (0 : Fin 1) i))
          (var (ix2 (0 : Fin 1) i)) (be (ix2 (0 : Fin 1) i)) * w (ix2 i q) := by
  unfold k2_pay1
  simp only [shapeCast_self, matmul]
  refine (LibDot.matmul_zero_apply DK rfl rfl DK_l0 DK_l1 DK_r0 DK_r1 none _ _ p q).trans ?_
  refine Finset.sum_congr rfl fun i _ => ?_
  simp only [truncf_apply, addf_apply, mulf_apply, subf_apply, maximumf_apply, broadcast_apply, broadcastTo_1b_ab_apply]
  rfl

/-! ## From the blocks to the array -/

theorem hz : (![0, 0] : Fin 2 → Nat) = fun _ => 0 := funext fun a => by fin_cases a <;> rfl

/-- The result array as one function of the entry arrays: layer normalisation of the aggregated features, then the dense map. -/
def G (A : S100000x128.Idx → EReal) (b g be mu var : S1x128.Idx → EReal) (w : S128x128.Idx → EReal) : S100000x128.Idx → EReal :=
  Spec.arr2 (Spec.lin (Spec.bnRows (Spec.cur2 A) (Spec.row b) (Spec.row g) (Spec.row mu) (Spec.row var) (Spec.row be)) (Spec.cur2 w))

/-- One block against the whole: if the feature block x0 is rows R … R + 4999 of A (through an embedding e that keeps the
    column), the written block is the same rows of G. -/
theorem point (A : S100000x128.Idx → EReal) (b g be mu var : S1x128.Idx → EReal) (w : S128x128.Idx → EReal)
    (x0 : Vec Ideal S5000x128 .f32) (e : S5000x128.Idx → S100000x128.Idx)
    (h0 : ∀ y, x0 y = A (e y)) (he0 : ∀ y y' : S5000x128.Idx, (y 0).val = (y' 0).val → ((e y) 0).val = ((e y') 0).val)
    (he1 : ∀ y : S5000x128.Idx, ((e y) 1).val = (y 1).val) (j : S5000x128.Idx) :
    k2_pay1 (F := Ideal) x0 b g mu var be w j = G A b g be mu var w (e j) := by
  obtain ⟨p, q, rfl⟩ : ∃ (p : Fin 5000) (q : Fin 128), j = ix2 p q := ⟨j 0, j 1, eq_ix2 j⟩
  rw [pay_apply]
  show _ = ∑ i : Fin 128, Spec.bn (A (ix2 ((e (ix2 p q)) 0) i)) (b (ix2 (0 : Fin 1) i)) (g (ix2 (0 : Fin 1) i)) (mu (ix2 (0 : Fin 1) i))
      (var (ix2 (0 : Fin 1) i)) (be (ix2 (0 : Fin 1) i)) * w (ix2 i ((e (ix2 p q)) 1))
  refine Finset.sum_congr rfl fun i _ => ?_
  have e1 : e (ix2 p i) = ix2 ((e (ix2 p q)) 0) i := funext fun a => Fin.ext (by
    match a with
    | ⟨0, _⟩ => exact he0 (ix2 p i) (ix2 p q) rfl
    | ⟨1, _⟩ => exact he1 (ix2 p i))
  have e2 : (e (ix2 p q)) 1 = q := Fin.ext (he1 (ix2 p q))
  rw [h0, e1, e2]
  rfl

/-- The printed index maps over the grid: the feature window moves with the result window, row block t; the parameter
    windows stay at the origin. -/
theorem idx_facts : ∀ t : Fin cfg2.N, win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable (V : (c : Dev nD) → (b : Ref sig .tc) → Buf (Elt Ideal) ((c : Thread nD τ).loc b))

/-- A parameter window's block is its whole array. -/
theorem blk_b (c : Dev nD) (t : Fin cfg2.N) : iblk2 V c 1 t = V c main_v93 := by
  obtain ⟨-, -, -, -, e0, e1, -⟩ := idx_facts t
  funext y
  show V c main_v93 (((cfg2.win 1).blk t).view.emb y) = V c main_v93 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega
theorem blk_g (c : Dev nD) (t : Fin cfg2.N) : iblk2 V c 2 t = V c main_v94 := by
  obtain ⟨-, -, -, -, -, -, e0, e1, -⟩ := idx_facts t
  funext y
  show V c main_v94 (((cfg2.win 2).blk t).view.emb y) = V c main_v94 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem blk_be (c : Dev nD) (t : Fin cfg2.N) : iblk2 V c 3 t = V c main_v95 := by
  obtain ⟨-, -, -, -, -, -, -, -, e0, e1, -⟩ := idx_facts t
  funext y
  show V c main_v95 (((cfg2.win 3).blk t).view.emb y) = V c main_v95 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega
theorem blk_mu (c : Dev nD) (t : Fin cfg2.N) : iblk2 V c 4 t = V c main_v96 := by
  obtain ⟨-, -, -, -, -, -, -, -, -, -, e0, e1, -⟩ := idx_facts t
  funext y
  show V c main_v96 (((cfg2.win 4).blk t).view.emb y) = V c main_v96 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega
theorem blk_var (c : Dev nD) (t : Fin cfg2.N) : iblk2 V c 5 t = V c main_v97 := by
  obtain ⟨-, -, -, -, -, -, -, -, -, -, -, -, e0, e1, -⟩ := idx_facts t
  funext y
  show V c main_v97 (((cfg2.win 5).blk t).view.emb y) = V c main_v97 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega
theorem blk_w (c : Dev nD) (t : Fin cfg2.N) : iblk2 V c 6 t = V c main_v92 := by
  obtain ⟨-, -, -, -, -, -, -, -, -, -, -, -, -, -, e0, e1⟩ := idx_facts t
  funext y
  show V c main_v92 (((cfg2.win 6).blk t).view.emb y) = V c main_v92 y
  refine congrArg _ (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- WHAT POINT t WRITES BACK is block t of G of the entry arrays. -/
theorem flushed_eq (c : Dev nD) (t : Fin cfg2.N) :
    (dat2 V c).flushed 7 t = ((cfg2.win 7).blk t).view.read (Elt Ideal)
      (G (V c main_v80) (V c main_v93) (V c main_v94) (V c main_v95) (V c main_v96) (V c main_v97) (V c main_v92)) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz, View.ld_unit_zero (S := S128x128) hz]
  rw [blk_b V c t, blk_g V c t, blk_be V c t, blk_mu V c t, blk_var V c t, blk_w V c t]
  obtain ⟨a0, a1, o0, o1, -⟩ := idx_facts t
  funext j
  refine point (V c main_v80) (V c main_v93) (V c main_v94) (V c main_v95) (V c main_v96) (V c main_v97) (V c main_v92) (iblk2 V c 0 t)
    (fun y => ((cfg2.win 7).blk t).view.emb y) (fun y => ?_) (fun y y' hy => ?_) (fun y => ?_) j
  · show V c main_v80 (((cfg2.win 0).blk t).view.emb y) = V c main_v80 (((cfg2.win 7).blk t).view.emb y)
    refine congrArg _ (funext fun a => Fin.ext ?_)
    match a with
    | ⟨0, _⟩ => show win2_0.index t (0 : Fin 2) * 5000 + 1 * (y 0).val = win2_7.index t (0 : Fin 2) * 5000 + 1 * (y 0).val; omega
    | ⟨1, _⟩ => show win2_0.index t (1 : Fin 2) * 128 + 1 * (y 1).val = win2_7.index t (1 : Fin 2) * 128 + 1 * (y 1).val; omega
  · show win2_7.index t (0 : Fin 2) * 5000 + 1 * (y 0).val = win2_7.index t (0 : Fin 2) * 5000 + 1 * (y' 0).val
    omega
  · show win2_7.index t (1 : Fin 2) * 128 + 1 * (y 1).val = (y 1).val
    omega

/-- An index of the array is in point t's block iff each coordinate is in the block's range on its axis. -/
theorem mem_blk (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v98).slice (win2_7.rect t)).set ↔ _
  rw [View.set_slice_whole, Rect.mem_set_unit]
  exact Iff.rfl

/-- The twenty row blocks cover the array: row r is in block r / 5000. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_7 _, ?_⟩
  rw [mem_blk]
  obtain ⟨-, -, o0, o1, -⟩ := idx_facts ⟨(i 0).val / 5000, by rw [hN]; omega⟩
  intro a
  match a with
  | ⟨0, _⟩ => show win2_7.index _ (0 : Fin 2) * 5000 ≤ (i 0).val ∧ (i 0).val < win2_7.index _ (0 : Fin 2) * 5000 + 5000; rw [o0]; show (i 0).val / 5000 * 5000 ≤ (i 0).val ∧ (i 0).val < (i 0).val / 5000 * 5000 + 5000; omega
  | ⟨1, _⟩ => show win2_7.index _ (1 : Fin 2) * 128 ≤ (i 1).val ∧ (i 1).val < win2_7.index _ (1 : Fin 2) * 128 + 128; rw [o1]; omega

/-- THE RESULT ARRAY after the region. -/
theorem value (c : Dev nD) : (dat2 V c).arrAt 7 cfg2.N
    = G (V c main_v80) (V c main_v93) (V c main_v94) (V c main_v95) (V c main_v96) (V c main_v97) (V c main_v92) :=
  (dat2 V c).arrAt_eq_of_cover 7 _ (fun t _ => flushed_eq V c t) cover

end Cert.KernelIdeal.Reg2

end
-- ==== Proof.Reg3.lean ====
/-
  Region 3 of the kernel program (bias, ReLU and batch normalisation of layer 2 fused with layer 3's dense map), as one function of the arrays the region finds.

  Grid point t fetches rows 5000·t … 5000·t + 4999 of the feature matrix and the whole of every parameter array, and writes
  back rows 5000·t … of the result: entry (p, q) of the written block is Σ_k bn(agg (5000·t + p, k)) · W (k, q).  The twenty blocks tile the
  100000 rows, so the result array after the region is that function of the entry arrays at EVERY index.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The block product's dimension numbers: rows × contraction, contraction × columns -/

abbrev DK := dot_S5000x128_S128x128_S5000x128_1_0_0_1_n_n

theorem DK_l0 (j : S5000x128.Idx) (q : DK.contr.Idx) : (DK.lhsIdx j q 0).val = (j 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (j : S5000x128.Idx) (q : DK.contr.Idx) : (DK.lhsIdx j q 1).val = (q ⟨0, by decide⟩).val :=
  DK.lhsIdx_val_of_single rfl j q
theorem DK_r0 (j : S5000x128.Idx) (q : DK.contr.Idx) : (DK.rhsIdx j q 0).val = (q ⟨0, by decide⟩).val :=
  DK.rhsIdx_val_of_single rfl j q
theorem DK_r1 (j : S5000x128.Idx) (q : DK.contr.Idx) : (DK.rhsIdx j q 1).val = (j 1).val := by
  unfold DotDims.rhsIdx
  rw [dif_neg (show ¬(1 : Fin S128x128.rank) ∈ DK.rhsBatch by decide), dif_pos (show (1 : Fin S128x128.rank) ∈ DK.rhsNonContracting by decide)]
  rfl

/-! ## The body's arithmetic at an entry -/

/-- Entry (p, q) of what the body stores: the normalised row p of the feature block against column q of the weights. -/
theorem pay_apply (x0 : Vec Ideal S5000x128 .f32) (b g mu var be : Vec Ideal S1x128 .f32) (w : Vec Ideal S128x128 .f32)
    (p : Fin 5000) (q : Fin 128) :
    k3_pay1 (F := Ideal) x0 b g mu var be w (ix2 p q)
      = ∑ i : Fin 128, Spec.bn (x0 (ix2 p i)) (b (ix2 (0 : Fin 1) i)) (g (ix2 (0 : Fin 1) i)) (mu (ix2 (0 : Fin 1) i))
          (var (ix2 (0 : Fin 1) i)) (be (ix2 (0 : Fin 1) i)) * w (ix2 i q) := by
  unfold k3_pay1
  simp only [shapeCast_self, matmul]
  refine (LibDot.matmul_zero_apply DK rfl rfl DK_l0 DK_l1 DK_r0 DK_r1 none _ _ p q).trans ?_
  refine Finset.sum_congr rfl fun i _ => ?_
  simp only [truncf_apply, addf_apply, mulf_apply, subf_apply, maximumf_apply, broadcast_apply, broadcastTo_1b_ab_apply]
  rfl

/-! ## From the blocks to the array -/

theorem hz : (![0, 0] : Fin 2 → Nat) = fun _ => 0 := funext fun a => by fin_cases a <;> rfl

/-- The result array as one function of the entry arrays: layer normalisation of the aggregated features, then the dense map. -/
def G (A : S100000x128.Idx → EReal) (b g be mu var : S1x128.Idx → EReal) (w : S128x128.Idx → EReal) : S100000x128.Idx → EReal :=
  Spec.arr2 (Spec.lin (Spec.bnRows (Spec.cur2 A) (Spec.row b) (Spec.row g) (Spec.row mu) (Spec.row var) (Spec.row be)) (Spec.cur2 w))

/-- One block against the whole: if the feature block x0 is rows R … R + 4999 of A (through an embedding e that keeps the
    column), the written block is the same rows of G. -/
theorem point (A : S100000x128.Idx → EReal) (b g be mu var : S1x128.Idx → EReal) (w : S128x128.Idx → EReal)
    (x0 : Vec Ideal S5000x128 .f32) (e : S5000x128.Idx → S100000x128.Idx)
    (h0 : ∀ y, x0 y = A (e y)) (he0 : ∀ y y' : S5000x128.Idx, (y 0).val = (y' 0).val → ((e y) 0).val = ((e y') 0).val)
    (he1 : ∀ y : S5000x128.Idx, ((e y) 1).val = (y 1).val) (j : S5000x128.Idx) :
    k3_pay1 (F := Ideal) x0 b g mu var be w j = G A b g be mu var w (e j) := by
  obtain ⟨p, q, rfl⟩ : ∃ (p : Fin 5000) (q : Fin 128), j = ix2 p q := ⟨j 0, j 1, eq_ix2 j⟩
  rw [pay_apply]
  show _ = ∑ i : Fin 128, Spec.bn (A (ix2 ((e (ix2 p q)) 0) i)) (b (ix2 (0 : Fin 1) i)) (g (ix2 (0 : Fin 1) i)) (mu (ix2 (0 : Fin 1) i))
      (var (ix2 (0 : Fin 1) i)) (be (ix2 (0 : Fin 1) i)) * w (ix2 i ((e (ix2 p q)) 1))
  refine Finset.sum_congr rfl fun i _ => ?_
  have e1 : e (ix2 p i) = ix2 ((e (ix2 p q)) 0) i := funext fun a => Fin.ext (by
    match a with
    | ⟨0, _⟩ => exact he0 (ix2 p i) (ix2 p q) rfl
    | ⟨1, _⟩ => exact he1 (ix2 p i))
  have e2 : (e (ix2 p q)) 1 = q := Fin.ext (he1 (ix2 p q))
  rw [h0, e1, e2]
  rfl

/-- The printed index maps over the grid: the feature window moves with the result window, row block t; the parameter
    windows stay at the origin. -/
theorem idx_facts : ∀ t : Fin cfg3.N, win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

variable (V : (c : Dev nD) → (b : Ref sig .tc) → Buf (Elt Ideal) ((c : Thread nD τ).loc b))

/-- A parameter window's block is its whole array. -/
theorem blk_b (c : Dev nD) (t : Fin cfg3.N) : iblk3 V c 1 t = V c main_v126 := by
  obtain ⟨-, -, -, -, e0, e1, -⟩ := idx_facts t
  funext y
  show V c main_v126 (((cfg3.win 1).blk t).view.emb y) = V c main_v126 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega
theorem blk_g (c : Dev nD) (t : Fin cfg3.N) : iblk3 V c 2 t = V c main_v127 := by
  obtain ⟨-, -, -, -, -, -, e0, e1, -⟩ := idx_facts t
  funext y
  show V c main_v127 (((cfg3.win 2).blk t).view.emb y) = V c main_v127 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem blk_be (c : Dev nD) (t : Fin cfg3.N) : iblk3 V c 3 t = V c main_v128 := by
  obtain ⟨-, -, -, -, -, -, -, -, e0, e1, -⟩ := idx_facts t
  funext y
  show V c main_v128 (((cfg3.win 3).blk t).view.emb y) = V c main_v128 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem blk_mu (c : Dev nD) (t : Fin cfg3.N) : iblk3 V c 4 t = V c main_v129 := by
  obtain ⟨-, -, -, -, -, -, -, -, -, -, e0, e1, -⟩ := idx_facts t
  funext y
  show V c main_v129 (((cfg3.win 4).blk t).view.emb y) = V c main_v129 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega
theorem blk_var (c : Dev nD) (t : Fin cfg3.N) : iblk3 V c 5 t = V c main_v130 := by
  obtain ⟨-, -, -, -, -, -, -, -, -, -, -, -, e0, e1, -⟩ := idx_facts t
  funext y
  show V c main_v130 (((cfg3.win 5).blk t).view.emb y) = V c main_v130 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega
theorem blk_w (c : Dev nD) (t : Fin cfg3.N) : iblk3 V c 6 t = V c main_v125 := by
  obtain ⟨-, -, -, -, -, -, -, -, -, -, -, -, -, -, e0, e1⟩ := idx_facts t
  funext y
  show V c main_v125 (((cfg3.win 6).blk t).view.emb y) = V c main_v125 y
  refine congrArg _ (funext fun a => Fin.ext ?_)
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- WHAT POINT t WRITES BACK is block t of G of the entry arrays. -/
theorem flushed_eq (c : Dev nD) (t : Fin cfg3.N) :
    (dat3 V c).flushed 7 t = ((cfg3.win 7).blk t).view.read (Elt Ideal)
      (G (V c main_v113) (V c main_v126) (V c main_v127) (V c main_v128) (V c main_v129) (V c main_v130) (V c main_v125)) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz, View.ld_unit_zero (S := S128x128) hz]
  rw [blk_b V c t, blk_g V c t, blk_be V c t, blk_mu V c t, blk_var V c t, blk_w V c t]
  obtain ⟨a0, a1, o0, o1, -⟩ := idx_facts t
  funext j
  refine point (V c main_v113) (V c main_v126) (V c main_v127) (V c main_v128) (V c main_v129) (V c main_v130) (V c main_v125) (iblk3 V c 0 t)
    (fun y => ((cfg3.win 7).blk t).view.emb y) (fun y => ?_) (fun y y' hy => ?_) (fun y => ?_) j
  · show V c main_v113 (((cfg3.win 0).blk t).view.emb y) = V c main_v113 (((cfg3.win 7).blk t).view.emb y)
    refine congrArg _ (funext fun a => Fin.ext ?_)
    match a with
    | ⟨0, _⟩ => show win3_0.index t (0 : Fin 2) * 5000 + 1 * (y 0).val = win3_7.index t (0 : Fin 2) * 5000 + 1 * (y 0).val; omega
    | ⟨1, _⟩ => show win3_0.index t (1 : Fin 2) * 128 + 1 * (y 1).val = win3_7.index t (1 : Fin 2) * 128 + 1 * (y 1).val; omega
  · show win3_7.index t (0 : Fin 2) * 5000 + 1 * (y 0).val = win3_7.index t (0 : Fin 2) * 5000 + 1 * (y' 0).val
    omega
  · show win3_7.index t (1 : Fin 2) * 128 + 1 * (y 1).val = (y 1).val
    omega

/-- An index of the array is in point t's block iff each coordinate is in the block's range on its axis. -/
theorem mem_blk (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v131).slice (win3_7.rect t)).set ↔ _
  rw [View.set_slice_whole, Rect.mem_set_unit]
  exact Iff.rfl

/-- The twenty row blocks cover the array: row r is in block r / 5000. -/
theorem cover (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_7 _, ?_⟩
  rw [mem_blk]
  obtain ⟨-, -, o0, o1, -⟩ := idx_facts ⟨(i 0).val / 5000, by rw [hN]; omega⟩
  intro a
  match a with
  | ⟨0, _⟩ => show win3_7.index _ (0 : Fin 2) * 5000 ≤ (i 0).val ∧ (i 0).val < win3_7.index _ (0 : Fin 2) * 5000 + 5000; rw [o0]; show (i 0).val / 5000 * 5000 ≤ (i 0).val ∧ (i 0).val < (i 0).val / 5000 * 5000 + 5000; omega
  | ⟨1, _⟩ => show win3_7.index _ (1 : Fin 2) * 128 ≤ (i 1).val ∧ (i 1).val < win3_7.index _ (1 : Fin 2) * 128 + 128; rw [o1]; omega

/-- THE RESULT ARRAY after the region. -/
theorem value (c : Dev nD) : (dat3 V c).arrAt 7 cfg3.N
    = G (V c main_v113) (V c main_v126) (V c main_v127) (V c main_v128) (V c main_v129) (V c main_v130) (V c main_v125) :=
  (dat3 V c).arrAt_eq_of_cover 7 _ (fun t _ => flushed_eq V c t) cover

end Cert.KernelIdeal.Reg3

end
-- ==== Proof.Reg4.lean ====
/-
  Region 4 of the kernel program (bias, ReLU and batch normalisation of the last layer), as one function of the arrays the region finds.

  Grid point t fetches rows 5000·t … 5000·t + 4999 of the feature matrix and the whole of every parameter array, and writes
  back rows 5000·t … of the result: entry (p, q) of the written block is bn(agg (5000·t + p, q)).  The twenty blocks tile the
  100000 rows, so the result array after the region is that function of the entry arrays at EVERY index.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg4

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The body's arithmetic at an entry -/

/-- Entry (p, q) of what the body stores: the normalised entry (p, q) of the feature block. -/
theorem pay_apply (x0 : Vec Ideal S5000x128 .f32) (b g mu var be : Vec Ideal S1x128 .f32) (p : Fin 5000) (q : Fin 128) :
    k4_pay1 (F := Ideal) x0 b g mu var be (ix2 p q)
      = Spec.bn (x0 (ix2 p q)) (b (ix2 (0 : Fin 1) q)) (g (ix2 (0 : Fin 1) q)) (mu (ix2 (0 : Fin 1) q))
          (var (ix2 (0 : Fin 1) q)) (be (ix2 (0 : Fin 1) q)) := by
  unfold k4_pay1
  simp only [shapeCast_self]
  simp only [addf_apply, mulf_apply, subf_apply, maximumf_apply, broadcast_apply, broadcastTo_1b_ab_apply]
  rfl

/-! ## From the blocks to the array -/

theorem hz : (![0, 0] : Fin 2 → Nat) = fun _ => 0 := funext fun a => by fin_cases a <;> rfl

/-- The result array as one function of the entry arrays: the layer's normalisation, entry by entry. -/
def G (A : S100000x128.Idx → EReal) (b g be mu var : S1x128.Idx → EReal) : S100000x128.Idx → EReal :=
  Spec.arr2 (Spec.bnRows (Spec.cur2 A) (Spec.row b) (Spec.row g) (Spec.row mu) (Spec.row var) (Spec.row be))

/-- One block against the whole: if the feature block x0 is rows R … R + 4999 of A (through an embedding e that keeps the
    column), the written block is the same rows of G. -/
theorem point (A : S100000x128.Idx → EReal) (b g be mu var : S1x128.Idx → EReal)
    (x0 : Vec Ideal S5000x128 .f32) (e : S5000x128.Idx → S100000x128.Idx)
    (h0 : ∀ y, x0 y = A (e y)) (he0 : ∀ y y' : S5000x128.Idx, (y 0).val = (y' 0).val → ((e y) 0).val = ((e y') 0).val)
    (he1 : ∀ y : S5000x128.Idx, ((e y) 1).val = (y 1).val) (j : S5000x128.Idx) :
    k4_pay1 (F := Ideal) x0 b g mu var be j = G A b g be mu var (e j) := by
  obtain ⟨p, q, rfl⟩ : ∃ (p : Fin 5000) (q : Fin 128), j = ix2 p q := ⟨j 0, j 1, eq_ix2 j⟩
  rw [pay_apply, h0]
  have e2 : (e (ix2 p q)) 1 = q := Fin.ext (he1 (ix2 p q))
  generalize e (ix2 p q) = i at e2 ⊢
  obtain ⟨r, s, rfl⟩ : ∃ (r : Fin 100000) (s : Fin 128), i = ix2 r s := ⟨i 0, i 1, eq_ix2 i⟩
  have hs : s = q := e2
  subst hs
  rfl

/-- The printed index maps over the grid: the feature window moves with the result window, row block t; the parameter
    windows stay at the origin. -/
theorem idx_facts : ∀ t : Fin cfg4.N, win4_0.index t (0 : Fin 2) = t.val
    ∧ win4_0.index t (1 : Fin 2) = 0
    ∧ win4_6.index t (0 : Fin 2) = t.val
    ∧ win4_6.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, _)

variable (V : (c : Dev nD) → (b : Ref sig .tc) → Buf (Elt Ideal) ((c : Thread nD τ).loc b))

/-- A parameter window's block is its whole array. -/
theorem blk_b (c : Dev nD) (t : Fin cfg4.N) : iblk4 V c 1 t = V c main_v157 := by
  obtain ⟨-, -, -, -, e0, e1, -⟩ := idx_facts t
  funext y
  show V c main_v157 (((cfg4.win 1).blk t).view.emb y) = V c main_v157 y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega
theorem blk_g (c : Dev nD) (t : Fin cfg4.N) : iblk4 V c 2 t = V c main_v158 := by
  obtain ⟨-, -, -, -, -, -, e0, e1, -⟩ := idx_facts t
  funext y
  show V c main_v158 (((cfg4.win 2).blk t).view.emb y) = V c main_v158 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega
theorem blk_be (c : Dev nD) (t : Fin cfg4.N) : iblk4 V c 3 t = V c main_v159 := by
  obtain ⟨-, -, -, -, -, -, -, -, e0, e1, -⟩ := idx_facts t
  funext y
  show V c main_v159 (((cfg4.win 3).blk t).view.emb y) = V c main_v159 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega
theorem blk_mu (c : Dev nD) (t : Fin cfg4.N) : iblk4 V c 4 t = V c main_v160 := by
  obtain ⟨-, -, -, -, -, -, -, -, -, -, e0, e1, -⟩ := idx_facts t
  funext y
  show V c main_v160 (((cfg4.win 4).blk t).view.emb y) = V c main_v160 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega
theorem blk_var (c : Dev nD) (t : Fin cfg4.N) : iblk4 V c 5 t = V c main_v161 := by
  obtain ⟨-, -, -, -, -, -, -, -, -, -, -, -, e0, e1⟩ := idx_facts t
  funext y
  show V c main_v161 (((cfg4.win 5).blk t).view.emb y) = V c main_v161 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- WHAT POINT t WRITES BACK is block t of G of the entry arrays. -/
theorem flushed_eq (c : Dev nD) (t : Fin cfg4.N) :
    (dat4 V c).flushed 6 t = ((cfg4.win 6).blk t).view.read (Elt Ideal)
      (G (V c main_v146) (V c main_v157) (V c main_v158) (V c main_v159) (V c main_v160) (V c main_v161)) := by
  show (cfg4.win 6).cut (grid4.coords t) ((dat4 V c).after 6 t) = _
  rw [after4_6]
  unfold out4_6
  rw [View.canon_unit_zero hz]
  simp only [View.ld_unit_zero (S := S5000x128) hz, View.ld_unit_zero (S := S1x128) hz]
  rw [blk_b V c t, blk_g V c t, blk_be V c t, blk_mu V c t, blk_var V c t]
  obtain ⟨a0, a1, o0, o1, -⟩ := idx_facts t
  funext j
  refine point (V c main_v146) (V c main_v157) (V c main_v158) (V c main_v159) (V c main_v160) (V c main_v161) (iblk4 V c 0 t)
    (fun y => ((cfg4.win 6).blk t).view.emb y) (fun y => ?_) (fun y y' hy => ?_) (fun y => ?_) j
  · show V c main_v146 (((cfg4.win 0).blk t).view.emb y) = V c main_v146 (((cfg4.win 6).blk t).view.emb y)
    refine congrArg _ (funext fun a => Fin.ext ?_)
    match a with
    | ⟨0, _⟩ => show win4_0.index t (0 : Fin 2) * 5000 + 1 * (y 0).val = win4_6.index t (0 : Fin 2) * 5000 + 1 * (y 0).val; omega
    | ⟨1, _⟩ => show win4_0.index t (1 : Fin 2) * 128 + 1 * (y 1).val = win4_6.index t (1 : Fin 2) * 128 + 1 * (y 1).val; omega
  · show win4_6.index t (0 : Fin 2) * 5000 + 1 * (y 0).val = win4_6.index t (0 : Fin 2) * 5000 + 1 * (y' 0).val
    omega
  · show win4_6.index t (1 : Fin 2) * 128 + 1 * (y 1).val = (y 1).val
    omega

/-- An index of the array is in point t's block iff each coordinate is in the block's range on its axis. -/
theorem mem_blk (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v162).slice (win4_6.rect t)).set ↔ _
  rw [View.set_slice_whole, Rect.mem_set_unit]
  exact Iff.rfl

/-- The twenty row blocks cover the array: row r is in block r / 5000. -/
theorem cover (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_6 _, ?_⟩
  rw [mem_blk]
  obtain ⟨-, -, o0, o1, -⟩ := idx_facts ⟨(i 0).val / 5000, by rw [hN]; omega⟩
  intro a
  match a with
  | ⟨0, _⟩ => show win4_6.index _ (0 : Fin 2) * 5000 ≤ (i 0).val ∧ (i 0).val < win4_6.index _ (0 : Fin 2) * 5000 + 5000; rw [o0]; show (i 0).val / 5000 * 5000 ≤ (i 0).val ∧ (i 0).val < (i 0).val / 5000 * 5000 + 5000; omega
  | ⟨1, _⟩ => show win4_6.index _ (1 : Fin 2) * 128 ≤ (i 1).val ∧ (i 1).val < win4_6.index _ (1 : Fin 2) * 128 + 128; rw [o1]; omega

/-- THE RESULT ARRAY after the region. -/
theorem value (c : Dev nD) : (dat4 V c).arrAt 6 cfg4.N
    = G (V c main_v146) (V c main_v157) (V c main_v158) (V c main_v159) (V c main_v160) (V c main_v161) :=
  (dat4 V c).arrAt_eq_of_cover 6 _ (fun t _ => flushed_eq V c t) cover

end Cert.KernelIdeal.Reg4

end
-- ==== Proof.Reg5.lean ====
/-
  Region 5 of the kernel program (the two-layer head on the pooled features), as one function of the arrays the region finds.

  The grid is one point: every window is its whole array, and the one written block is the whole result.
-/
import proofs.«100997_j79285096284187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«100997_j79285096284187_1_alg».proof.Proof.Spec
import proofs.«100997_j79285096284187_1_alg».proof.Proof.LibDot

noncomputable section

namespace Cert.KernelIdeal.Reg5

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The two products' dimension numbers -/

abbrev D1 := dot_S4096x128_S128x128_S4096x128_1_0_0_1_n_n
abbrev D2 := dot_S4096x128_S128x1_S4096x1_1_0_0_1_n_n

theorem D1_l0 (j : S4096x128.Idx) (q : D1.contr.Idx) : (D1.lhsIdx j q 0).val = (j 0).val := by
  unfold DotDims.lhsIdx
  rw [dif_neg (show ¬(0 : Fin S4096x128.rank) ∈ D1.lhsBatch by decide), dif_pos (show (0 : Fin S4096x128.rank) ∈ D1.lhsNonContracting by decide)]
  rfl
theorem D1_l1 (j : S4096x128.Idx) (q : D1.contr.Idx) : (D1.lhsIdx j q 1).val = (q ⟨0, by decide⟩).val :=
  D1.lhsIdx_val_of_single rfl j q
theorem D1_r0 (j : S4096x128.Idx) (q : D1.contr.Idx) : (D1.rhsIdx j q 0).val = (q ⟨0, by decide⟩).val :=
  D1.rhsIdx_val_of_single rfl j q
theorem D1_r1 (j : S4096x128.Idx) (q : D1.contr.Idx) : (D1.rhsIdx j q 1).val = (j 1).val := by
  unfold DotDims.rhsIdx
  rw [dif_neg (show ¬(1 : Fin S128x128.rank) ∈ D1.rhsBatch by decide), dif_pos (show (1 : Fin S128x128.rank) ∈ D1.rhsNonContracting by decide)]
  rfl
theorem D2_l0 (j : S4096x1.Idx) (q : D2.contr.Idx) : (D2.lhsIdx j q 0).val = (j 0).val := by
  unfold DotDims.lhsIdx
  rw [dif_neg (show ¬(0 : Fin S4096x128.rank) ∈ D2.lhsBatch by decide), dif_pos (show (0 : Fin S4096x128.rank) ∈ D2.lhsNonContracting by decide)]
  rfl
theorem D2_l1 (j : S4096x1.Idx) (q : D2.contr.Idx) : (D2.lhsIdx j q 1).val = (q ⟨0, by decide⟩).val :=
  D2.lhsIdx_val_of_single rfl j q
theorem D2_r0 (j : S4096x1.Idx) (q : D2.contr.Idx) : (D2.rhsIdx j q 0).val = (q ⟨0, by decide⟩).val :=
  D2.rhsIdx_val_of_single rfl j q
theorem D2_r1 (j : S4096x1.Idx) (q : D2.contr.Idx) : (D2.rhsIdx j q 1).val = (j 1).val := by
  unfold DotDims.rhsIdx
  rw [dif_neg (show ¬(1 : Fin S128x1.rank) ∈ D2.rhsBatch by decide), dif_pos (show (1 : Fin S128x1.rank) ∈ D2.rhsNonContracting by decide)]
  rfl

/-! ## The body's arithmetic at an entry -/

/-- Entry g of what the body stores: the hidden layer's row g, floored at zero, against the output weights, plus the bias. -/
theorem pay_apply (P : Vec Ideal S4096x128 .f32) (w1 : Vec Ideal S128x128 .f32) (b1 : Vec Ideal S1x128 .f32)
    (w2 : Vec Ideal S128x1 .f32) (b2 : Vec Ideal S1x1 .f32) (g : Fin 4096) :
    k5_pay1 (F := Ideal) P w1 b1 w2 b2 (ix2 g (0 : Fin 1))
      = (∑ k : Fin 128, max ((∑ l : Fin 128, P (ix2 g l) * w1 (ix2 l k)) + b1 (ix2 (0 : Fin 1) k)) Spec.z0 * w2 (ix2 k (0 : Fin 1)))
          + b2 (ix2 (0 : Fin 1) (0 : Fin 1)) := by
  unfold k5_pay1
  simp only [shapeCast_self, matmul]
  refine congrArg₂ (· + ·) ?_ (broadcastTo_1b_ab_apply b2 _ g (0 : Fin 1))
  refine (LibDot.matmul_zero_apply D2 rfl rfl D2_l0 D2_l1 D2_r0 D2_r1 none _ _ g (0 : Fin 1)).trans ?_
  refine Finset.sum_congr rfl fun k _ => ?_
  simp only [truncf_apply, maximumf_apply, addf_apply, broadcast_apply, broadcastTo_1b_ab_apply,
    LibDot.matmul_zero_apply D1 rfl rfl D1_l0 D1_l1 D1_r0 D1_r1]
  rfl

/-! ## From the one block to the array -/

theorem hz : (![0, 0] : Fin 2 → Nat) = fun _ => 0 := funext fun a => by fin_cases a <;> rfl

/-- The result array as one function of the entry arrays. -/
def G (P : S4096x128.Idx → EReal) (w1 : S128x128.Idx → EReal) (b1 : S1x128.Idx → EReal) (w2 : S128x1.Idx → EReal)
    (b2 : S1x1.Idx → EReal) : S4096x1.Idx → EReal :=
  Spec.arrCol (Spec.head (Spec.cur2 P) (Spec.cur2 w1) (Spec.row b1) (Spec.col w2) (b2 (ix2 (0 : Fin 1) (0 : Fin 1))))

theorem pay_eq_G (P : Vec Ideal S4096x128 .f32) (w1 : Vec Ideal S128x128 .f32) (b1 : Vec Ideal S1x128 .f32)
    (w2 : Vec Ideal S128x1 .f32) (b2 : Vec Ideal S1x1 .f32) : k5_pay1 (F := Ideal) P w1 b1 w2 b2 = G P w1 b1 w2 b2 := by
  funext j
  obtain ⟨g, z, rfl⟩ : ∃ (g : Fin 4096) (z : Fin 1), j = ix2 g z := ⟨j 0, j 1, eq_ix2 j⟩
  obtain rfl : z = 0 := Subsingleton.elim _ _
  rw [pay_apply]
  rfl

/-- The printed index maps at the one point: every window at the origin. -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

/-- Each window's block is its whole array. -/
theorem blk_p (c : Dev nD) (t : Fin cfg5.N) : iblk5 V c 0 t = V c main_v174 := by
  obtain ⟨e0, e1, -⟩ := idx_facts t
  funext y
  show V c main_v174 (((cfg5.win 0).blk t).view.emb y) = V c main_v174 y
  refine congrArg _ (funext fun a => Fin.ext ?_)
  match a with
  | ⟨0, _⟩ => show win5_0.index t (0 : Fin 2) * 4096 + 1 * (y 0).val = (y 0).val; omega
  | ⟨1, _⟩ => show win5_0.index t (1 : Fin 2) * 128 + 1 * (y 1).val = (y 1).val; omega
theorem blk_w1 (c : Dev nD) (t : Fin cfg5.N) : iblk5 V c 1 t = V c main_arg9 := by
  obtain ⟨-, -, e0, e1, -⟩ := idx_facts t
  funext y
  show V c main_arg9 (((cfg5.win 1).blk t).view.emb y) = V c main_arg9 y
  refine congrArg _ (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega
theorem blk_b1 (c : Dev nD) (t : Fin cfg5.N) : iblk5 V c 2 t = V c main_v175 := by
  obtain ⟨-, -, -, -, e0, e1, -⟩ := idx_facts t
  funext y
  show V c main_v175 (((cfg5.win 2).blk t).view.emb y) = V c main_v175 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega
theorem blk_w2 (c : Dev nD) (t : Fin cfg5.N) : iblk5 V c 3 t = V c main_arg11 := by
  obtain ⟨-, -, -, -, -, -, e0, e1, -⟩ := idx_facts t
  funext y
  show V c main_arg11 (((cfg5.win 3).blk t).view.emb y) = V c main_arg11 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 1 + 1 * (y 1).val = (y 1).val; omega
theorem blk_b2 (c : Dev nD) (t : Fin cfg5.N) : iblk5 V c 4 t = V c main_v176 := by
  obtain ⟨-, -, -, -, -, -, -, -, e0, e1, -⟩ := idx_facts t
  funext y
  show V c main_v176 (((cfg5.win 4).blk t).view.emb y) = V c main_v176 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 1 + 1 * (y 1).val = (y 1).val; omega

/-- WHAT THE POINT WRITES BACK is the whole of G of the entry arrays. -/
theorem flushed_eq (c : Dev nD) (t : Fin cfg5.N) :
    (dat5 V c).flushed 5 t = ((cfg5.win 5).blk t).view.read (Elt Ideal)
      (G (V c main_v174) (V c main_arg9) (V c main_v175) (V c main_arg11) (V c main_v176)) := by
  show (cfg5.win 5).cut (grid5.coords t) ((dat5 V c).after 5 t) = _
  rw [after5_5]
  unfold out5_5
  rw [View.canon_unit_zero hz]
  simp only [View.ld_unit_zero (S := S4096x128) hz, View.ld_unit_zero (S := S128x128) hz, View.ld_unit_zero (S := S1x128) hz,
    View.ld_unit_zero (S := S128x1) hz, View.ld_unit_zero (S := S1x1) hz]
  rw [blk_p V c t, blk_w1 V c t, blk_b1 V c t, blk_w2 V c t, blk_b2 V c t, pay_eq_G]
  obtain ⟨-, -, -, -, -, -, -, -, -, -, o0, o1⟩ := idx_facts t
  funext j
  show G (V c main_v174) (V c main_arg9) (V c main_v175) (V c main_arg11) (V c main_v176) j
    = G (V c main_v174) (V c main_arg9) (V c main_v175) (V c main_arg11) (V c main_v176) (((cfg5.win 5).blk t).view.emb j)
  refine congrArg _ (funext fun a => Fin.ext ?_)
  match a with
  | ⟨0, _⟩ => show (j 0).val = win5_5.index t (0 : Fin 2) * 4096 + 1 * (j 0).val; omega
  | ⟨1, _⟩ => show (j 1).val = win5_5.index t (1 : Fin 2) * 1 + 1 * (j 1).val; omega

theorem mem_blk (t : Fin cfg5.N) (i : S4096x1.Idx) :
    i ∈ ((cfg5.win 5).blk t).view.set ↔ ∀ a : Fin 2, win5_5.index t a * S4096x1.size a ≤ (i a).val ∧ (i a).val < win5_5.index t a * S4096x1.size a + S4096x1.size a := by
  show i ∈ ((View.whole main_v177).slice (win5_5.rect t)).set ↔ _
  rw [View.set_slice_whole, Rect.mem_set_unit]
  exact Iff.rfl

/-- The one block is the whole array. -/
theorem cover (i : S4096x1.Idx) : ∃ t : Fin cfg5.N, (cfg5.win 5).flush t = true ∧ i ∈ ((cfg5.win 5).blk t).view.set := by
  have hi0 : (i 0).val < 4096 := (i 0).isLt
  have hi1 : (i 1).val < 1 := (i 1).isLt
  have hN : cfg5.N = 1 := N_5
  refine ⟨⟨0, by rw [hN]; omega⟩, flush5_5 _, ?_⟩
  rw [mem_blk]
  obtain ⟨-, -, -, -, -, -, -, -, -, -, o0, o1⟩ := idx_facts ⟨0, by rw [hN]; omega⟩
  intro a
  match a with
  | ⟨0, _⟩ => show win5_5.index _ (0 : Fin 2) * 4096 ≤ (i 0).val ∧ (i 0).val < win5_5.index _ (0 : Fin 2) * 4096 + 4096; rw [o0]; omega
  | ⟨1, _⟩ => show win5_5.index _ (1 : Fin 2) * 1 ≤ (i 1).val ∧ (i 1).val < win5_5.index _ (1 : Fin 2) * 1 + 1; rw [o1]; omega

/-- THE RESULT ARRAY after the region. -/
theorem value (c : Dev nD) : (dat5 V c).arrAt 5 cfg5.N
    = G (V c main_v174) (V c main_arg9) (V c main_v175) (V c main_arg11) (V c main_v176) :=
  (dat5 V c).arrAt_eq_of_cover 5 _ (fun t _ => flushed_eq V c t) cover

end Cert.KernelIdeal.Reg5

end
-- ==== Proof.KValue.lean ====
/-
  The idealized kernel program's result as the reference's last stage of the same arguments.

  The contents of the buffers at each boundary of the program are followed from the launch memory: a stretch of host operations
  is read operation by operation (the aggregation and the pooling are the reference's own, term for term; the parameter rows
  and weight slabs are reads of the argument tables at a row), a kernel region leaves its result array at one function of its
  entry arrays (the dense map after a layer's normalisation), which is the reference's dot of its normalised features.  Buffers a
  stretch or a region does not write keep their contents, so the index vectors, the two normalisations and the argument tables
  reach every later boundary as launched.
-/
import proofs.«100997_j79285096284187_1_alg».proof.Proof.Gen.KernelIdeal.Frame
import proofs.«100997_j79285096284187_1_alg».proof.Proof.RefRead
import proofs.«100997_j79285096284187_1_alg».proof.Proof.RefLayers
import proofs.«100997_j79285096284187_1_alg».proof.Proof.KParamsA
import proofs.«100997_j79285096284187_1_alg».proof.Proof.KParamsB
import proofs.«100997_j79285096284187_1_alg».proof.Proof.KParamsC
import proofs.«100997_j79285096284187_1_alg».proof.Proof.KAgg0
import proofs.«100997_j79285096284187_1_alg».proof.Proof.KAgg1
import proofs.«100997_j79285096284187_1_alg».proof.Proof.KAgg2
import proofs.«100997_j79285096284187_1_alg».proof.Proof.KAgg3
import proofs.«100997_j79285096284187_1_alg».proof.Proof.KAgg4
import proofs.«100997_j79285096284187_1_alg».proof.Proof.KPool
import proofs.«100997_j79285096284187_1_alg».proof.Proof.Reg0
import proofs.«100997_j79285096284187_1_alg».proof.Proof.Reg1
import proofs.«100997_j79285096284187_1_alg».proof.Proof.Reg2
import proofs.«100997_j79285096284187_1_alg».proof.Proof.Reg3
import proofs.«100997_j79285096284187_1_alg».proof.Proof.Reg4
import proofs.«100997_j79285096284187_1_alg».proof.Proof.Reg5

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Cert.ReferenceIdeal.ReadP Idealize.ShloMosaic.ValueIdx

variable (m : (ℓ : Loc nD τ sig) → Buf (Elt Ideal) ℓ) (ρ : Dev nD → PrngReg) (c : Dev nD)

/-! ## The launch memory's argument arrays -/

abbrev x0 := m ((c : Thread nD τ).loc Cert.KernelIdeal.main_arg0)
abbrev x1 := m ((c : Thread nD τ).loc Cert.KernelIdeal.main_arg1)
abbrev x2 := m ((c : Thread nD τ).loc Cert.KernelIdeal.main_arg2)
abbrev x3 := m ((c : Thread nD τ).loc Cert.KernelIdeal.main_arg3)
abbrev x4 := m ((c : Thread nD τ).loc Cert.KernelIdeal.main_arg4)
abbrev x5 := m ((c : Thread nD τ).loc Cert.KernelIdeal.main_arg5)
abbrev x6 := m ((c : Thread nD τ).loc Cert.KernelIdeal.main_arg6)
abbrev x7 := m ((c : Thread nD τ).loc Cert.KernelIdeal.main_arg7)
abbrev x8 := m ((c : Thread nD τ).loc Cert.KernelIdeal.main_arg8)
abbrev x9 := m ((c : Thread nD τ).loc Cert.KernelIdeal.main_arg9)
abbrev x10 := m ((c : Thread nD τ).loc Cert.KernelIdeal.main_arg10)
abbrev x11 := m ((c : Thread nD τ).loc Cert.KernelIdeal.main_arg11)
abbrev x12 := m ((c : Thread nD τ).loc Cert.KernelIdeal.main_arg12)

/-! ## What every boundary inherits: the argument tables, the index vectors and the two normalisations -/

theorem at0_arg2 : W0 m ρ c (Proc.devRef .tc main_arg2) = x2 m c := rfl
theorem at1_arg2 : W1 m ρ c (Proc.devRef .tc main_arg2) = x2 m c :=
  (KParams.keep0_arg2 (W0 m ρ c)).trans (at0_arg2 m ρ c)
theorem at2_arg2 : W2 m ρ c (Proc.devRef .tc main_arg2) = x2 m c :=
  (W2_of_ne m ρ c main_arg2 (by decide)).trans (at1_arg2 m ρ c)
theorem at3_arg2 : W3 m ρ c (Proc.devRef .tc main_arg2) = x2 m c :=
  (KParams.keep1_arg2 (W2 m ρ c)).trans (at2_arg2 m ρ c)
theorem at4_arg2 : W4 m ρ c (Proc.devRef .tc main_arg2) = x2 m c :=
  (W4_of_ne m ρ c main_arg2 (by decide)).trans (at3_arg2 m ρ c)
theorem at5_arg2 : W5 m ρ c (Proc.devRef .tc main_arg2) = x2 m c :=
  (KParams.keep2_arg2 (W4 m ρ c)).trans (at4_arg2 m ρ c)
theorem at6_arg2 : W6 m ρ c (Proc.devRef .tc main_arg2) = x2 m c :=
  (W6_of_ne m ρ c main_arg2 (by decide)).trans (at5_arg2 m ρ c)
theorem at7_arg2 : W7 m ρ c (Proc.devRef .tc main_arg2) = x2 m c :=
  (KParams.keep3_arg2 (W6 m ρ c)).trans (at6_arg2 m ρ c)
theorem at8_arg2 : W8 m ρ c (Proc.devRef .tc main_arg2) = x2 m c :=
  (W8_of_ne m ρ c main_arg2 (by decide)).trans (at7_arg2 m ρ c)
theorem at9_arg2 : W9 m ρ c (Proc.devRef .tc main_arg2) = x2 m c :=
  (KParams.keep4_arg2 (W8 m ρ c)).trans (at8_arg2 m ρ c)
theorem at10_arg2 : W10 m ρ c (Proc.devRef .tc main_arg2) = x2 m c :=
  (W10_of_ne m ρ c main_arg2 (by decide)).trans (at9_arg2 m ρ c)
theorem at0_arg3 : W0 m ρ c (Proc.devRef .tc main_arg3) = x3 m c := rfl
theorem at1_arg3 : W1 m ρ c (Proc.devRef .tc main_arg3) = x3 m c :=
  (KParams.keep0_arg3 (W0 m ρ c)).trans (at0_arg3 m ρ c)
theorem at2_arg3 : W2 m ρ c (Proc.devRef .tc main_arg3) = x3 m c :=
  (W2_of_ne m ρ c main_arg3 (by decide)).trans (at1_arg3 m ρ c)
theorem at3_arg3 : W3 m ρ c (Proc.devRef .tc main_arg3) = x3 m c :=
  (KParams.keep1_arg3 (W2 m ρ c)).trans (at2_arg3 m ρ c)
theorem at4_arg3 : W4 m ρ c (Proc.devRef .tc main_arg3) = x3 m c :=
  (W4_of_ne m ρ c main_arg3 (by decide)).trans (at3_arg3 m ρ c)
theorem at5_arg3 : W5 m ρ c (Proc.devRef .tc main_arg3) = x3 m c :=
  (KParams.keep2_arg3 (W4 m ρ c)).trans (at4_arg3 m ρ c)
theorem at6_arg3 : W6 m ρ c (Proc.devRef .tc main_arg3) = x3 m c :=
  (W6_of_ne m ρ c main_arg3 (by decide)).trans (at5_arg3 m ρ c)
theorem at0_arg4 : W0 m ρ c (Proc.devRef .tc main_arg4) = x4 m c := rfl
theorem at1_arg4 : W1 m ρ c (Proc.devRef .tc main_arg4) = x4 m c :=
  (KParams.keep0_arg4 (W0 m ρ c)).trans (at0_arg4 m ρ c)
theorem at2_arg4 : W2 m ρ c (Proc.devRef .tc main_arg4) = x4 m c :=
  (W2_of_ne m ρ c main_arg4 (by decide)).trans (at1_arg4 m ρ c)
theorem at3_arg4 : W3 m ρ c (Proc.devRef .tc main_arg4) = x4 m c :=
  (KParams.keep1_arg4 (W2 m ρ c)).trans (at2_arg4 m ρ c)
theorem at4_arg4 : W4 m ρ c (Proc.devRef .tc main_arg4) = x4 m c :=
  (W4_of_ne m ρ c main_arg4 (by decide)).trans (at3_arg4 m ρ c)
theorem at5_arg4 : W5 m ρ c (Proc.devRef .tc main_arg4) = x4 m c :=
  (KParams.keep2_arg4 (W4 m ρ c)).trans (at4_arg4 m ρ c)
theorem at6_arg4 : W6 m ρ c (Proc.devRef .tc main_arg4) = x4 m c :=
  (W6_of_ne m ρ c main_arg4 (by decide)).trans (at5_arg4 m ρ c)
theorem at7_arg4 : W7 m ρ c (Proc.devRef .tc main_arg4) = x4 m c :=
  (KParams.keep3_arg4 (W6 m ρ c)).trans (at6_arg4 m ρ c)
theorem at8_arg4 : W8 m ρ c (Proc.devRef .tc main_arg4) = x4 m c :=
  (W8_of_ne m ρ c main_arg4 (by decide)).trans (at7_arg4 m ρ c)
theorem at0_arg5 : W0 m ρ c (Proc.devRef .tc main_arg5) = x5 m c := rfl
theorem at1_arg5 : W1 m ρ c (Proc.devRef .tc main_arg5) = x5 m c :=
  (KParams.keep0_arg5 (W0 m ρ c)).trans (at0_arg5 m ρ c)
theorem at2_arg5 : W2 m ρ c (Proc.devRef .tc main_arg5) = x5 m c :=
  (W2_of_ne m ρ c main_arg5 (by decide)).trans (at1_arg5 m ρ c)
theorem at3_arg5 : W3 m ρ c (Proc.devRef .tc main_arg5) = x5 m c :=
  (KParams.keep1_arg5 (W2 m ρ c)).trans (at2_arg5 m ρ c)
theorem at4_arg5 : W4 m ρ c (Proc.devRef .tc main_arg5) = x5 m c :=
  (W4_of_ne m ρ c main_arg5 (by decide)).trans (at3_arg5 m ρ c)
theorem at5_arg5 : W5 m ρ c (Proc.devRef .tc main_arg5) = x5 m c :=
  (KParams.keep2_arg5 (W4 m ρ c)).trans (at4_arg5 m ρ c)
theorem at6_arg5 : W6 m ρ c (Proc.devRef .tc main_arg5) = x5 m c :=
  (W6_of_ne m ρ c main_arg5 (by decide)).trans (at5_arg5 m ρ c)
theorem at7_arg5 : W7 m ρ c (Proc.devRef .tc main_arg5) = x5 m c :=
  (KParams.keep3_arg5 (W6 m ρ c)).trans (at6_arg5 m ρ c)
theorem at8_arg5 : W8 m ρ c (Proc.devRef .tc main_arg5) = x5 m c :=
  (W8_of_ne m ρ c main_arg5 (by decide)).trans (at7_arg5 m ρ c)
theorem at0_arg6 : W0 m ρ c (Proc.devRef .tc main_arg6) = x6 m c := rfl
theorem at1_arg6 : W1 m ρ c (Proc.devRef .tc main_arg6) = x6 m c :=
  (KParams.keep0_arg6 (W0 m ρ c)).trans (at0_arg6 m ρ c)
theorem at2_arg6 : W2 m ρ c (Proc.devRef .tc main_arg6) = x6 m c :=
  (W2_of_ne m ρ c main_arg6 (by decide)).trans (at1_arg6 m ρ c)
theorem at3_arg6 : W3 m ρ c (Proc.devRef .tc main_arg6) = x6 m c :=
  (KParams.keep1_arg6 (W2 m ρ c)).trans (at2_arg6 m ρ c)
theorem at4_arg6 : W4 m ρ c (Proc.devRef .tc main_arg6) = x6 m c :=
  (W4_of_ne m ρ c main_arg6 (by decide)).trans (at3_arg6 m ρ c)
theorem at5_arg6 : W5 m ρ c (Proc.devRef .tc main_arg6) = x6 m c :=
  (KParams.keep2_arg6 (W4 m ρ c)).trans (at4_arg6 m ρ c)
theorem at6_arg6 : W6 m ρ c (Proc.devRef .tc main_arg6) = x6 m c :=
  (W6_of_ne m ρ c main_arg6 (by decide)).trans (at5_arg6 m ρ c)
theorem at7_arg6 : W7 m ρ c (Proc.devRef .tc main_arg6) = x6 m c :=
  (KParams.keep3_arg6 (W6 m ρ c)).trans (at6_arg6 m ρ c)
theorem at8_arg6 : W8 m ρ c (Proc.devRef .tc main_arg6) = x6 m c :=
  (W8_of_ne m ρ c main_arg6 (by decide)).trans (at7_arg6 m ρ c)
theorem at0_arg7 : W0 m ρ c (Proc.devRef .tc main_arg7) = x7 m c := rfl
theorem at1_arg7 : W1 m ρ c (Proc.devRef .tc main_arg7) = x7 m c :=
  (KParams.keep0_arg7 (W0 m ρ c)).trans (at0_arg7 m ρ c)
theorem at2_arg7 : W2 m ρ c (Proc.devRef .tc main_arg7) = x7 m c :=
  (W2_of_ne m ρ c main_arg7 (by decide)).trans (at1_arg7 m ρ c)
theorem at3_arg7 : W3 m ρ c (Proc.devRef .tc main_arg7) = x7 m c :=
  (KParams.keep1_arg7 (W2 m ρ c)).trans (at2_arg7 m ρ c)
theorem at4_arg7 : W4 m ρ c (Proc.devRef .tc main_arg7) = x7 m c :=
  (W4_of_ne m ρ c main_arg7 (by decide)).trans (at3_arg7 m ρ c)
theorem at5_arg7 : W5 m ρ c (Proc.devRef .tc main_arg7) = x7 m c :=
  (KParams.keep2_arg7 (W4 m ρ c)).trans (at4_arg7 m ρ c)
theorem at6_arg7 : W6 m ρ c (Proc.devRef .tc main_arg7) = x7 m c :=
  (W6_of_ne m ρ c main_arg7 (by decide)).trans (at5_arg7 m ρ c)
theorem at7_arg7 : W7 m ρ c (Proc.devRef .tc main_arg7) = x7 m c :=
  (KParams.keep3_arg7 (W6 m ρ c)).trans (at6_arg7 m ρ c)
theorem at8_arg7 : W8 m ρ c (Proc.devRef .tc main_arg7) = x7 m c :=
  (W8_of_ne m ρ c main_arg7 (by decide)).trans (at7_arg7 m ρ c)
theorem at0_arg8 : W0 m ρ c (Proc.devRef .tc main_arg8) = x8 m c := rfl
theorem at1_arg8 : W1 m ρ c (Proc.devRef .tc main_arg8) = x8 m c :=
  (KParams.keep0_arg8 (W0 m ρ c)).trans (at0_arg8 m ρ c)
theorem at2_arg8 : W2 m ρ c (Proc.devRef .tc main_arg8) = x8 m c :=
  (W2_of_ne m ρ c main_arg8 (by decide)).trans (at1_arg8 m ρ c)
theorem at3_arg8 : W3 m ρ c (Proc.devRef .tc main_arg8) = x8 m c :=
  (KParams.keep1_arg8 (W2 m ρ c)).trans (at2_arg8 m ρ c)
theorem at4_arg8 : W4 m ρ c (Proc.devRef .tc main_arg8) = x8 m c :=
  (W4_of_ne m ρ c main_arg8 (by decide)).trans (at3_arg8 m ρ c)
theorem at5_arg8 : W5 m ρ c (Proc.devRef .tc main_arg8) = x8 m c :=
  (KParams.keep2_arg8 (W4 m ρ c)).trans (at4_arg8 m ρ c)
theorem at6_arg8 : W6 m ρ c (Proc.devRef .tc main_arg8) = x8 m c :=
  (W6_of_ne m ρ c main_arg8 (by decide)).trans (at5_arg8 m ρ c)
theorem at7_arg8 : W7 m ρ c (Proc.devRef .tc main_arg8) = x8 m c :=
  (KParams.keep3_arg8 (W6 m ρ c)).trans (at6_arg8 m ρ c)
theorem at8_arg8 : W8 m ρ c (Proc.devRef .tc main_arg8) = x8 m c :=
  (W8_of_ne m ρ c main_arg8 (by decide)).trans (at7_arg8 m ρ c)
theorem at0_arg9 : W0 m ρ c (Proc.devRef .tc main_arg9) = x9 m c := rfl
theorem at1_arg9 : W1 m ρ c (Proc.devRef .tc main_arg9) = x9 m c :=
  (KParams.keep0_arg9 (W0 m ρ c)).trans (at0_arg9 m ρ c)
theorem at2_arg9 : W2 m ρ c (Proc.devRef .tc main_arg9) = x9 m c :=
  (W2_of_ne m ρ c main_arg9 (by decide)).trans (at1_arg9 m ρ c)
theorem at3_arg9 : W3 m ρ c (Proc.devRef .tc main_arg9) = x9 m c :=
  (KParams.keep1_arg9 (W2 m ρ c)).trans (at2_arg9 m ρ c)
theorem at4_arg9 : W4 m ρ c (Proc.devRef .tc main_arg9) = x9 m c :=
  (W4_of_ne m ρ c main_arg9 (by decide)).trans (at3_arg9 m ρ c)
theorem at5_arg9 : W5 m ρ c (Proc.devRef .tc main_arg9) = x9 m c :=
  (KParams.keep2_arg9 (W4 m ρ c)).trans (at4_arg9 m ρ c)
theorem at6_arg9 : W6 m ρ c (Proc.devRef .tc main_arg9) = x9 m c :=
  (W6_of_ne m ρ c main_arg9 (by decide)).trans (at5_arg9 m ρ c)
theorem at7_arg9 : W7 m ρ c (Proc.devRef .tc main_arg9) = x9 m c :=
  (KParams.keep3_arg9 (W6 m ρ c)).trans (at6_arg9 m ρ c)
theorem at8_arg9 : W8 m ρ c (Proc.devRef .tc main_arg9) = x9 m c :=
  (W8_of_ne m ρ c main_arg9 (by decide)).trans (at7_arg9 m ρ c)
theorem at9_arg9 : W9 m ρ c (Proc.devRef .tc main_arg9) = x9 m c :=
  (KParams.keep4_arg9 (W8 m ρ c)).trans (at8_arg9 m ρ c)
theorem at10_arg9 : W10 m ρ c (Proc.devRef .tc main_arg9) = x9 m c :=
  (W10_of_ne m ρ c main_arg9 (by decide)).trans (at9_arg9 m ρ c)
theorem at11_arg9 : W11 m ρ c (Proc.devRef .tc main_arg9) = x9 m c :=
  (KParams.keep5_arg9 (W10 m ρ c)).trans (at10_arg9 m ρ c)
theorem at0_arg10 : W0 m ρ c (Proc.devRef .tc main_arg10) = x10 m c := rfl
theorem at1_arg10 : W1 m ρ c (Proc.devRef .tc main_arg10) = x10 m c :=
  (KParams.keep0_arg10 (W0 m ρ c)).trans (at0_arg10 m ρ c)
theorem at2_arg10 : W2 m ρ c (Proc.devRef .tc main_arg10) = x10 m c :=
  (W2_of_ne m ρ c main_arg10 (by decide)).trans (at1_arg10 m ρ c)
theorem at3_arg10 : W3 m ρ c (Proc.devRef .tc main_arg10) = x10 m c :=
  (KParams.keep1_arg10 (W2 m ρ c)).trans (at2_arg10 m ρ c)
theorem at4_arg10 : W4 m ρ c (Proc.devRef .tc main_arg10) = x10 m c :=
  (W4_of_ne m ρ c main_arg10 (by decide)).trans (at3_arg10 m ρ c)
theorem at5_arg10 : W5 m ρ c (Proc.devRef .tc main_arg10) = x10 m c :=
  (KParams.keep2_arg10 (W4 m ρ c)).trans (at4_arg10 m ρ c)
theorem at6_arg10 : W6 m ρ c (Proc.devRef .tc main_arg10) = x10 m c :=
  (W6_of_ne m ρ c main_arg10 (by decide)).trans (at5_arg10 m ρ c)
theorem at7_arg10 : W7 m ρ c (Proc.devRef .tc main_arg10) = x10 m c :=
  (KParams.keep3_arg10 (W6 m ρ c)).trans (at6_arg10 m ρ c)
theorem at8_arg10 : W8 m ρ c (Proc.devRef .tc main_arg10) = x10 m c :=
  (W8_of_ne m ρ c main_arg10 (by decide)).trans (at7_arg10 m ρ c)
theorem at9_arg10 : W9 m ρ c (Proc.devRef .tc main_arg10) = x10 m c :=
  (KParams.keep4_arg10 (W8 m ρ c)).trans (at8_arg10 m ρ c)
theorem at10_arg10 : W10 m ρ c (Proc.devRef .tc main_arg10) = x10 m c :=
  (W10_of_ne m ρ c main_arg10 (by decide)).trans (at9_arg10 m ρ c)
theorem at0_arg11 : W0 m ρ c (Proc.devRef .tc main_arg11) = x11 m c := rfl
theorem at1_arg11 : W1 m ρ c (Proc.devRef .tc main_arg11) = x11 m c :=
  (KParams.keep0_arg11 (W0 m ρ c)).trans (at0_arg11 m ρ c)
theorem at2_arg11 : W2 m ρ c (Proc.devRef .tc main_arg11) = x11 m c :=
  (W2_of_ne m ρ c main_arg11 (by decide)).trans (at1_arg11 m ρ c)
theorem at3_arg11 : W3 m ρ c (Proc.devRef .tc main_arg11) = x11 m c :=
  (KParams.keep1_arg11 (W2 m ρ c)).trans (at2_arg11 m ρ c)
theorem at4_arg11 : W4 m ρ c (Proc.devRef .tc main_arg11) = x11 m c :=
  (W4_of_ne m ρ c main_arg11 (by decide)).trans (at3_arg11 m ρ c)
theorem at5_arg11 : W5 m ρ c (Proc.devRef .tc main_arg11) = x11 m c :=
  (KParams.keep2_arg11 (W4 m ρ c)).trans (at4_arg11 m ρ c)
theorem at6_arg11 : W6 m ρ c (Proc.devRef .tc main_arg11) = x11 m c :=
  (W6_of_ne m ρ c main_arg11 (by decide)).trans (at5_arg11 m ρ c)
theorem at7_arg11 : W7 m ρ c (Proc.devRef .tc main_arg11) = x11 m c :=
  (KParams.keep3_arg11 (W6 m ρ c)).trans (at6_arg11 m ρ c)
theorem at8_arg11 : W8 m ρ c (Proc.devRef .tc main_arg11) = x11 m c :=
  (W8_of_ne m ρ c main_arg11 (by decide)).trans (at7_arg11 m ρ c)
theorem at9_arg11 : W9 m ρ c (Proc.devRef .tc main_arg11) = x11 m c :=
  (KParams.keep4_arg11 (W8 m ρ c)).trans (at8_arg11 m ρ c)
theorem at10_arg11 : W10 m ρ c (Proc.devRef .tc main_arg11) = x11 m c :=
  (W10_of_ne m ρ c main_arg11 (by decide)).trans (at9_arg11 m ρ c)
theorem at11_arg11 : W11 m ρ c (Proc.devRef .tc main_arg11) = x11 m c :=
  (KParams.keep5_arg11 (W10 m ρ c)).trans (at10_arg11 m ρ c)
theorem at0_arg12 : W0 m ρ c (Proc.devRef .tc main_arg12) = x12 m c := rfl
theorem at1_arg12 : W1 m ρ c (Proc.devRef .tc main_arg12) = x12 m c :=
  (KParams.keep0_arg12 (W0 m ρ c)).trans (at0_arg12 m ρ c)
theorem at2_arg12 : W2 m ρ c (Proc.devRef .tc main_arg12) = x12 m c :=
  (W2_of_ne m ρ c main_arg12 (by decide)).trans (at1_arg12 m ρ c)
theorem at3_arg12 : W3 m ρ c (Proc.devRef .tc main_arg12) = x12 m c :=
  (KParams.keep1_arg12 (W2 m ρ c)).trans (at2_arg12 m ρ c)
theorem at4_arg12 : W4 m ρ c (Proc.devRef .tc main_arg12) = x12 m c :=
  (W4_of_ne m ρ c main_arg12 (by decide)).trans (at3_arg12 m ρ c)
theorem at5_arg12 : W5 m ρ c (Proc.devRef .tc main_arg12) = x12 m c :=
  (KParams.keep2_arg12 (W4 m ρ c)).trans (at4_arg12 m ρ c)
theorem at6_arg12 : W6 m ρ c (Proc.devRef .tc main_arg12) = x12 m c :=
  (W6_of_ne m ρ c main_arg12 (by decide)).trans (at5_arg12 m ρ c)
theorem at7_arg12 : W7 m ρ c (Proc.devRef .tc main_arg12) = x12 m c :=
  (KParams.keep3_arg12 (W6 m ρ c)).trans (at6_arg12 m ρ c)
theorem at8_arg12 : W8 m ρ c (Proc.devRef .tc main_arg12) = x12 m c :=
  (W8_of_ne m ρ c main_arg12 (by decide)).trans (at7_arg12 m ρ c)
theorem at9_arg12 : W9 m ρ c (Proc.devRef .tc main_arg12) = x12 m c :=
  (KParams.keep4_arg12 (W8 m ρ c)).trans (at8_arg12 m ρ c)
theorem at10_arg12 : W10 m ρ c (Proc.devRef .tc main_arg12) = x12 m c :=
  (W10_of_ne m ρ c main_arg12 (by decide)).trans (at9_arg12 m ρ c)
theorem at1_v1 : W1 m ρ c (Proc.devRef .tc main_v1) = val_main_v1 (F := Ideal) (x1 m c) :=
  KAgg0.v1 (W0 m ρ c) (x1 m c) rfl
theorem at2_v1 : W2 m ρ c (Proc.devRef .tc main_v1) = val_main_v1 (F := Ideal) (x1 m c) :=
  (W2_of_ne m ρ c main_v1 (by decide)).trans (at1_v1 m ρ c)
theorem at3_v1 : W3 m ρ c (Proc.devRef .tc main_v1) = val_main_v1 (F := Ideal) (x1 m c) :=
  (KParams.keep1_v1 (W2 m ρ c)).trans (at2_v1 m ρ c)
theorem at4_v1 : W4 m ρ c (Proc.devRef .tc main_v1) = val_main_v1 (F := Ideal) (x1 m c) :=
  (W4_of_ne m ρ c main_v1 (by decide)).trans (at3_v1 m ρ c)
theorem at5_v1 : W5 m ρ c (Proc.devRef .tc main_v1) = val_main_v1 (F := Ideal) (x1 m c) :=
  (KParams.keep2_v1 (W4 m ρ c)).trans (at4_v1 m ρ c)
theorem at6_v1 : W6 m ρ c (Proc.devRef .tc main_v1) = val_main_v1 (F := Ideal) (x1 m c) :=
  (W6_of_ne m ρ c main_v1 (by decide)).trans (at5_v1 m ρ c)
theorem at7_v1 : W7 m ρ c (Proc.devRef .tc main_v1) = val_main_v1 (F := Ideal) (x1 m c) :=
  (KParams.keep3_v1 (W6 m ρ c)).trans (at6_v1 m ρ c)
theorem at8_v1 : W8 m ρ c (Proc.devRef .tc main_v1) = val_main_v1 (F := Ideal) (x1 m c) :=
  (W8_of_ne m ρ c main_v1 (by decide)).trans (at7_v1 m ρ c)
theorem at1_v3 : W1 m ρ c (Proc.devRef .tc main_v3) = val_main_v3 (F := Ideal) (x1 m c) :=
  KAgg0.v3 (W0 m ρ c) (x1 m c) rfl
theorem at2_v3 : W2 m ρ c (Proc.devRef .tc main_v3) = val_main_v3 (F := Ideal) (x1 m c) :=
  (W2_of_ne m ρ c main_v3 (by decide)).trans (at1_v3 m ρ c)
theorem at3_v3 : W3 m ρ c (Proc.devRef .tc main_v3) = val_main_v3 (F := Ideal) (x1 m c) :=
  (KParams.keep1_v3 (W2 m ρ c)).trans (at2_v3 m ρ c)
theorem at4_v3 : W4 m ρ c (Proc.devRef .tc main_v3) = val_main_v3 (F := Ideal) (x1 m c) :=
  (W4_of_ne m ρ c main_v3 (by decide)).trans (at3_v3 m ρ c)
theorem at5_v3 : W5 m ρ c (Proc.devRef .tc main_v3) = val_main_v3 (F := Ideal) (x1 m c) :=
  (KParams.keep2_v3 (W4 m ρ c)).trans (at4_v3 m ρ c)
theorem at6_v3 : W6 m ρ c (Proc.devRef .tc main_v3) = val_main_v3 (F := Ideal) (x1 m c) :=
  (W6_of_ne m ρ c main_v3 (by decide)).trans (at5_v3 m ρ c)
theorem at7_v3 : W7 m ρ c (Proc.devRef .tc main_v3) = val_main_v3 (F := Ideal) (x1 m c) :=
  (KParams.keep3_v3 (W6 m ρ c)).trans (at6_v3 m ρ c)
theorem at8_v3 : W8 m ρ c (Proc.devRef .tc main_v3) = val_main_v3 (F := Ideal) (x1 m c) :=
  (W8_of_ne m ρ c main_v3 (by decide)).trans (at7_v3 m ρ c)
theorem at1_v26 : W1 m ρ c (Proc.devRef .tc main_v26) = val_main_v26 (F := Ideal) (x1 m c) :=
  KAgg0.v26 (W0 m ρ c) (x1 m c) rfl
theorem at2_v26 : W2 m ρ c (Proc.devRef .tc main_v26) = val_main_v26 (F := Ideal) (x1 m c) :=
  (W2_of_ne m ρ c main_v26 (by decide)).trans (at1_v26 m ρ c)
theorem at3_v26 : W3 m ρ c (Proc.devRef .tc main_v26) = val_main_v26 (F := Ideal) (x1 m c) :=
  (KParams.keep1_v26 (W2 m ρ c)).trans (at2_v26 m ρ c)
theorem at4_v26 : W4 m ρ c (Proc.devRef .tc main_v26) = val_main_v26 (F := Ideal) (x1 m c) :=
  (W4_of_ne m ρ c main_v26 (by decide)).trans (at3_v26 m ρ c)
theorem at5_v26 : W5 m ρ c (Proc.devRef .tc main_v26) = val_main_v26 (F := Ideal) (x1 m c) :=
  (KParams.keep2_v26 (W4 m ρ c)).trans (at4_v26 m ρ c)
theorem at6_v26 : W6 m ρ c (Proc.devRef .tc main_v26) = val_main_v26 (F := Ideal) (x1 m c) :=
  (W6_of_ne m ρ c main_v26 (by decide)).trans (at5_v26 m ρ c)
theorem at7_v26 : W7 m ρ c (Proc.devRef .tc main_v26) = val_main_v26 (F := Ideal) (x1 m c) :=
  (KParams.keep3_v26 (W6 m ρ c)).trans (at6_v26 m ρ c)
theorem at8_v26 : W8 m ρ c (Proc.devRef .tc main_v26) = val_main_v26 (F := Ideal) (x1 m c) :=
  (W8_of_ne m ρ c main_v26 (by decide)).trans (at7_v26 m ρ c)
theorem at1_v29 : W1 m ρ c (Proc.devRef .tc main_v29) = val_main_v29 (F := Ideal) (x1 m c) :=
  KAgg0.v29 (W0 m ρ c) (x1 m c) rfl
theorem at2_v29 : W2 m ρ c (Proc.devRef .tc main_v29) = val_main_v29 (F := Ideal) (x1 m c) :=
  (W2_of_ne m ρ c main_v29 (by decide)).trans (at1_v29 m ρ c)
theorem at3_v29 : W3 m ρ c (Proc.devRef .tc main_v29) = val_main_v29 (F := Ideal) (x1 m c) :=
  (KParams.keep1_v29 (W2 m ρ c)).trans (at2_v29 m ρ c)
theorem at4_v29 : W4 m ρ c (Proc.devRef .tc main_v29) = val_main_v29 (F := Ideal) (x1 m c) :=
  (W4_of_ne m ρ c main_v29 (by decide)).trans (at3_v29 m ρ c)
theorem at5_v29 : W5 m ρ c (Proc.devRef .tc main_v29) = val_main_v29 (F := Ideal) (x1 m c) :=
  (KParams.keep2_v29 (W4 m ρ c)).trans (at4_v29 m ρ c)
theorem at6_v29 : W6 m ρ c (Proc.devRef .tc main_v29) = val_main_v29 (F := Ideal) (x1 m c) :=
  (W6_of_ne m ρ c main_v29 (by decide)).trans (at5_v29 m ρ c)
theorem at7_v29 : W7 m ρ c (Proc.devRef .tc main_v29) = val_main_v29 (F := Ideal) (x1 m c) :=
  (KParams.keep3_v29 (W6 m ρ c)).trans (at6_v29 m ρ c)
theorem at8_v29 : W8 m ρ c (Proc.devRef .tc main_v29) = val_main_v29 (F := Ideal) (x1 m c) :=
  (W8_of_ne m ρ c main_v29 (by decide)).trans (at7_v29 m ρ c)

/-! ## The chain of regions and stretches -/

/-- After region 0: the first dense map is the reference's first dot. -/
theorem r0 : W2 m ρ c (Proc.devRef .tc Cert.KernelIdeal.main_v32) = val_main_v32 (F := Ideal) (x0 m c) (x3 m c) :=
  (W2_arr m ρ c 2).trans <| (Reg0.value (V1 m ρ) c).trans <| by
    unfold Reg0.G
    rw [Cert.ReferenceIdeal.RefVal.lin0]
    have e0 : V1 m ρ c Cert.KernelIdeal.main_arg0 = x0 m c := KParams.keep0_arg0 (W0 m ρ c)
    have e1 : Spec.cur2 (V1 m ρ c Cert.KernelIdeal.main_v31) = Spec.wslab (x3 m c) 0 := KParams.w0 (W0 m ρ c)
    rw [e0, e1]

/-- Layer 0's aggregation. -/
theorem s1 : W3 m ρ c (Proc.devRef .tc Cert.KernelIdeal.main_v47) = val_main_v47 (F := Ideal) (x0 m c) (x1 m c) (x3 m c) :=
  KAgg1.agg (W2 m ρ c) (x0 m c) (x1 m c) (x3 m c) (r0 m ρ c) (at2_v1 m ρ c) (at2_v3 m ρ c) (at2_v26 m ρ c) (at2_v29 m ρ c)

/-- After region 1: layer 0's normalisation and layer 1's dense map, the reference's stage. -/
theorem r1 : W4 m ρ c (Proc.devRef .tc Cert.KernelIdeal.main_v65) = val_main_v79 (F := Ideal) (x0 m c) (x1 m c) (x3 m c) (x4 m c) (x5 m c) (x6 m c) (x7 m c) (x8 m c) :=
  (W4_arr m ρ c 7).trans <| (Reg1.value (V3 m ρ) c).trans <| by
    unfold Reg1.G
    rw [Cert.ReferenceIdeal.RefVal.layer0]
    have ea : V3 m ρ c main_v47 = _ := s1 m ρ c
    have eb : Spec.row (V3 m ρ c main_v60) = Spec.prow (x4 m c) 0 := (KParams.b0 (W2 m ρ c)).trans (by rw [at2_arg4])
    have eg : Spec.row (V3 m ρ c main_v61) = Spec.prow (x5 m c) 0 := (KParams.g0 (W2 m ρ c)).trans (by rw [at2_arg5])
    have ebe : Spec.row (V3 m ρ c main_v62) = Spec.prow (x6 m c) 0 := (KParams.be0 (W2 m ρ c)).trans (by rw [at2_arg6])
    have emu : Spec.row (V3 m ρ c main_v63) = Spec.prow (x7 m c) 0 := (KParams.mu0 (W2 m ρ c)).trans (by rw [at2_arg7])
    have evar : Spec.row (V3 m ρ c main_v64) = Spec.prow (x8 m c) 0 := (KParams.var0 (W2 m ρ c)).trans (by rw [at2_arg8])
    have ew : Spec.cur2 (V3 m ρ c main_v59) = Spec.wslab (x3 m c) 1 := (KParams.w1 (W2 m ρ c)).trans (by rw [at2_arg3])
    rw [ea, eb, eg, ebe, emu, evar, ew]

/-- Layer 1's aggregation. -/
theorem s2 : W5 m ρ c (Proc.devRef .tc Cert.KernelIdeal.main_v80) = val_main_v94 (F := Ideal) (x0 m c) (x1 m c) (x3 m c) (x4 m c) (x5 m c) (x6 m c) (x7 m c) (x8 m c) :=
  KAgg2.agg (W4 m ρ c) (x0 m c) (x1 m c) (x3 m c) (x4 m c) (x5 m c) (x6 m c) (x7 m c) (x8 m c) (r1 m ρ c) (at4_v1 m ρ c) (at4_v3 m ρ c) (at4_v26 m ρ c) (at4_v29 m ρ c)

/-- After region 2: layer 1's normalisation and layer 2's dense map, the reference's stage. -/
theorem r2 : W6 m ρ c (Proc.devRef .tc Cert.KernelIdeal.main_v98) = val_main_v126 (F := Ideal) (x0 m c) (x1 m c) (x3 m c) (x4 m c) (x5 m c) (x6 m c) (x7 m c) (x8 m c) :=
  (W6_arr m ρ c 7).trans <| (Reg2.value (V5 m ρ) c).trans <| by
    unfold Reg2.G
    rw [Cert.ReferenceIdeal.RefVal.layer1]
    have ea : V5 m ρ c main_v80 = _ := s2 m ρ c
    have eb : Spec.row (V5 m ρ c main_v93) = Spec.prow (x4 m c) 1 := (KParams.b1 (W4 m ρ c)).trans (by rw [at4_arg4])
    have eg : Spec.row (V5 m ρ c main_v94) = Spec.prow (x5 m c) 1 := (KParams.g1 (W4 m ρ c)).trans (by rw [at4_arg5])
    have ebe : Spec.row (V5 m ρ c main_v95) = Spec.prow (x6 m c) 1 := (KParams.be1 (W4 m ρ c)).trans (by rw [at4_arg6])
    have emu : Spec.row (V5 m ρ c main_v96) = Spec.prow (x7 m c) 1 := (KParams.mu1 (W4 m ρ c)).trans (by rw [at4_arg7])
    have evar : Spec.row (V5 m ρ c main_v97) = Spec.prow (x8 m c) 1 := (KParams.var1 (W4 m ρ c)).trans (by rw [at4_arg8])
    have ew : Spec.cur2 (V5 m ρ c main_v92) = Spec.wslab (x3 m c) 2 := (KParams.w2 (W4 m ρ c)).trans (by rw [at4_arg3])
    rw [ea, eb, eg, ebe, emu, evar, ew]

/-- Layer 2's aggregation. -/
theorem s3 : W7 m ρ c (Proc.devRef .tc Cert.KernelIdeal.main_v113) = val_main_v141 (F := Ideal) (x0 m c) (x1 m c) (x3 m c) (x4 m c) (x5 m c) (x6 m c) (x7 m c) (x8 m c) :=
  KAgg3.agg (W6 m ρ c) (x0 m c) (x1 m c) (x3 m c) (x4 m c) (x5 m c) (x6 m c) (x7 m c) (x8 m c) (r2 m ρ c) (at6_v1 m ρ c) (at6_v3 m ρ c) (at6_v26 m ρ c) (at6_v29 m ρ c)

/-- After region 3: layer 2's normalisation and layer 3's dense map, the reference's stage. -/
theorem r3 : W8 m ρ c (Proc.devRef .tc Cert.KernelIdeal.main_v131) = val_main_v173 (F := Ideal) (x0 m c) (x1 m c) (x3 m c) (x4 m c) (x5 m c) (x6 m c) (x7 m c) (x8 m c) :=
  (W8_arr m ρ c 7).trans <| (Reg3.value (V7 m ρ) c).trans <| by
    unfold Reg3.G
    rw [Cert.ReferenceIdeal.RefVal.layer2]
    have ea : V7 m ρ c main_v113 = _ := s3 m ρ c
    have eb : Spec.row (V7 m ρ c main_v126) = Spec.prow (x4 m c) 2 := (KParams.b2 (W6 m ρ c)).trans (by rw [at6_arg4])
    have eg : Spec.row (V7 m ρ c main_v127) = Spec.prow (x5 m c) 2 := (KParams.g2 (W6 m ρ c)).trans (by rw [at6_arg5])
    have ebe : Spec.row (V7 m ρ c main_v128) = Spec.prow (x6 m c) 2 := (KParams.be2 (W6 m ρ c)).trans (by rw [at6_arg6])
    have emu : Spec.row (V7 m ρ c main_v129) = Spec.prow (x7 m c) 2 := (KParams.mu2 (W6 m ρ c)).trans (by rw [at6_arg7])
    have evar : Spec.row (V7 m ρ c main_v130) = Spec.prow (x8 m c) 2 := (KParams.var2 (W6 m ρ c)).trans (by rw [at6_arg8])
    have ew : Spec.cur2 (V7 m ρ c main_v125) = Spec.wslab (x3 m c) 3 := (KParams.w3 (W6 m ρ c)).trans (by rw [at6_arg3])
    rw [ea, eb, eg, ebe, emu, evar, ew]

/-- Layer 3's aggregation. -/
theorem s4 : W9 m ρ c (Proc.devRef .tc Cert.KernelIdeal.main_v146) = val_main_v188 (F := Ideal) (x0 m c) (x1 m c) (x3 m c) (x4 m c) (x5 m c) (x6 m c) (x7 m c) (x8 m c) :=
  KAgg4.agg (W8 m ρ c) (x0 m c) (x1 m c) (x3 m c) (x4 m c) (x5 m c) (x6 m c) (x7 m c) (x8 m c) (r3 m ρ c) (at8_v1 m ρ c) (at8_v3 m ρ c) (at8_v26 m ρ c) (at8_v29 m ρ c)

/-- After region 4: layer 3's normalisation, the reference's stage. -/
theorem r4 : W10 m ρ c (Proc.devRef .tc Cert.KernelIdeal.main_v162) = val_main_v217 (F := Ideal) (x0 m c) (x1 m c) (x3 m c) (x4 m c) (x5 m c) (x6 m c) (x7 m c) (x8 m c) :=
  (W10_arr m ρ c 6).trans <| (Reg4.value (V9 m ρ) c).trans <| by
    unfold Reg4.G
    rw [Cert.ReferenceIdeal.RefVal.layer3]
    have ea : V9 m ρ c main_v146 = _ := s4 m ρ c
    have eb : Spec.row (V9 m ρ c main_v157) = Spec.prow (x4 m c) 3 := (KParams.b3 (W8 m ρ c)).trans (by rw [at8_arg4])
    have eg : Spec.row (V9 m ρ c main_v158) = Spec.prow (x5 m c) 3 := (KParams.g3 (W8 m ρ c)).trans (by rw [at8_arg5])
    have ebe : Spec.row (V9 m ρ c main_v159) = Spec.prow (x6 m c) 3 := (KParams.be3 (W8 m ρ c)).trans (by rw [at8_arg6])
    have emu : Spec.row (V9 m ρ c main_v160) = Spec.prow (x7 m c) 3 := (KParams.mu3 (W8 m ρ c)).trans (by rw [at8_arg7])
    have evar : Spec.row (V9 m ρ c main_v161) = Spec.prow (x8 m c) 3 := (KParams.var3 (W8 m ρ c)).trans (by rw [at8_arg8])
    rw [ea, eb, eg, ebe, emu, evar]

/-- The pooled features. -/
theorem s5 : W11 m ρ c (Proc.devRef .tc Cert.KernelIdeal.main_v174) = val_main_v229 (F := Ideal) (x0 m c) (x1 m c) (x2 m c) (x3 m c) (x4 m c) (x5 m c) (x6 m c) (x7 m c) (x8 m c) :=
  KPool.pooled (W10 m ρ c) (x0 m c) (x1 m c) (x2 m c) (x3 m c) (x4 m c) (x5 m c) (x6 m c) (x7 m c) (x8 m c) (r4 m ρ c) (at10_arg2 m ρ c)

/-- THE RESULT: after the last region the result buffer holds the reference's last stage of the launch arguments. -/
theorem result : W12 m ρ c (Proc.devRef .tc Cert.KernelIdeal.main_v177)
    = val_main_v238 (F := Ideal) (x0 m c) (x1 m c) (x2 m c) (x3 m c) (x4 m c) (x5 m c) (x6 m c) (x7 m c) (x8 m c) (x9 m c) (x10 m c) (x11 m c) (x12 m c) :=
  (W12_arr m ρ c 5).trans <| (Reg5.value (V11 m ρ) c).trans <| by
    unfold Reg5.G
    rw [Cert.ReferenceIdeal.RefVal.head]
    have ep : V11 m ρ c Cert.KernelIdeal.main_v174 = _ := s5 m ρ c
    have ew1 : V11 m ρ c Cert.KernelIdeal.main_arg9 = x9 m c := at11_arg9 m ρ c
    have eb1 : Spec.row (V11 m ρ c Cert.KernelIdeal.main_v175) = fun k => x10 m c (ix1 k) := (KParams.hb1 (W10 m ρ c)).trans (by rw [at10_arg10])
    have ew2 : V11 m ρ c Cert.KernelIdeal.main_arg11 = x11 m c := at11_arg11 m ρ c
    have eb2 : V11 m ρ c Cert.KernelIdeal.main_v176 (ix2 (0 : Fin 1) (0 : Fin 1)) = x12 m c (ix1 (0 : Fin 1)) := (KParams.hb2 (W10 m ρ c)).trans (by rw [at10_arg12])
    rw [ep, ew1, eb1, ew2, eb2]
    rfl

end Cert.KernelIdeal.KValue

end
-- ==== Proof.lean ====
/-
  The certificate of the graph-convolution kernel against its reference.

  The kernel program computes four graph-convolution layers and a two-layer head as six kernel regions among host operations;
  the reference computes the same network with host operations only.  The neighbourhood aggregation and the mean pool are the
  same host operations in both programs.  Each kernel region is, as a function of the arrays it finds, what the reference
  computes with several array operations: the dense map h · W, fused with the previous layer's bias, ReLU and batch
  normalisation; rounding to bfloat16 on the way into the matrix unit is the identity at the ideal reading.  So at the ideal
  reading the two programs' results are the same sums of the same products, entry by entry, and the claim needs no law of
  arithmetic and no use of the finiteness of the inputs.

  The three frames: the two kernel programs by their generated frame certificates, the reference by its run.  The
  idealization rewrote no operation, so its claim is trivial.
-/
import proofs.«100997_j79285096284187_1_alg».proof.Defs
import proofs.«100997_j79285096284187_1_alg».proof.Proof.Gen.Kernel
import proofs.«100997_j79285096284187_1_alg».proof.Proof.Gen.Kernel.Skeleton
import proofs.«100997_j79285096284187_1_alg».proof.Proof.Gen.Kernel.Launch
import proofs.«100997_j79285096284187_1_alg».proof.Proof.Gen.Kernel.Points
import proofs.«100997_j79285096284187_1_alg».proof.Proof.Gen.Kernel.Frame
import proofs.«100997_j79285096284187_1_alg».proof.Proof.Gen.KernelIdeal
import proofs.«100997_j79285096284187_1_alg».proof.Proof.Gen.KernelIdeal.Skeleton
import proofs.«100997_j79285096284187_1_alg».proof.Proof.Gen.KernelIdeal.Launch
import proofs.«100997_j79285096284187_1_alg».proof.Proof.Gen.KernelIdeal.Points
import proofs.«100997_j79285096284187_1_alg».proof.Proof.Gen.KernelIdeal.Frame
import proofs.«100997_j79285096284187_1_alg».proof.Proof.Gen.ReferenceIdeal
import proofs.«100997_j79285096284187_1_alg».proof.Proof.Gen.Pre_finite_inputs
import proofs.«100997_j79285096284187_1_alg».proof.Proof.RefRun
import proofs.«100997_j79285096284187_1_alg».proof.Proof.RefRead
import proofs.«100997_j79285096284187_1_alg».proof.Proof.KRun
import proofs.«100997_j79285096284187_1_alg».proof.Proof.KValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end, from memories agreeing on the arguments, with the reference's last stage of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W12 m ρ c (Proc.devRef .tc Cert.KernelIdeal.main_v177), Cert.KernelIdeal.KRun.run (F := Ideal) m ρ, ?_⟩
  refine (θ_run Cert.ReferenceIdeal.defs _ _).mono (fun _ h c => ⟨(h c).1.trans ?_, (h c).2⟩) (Cert.ReferenceIdeal.ValueP.run (F := Ideal) m' ρ')
  show Cert.ReferenceIdeal.ValueP.res_main_v238 m' c = Cert.KernelIdeal.Gen.W12 m ρ c (Proc.devRef .tc Cert.KernelIdeal.main_v177)
  rw [Cert.ReferenceIdeal.ReadP.val_main_v238_eq, Cert.KernelIdeal.KValue.result]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
